-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x256 : Shape := ⟨2, ![4096, 256]⟩
abbrev S4096x4096 : Shape := ⟨2, ![4096, 4096]⟩
abbrev S256x256 : Shape := ⟨2, ![256, 256]⟩
abbrev S512x256 : Shape := ⟨2, ![512, 256]⟩
abbrev S512x1 : Shape := ⟨2, ![512, 1]⟩
abbrev S8192x2 : Shape := ⟨2, ![8192, 2]⟩
abbrev S_ : Shape := ⟨0, ![]⟩

class Facts : Prop where
  bcast_S_S4096x256 : S_.BroadcastsInDim S4096x256 (![] : Fin 0 → Fin S4096x256.rank)
  reducesTo_S4096x256_S_d0_1 : S4096x256.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S256x256 : S_.BroadcastsInDim S256x256 (![] : Fin 0 → Fin S256x256.rank)
  reducesTo_S256x256_S_d0_1 : S256x256.ReducesTo [0, 1] S_
  bcast_S_S512x256 : S_.BroadcastsInDim S512x256 (![] : Fin 0 → Fin S512x256.rank)
  reducesTo_S512x256_S_d0_1 : S512x256.ReducesTo [0, 1] S_
  bcast_S_S512x1 : S_.BroadcastsInDim S512x1 (![] : Fin 0 → Fin S512x1.rank)
  reducesTo_S512x1_S_d0_1 : S512x1.ReducesTo [0, 1] S_
  bcast_S_S8192x2 : S_.BroadcastsInDim S8192x2 (![] : Fin 0 → Fin S8192x2.rank)
  reducesTo_S8192x2_S_d0_1 : S8192x2.ReducesTo [0, 1] S_

variable [Facts]

def fn_part2 {F : FTy → Type} [FloatOps F] (main_arg6 : IVec S8192x2 32) (main_v30 : IVec S_ 1) (main_v32 : IVec S8192x2 1) (main_c_12 : IVec S_ 32) : IVec S_ 1 :=
  let main_v33 : IVec S8192x2 32 := broadcastInDim S8192x2 ![] bcast_S_S8192x2 main_c_12
  let main_v34 : IVec S8192x2 1 := cmpi .slt main_arg6 main_v33
  let main_v35 : IVec S8192x2 1 := andi main_v32 main_v34
  let main_c_13 : IVec S_ 1 := constantI S_ 1 1#1
  let main_v36 : IVec S_ 1 := (fun x v => Host.reduce IntOp.andi x v reducesTo_S8192x2_S_d0_1 h_S_) main_v35 main_c_13
  let main_v37 : IVec S_ 1 := andi main_v30 main_v36
  main_v37

def fn_part1 {F : FTy → Type} [FloatOps F] (main_arg4 : FVec F S512x1 .f32) (main_arg5 : IVec S8192x2 32) (main_arg6 : IVec S8192x2 32) (main_v13 : IVec S_ 1) (main_v16 : IVec S512x256 1) : IVec S_ 1 :=
  let main_c_5 : IVec S_ 1 := constantI S_ 1 1#1
  let main_v17 : IVec S_ 1 := (fun x v => Host.reduce IntOp.andi x v reducesTo_S512x256_S_d0_1 h_S_) main_v16 main_c_5
  let main_v18 : IVec S_ 1 := andi main_v13 main_v17
  let main_v19 : FVec F S512x1 .f32 := Host.absf main_arg4
  let main_cst_6 : FVec F S_ .f32 := constant S_ .f32 0x7F800000#32
  let main_v20 : FVec F S512x1 .f32 := broadcastInDim S512x1 ![] bcast_S_S512x1 main_cst_6
  let main_v21 : IVec S512x1 1 := cmpf .olt main_v19 main_v20
  let main_c_7 : IVec S_ 1 := constantI S_ 1 1#1
  let main_v22 : IVec S_ 1 := (fun x v => Host.reduce IntOp.andi x v reducesTo_S512x1_S_d0_1 h_S_) main_v21 main_c_7
  let main_v23 : IVec S_ 1 := andi main_v18 main_v22
  let main_c_8 : IVec S_ 32 := constantI S_ 32 0#32
  let main_v24 : IVec S8192x2 32 := broadcastInDim S8192x2 ![] bcast_S_S8192x2 main_c_8
  let main_v25 : IVec S8192x2 1 := cmpi .sge main_arg5 main_v24
  let main_c_9 : IVec S_ 32 := constantI S_ 32 4096#32
  let main_v26 : IVec S8192x2 32 := broadcastInDim S8192x2 ![] bcast_S_S8192x2 main_c_9
  let main_v27 : IVec S8192x2 1 := cmpi .slt main_arg5 main_v26
  let main_v28 : IVec S8192x2 1 := andi main_v25 main_v27
  let main_c_10 : IVec S_ 1 := constantI S_ 1 1#1
  let main_v29 : IVec S_ 1 := (fun x v => Host.reduce IntOp.andi x v reducesTo_S8192x2_S_d0_1 h_S_) main_v28 main_c_10
  let main_v30 : IVec S_ 1 := andi main_v23 main_v29
  let main_c_11 : IVec S_ 32 := constantI S_ 32 0#32
  let main_v31 : IVec S8192x2 32 := broadcastInDim S8192x2 ![] bcast_S_S8192x2 main_c_11
  let main_v32 : IVec S8192x2 1 := cmpi .sge main_arg6 main_v31
  let main_c_12 : IVec S_ 32 := constantI S_ 32 4096#32
  fn_part2 (F := F) main_arg6 main_v30 main_v32 main_c_12

def fn {F : FTy → Type} [FloatOps F] (main_arg0 : FVec F S4096x256 .f32) (main_arg1 : FVec F S4096x4096 .f32) (main_arg2 : FVec F S256x256 .f32) (main_arg3 : FVec F S512x256 .f32) (main_arg4 : FVec F S512x1 .f32) (main_arg5 : IVec S8192x2 32) (main_arg6 : IVec S8192x2 32) : IVec S_ 1 :=
  let main_v0 : FVec F S4096x256 .f32 := Host.absf main_arg0
  let main_cst : FVec F S_ .f32 := constant S_ .f32 0x7F800000#32
  let main_v1 : FVec F S4096x256 .f32 := broadcastInDim S4096x256 ![] bcast_S_S4096x256 main_cst
  let main_v2 : IVec S4096x256 1 := cmpf .olt main_v0 main_v1
  let main_c : IVec S_ 1 := constantI S_ 1 1#1
  let main_v3 : IVec S_ 1 := (fun x v => Host.reduce IntOp.andi x v reducesTo_S4096x256_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S512x256 .f32 := Host.absf main_arg3
  let main_cst_4 : FVec F S_ .f32 := constant S_ .f32 0x7F800000#32
  let main_v15 : FVec F S512x256 .f32 := broadcastInDim S512x256 ![] bcast_S_S512x256 main_cst_4
  let main_v16 : IVec S512x256 1 := cmpf .olt main_v14 main_v15
  fn_part1 (F := F) main_arg4 main_arg5 main_arg6 main_v13 main_v16
-- ==== Kernel.lean ====
abbrev S4096x256 : Shape := ⟨2, ![4096, 256]⟩
abbrev S4096x4096 : Shape := ⟨2, ![4096, 4096]⟩
abbrev S256x256 : Shape := ⟨2, ![256, 256]⟩
abbrev S512x256 : Shape := ⟨2, ![512, 256]⟩
abbrev S512x1 : Shape := ⟨2, ![512, 1]⟩
abbrev S8192x2 : Shape := ⟨2, ![8192, 2]⟩
abbrev S1x512 : Shape := ⟨2, ![1, 512]⟩
abbrev S1x768 : Shape := ⟨2, ![1, 768]⟩
abbrev S256x4096 : Shape := ⟨2, ![256, 4096]⟩
abbrev S1x256 : Shape := ⟨2, ![1, 256]⟩
abbrev S16384x1 : Shape := ⟨2, ![16384, 1]⟩
abbrev S512x2 : Shape := ⟨2, ![512, 2]⟩
abbrev S1024x1 : Shape := ⟨2, ![1024, 1]⟩
abbrev S1024x4096 : Shape := ⟨2, ![1024, 4096]⟩
abbrev S1024x256 : Shape := ⟨2, ![1024, 256]⟩
abbrev S512 : Shape := ⟨1, ![512]⟩

abbrev nBuf : Space → Nat
  | .hbm => 11
  | .vmem => 18
  | .smem => 0
  | _ => 0

abbrev bufTy : (tb : Table) → Fin (tcTables nBuf tb) → BufTy
  | .hbm, ⟨0, _⟩ => ⟨S4096x256, .f32⟩
  | .hbm, ⟨1, _⟩ => ⟨S4096x4096, .f32⟩
  | .hbm, ⟨2, _⟩ => ⟨S256x256, .f32⟩
  | .hbm, ⟨3, _⟩ => ⟨S512x256, .f32⟩
  | .hbm, ⟨4, _⟩ => ⟨S512x1, .f32⟩
  | .hbm, ⟨5, _⟩ => ⟨S8192x2, .i32⟩
  | .hbm, ⟨6, _⟩ => ⟨S8192x2, .i32⟩
  | .hbm, ⟨7, _⟩ => ⟨S1x512, .f32⟩
  | .hbm, ⟨8, _⟩ => ⟨S4096x256, .bf16⟩
  | .hbm, ⟨9, _⟩ => ⟨S1x768, .f32⟩
  | .hbm, ⟨10, _⟩ => ⟨S16384x1, .f32⟩
  | .local _ .vmem, ⟨0, _⟩ => ⟨S256x4096, .f32⟩
  | .local _ .vmem, ⟨1, _⟩ => ⟨S256x4096, .f32⟩
  | .local _ .vmem, ⟨2, _⟩ => ⟨S4096x256, .f32⟩
  | .local _ .vmem, ⟨3, _⟩ => ⟨S256x256, .f32⟩
  | .local _ .vmem, ⟨4, _⟩ => ⟨S512x256, .f32⟩
  | .local _ .vmem, ⟨5, _⟩ => ⟨S1x512, .f32⟩
  | .local _ .vmem, ⟨6, _⟩ => ⟨S256x256, .bf16⟩
  | .local _ .vmem, ⟨7, _⟩ => ⟨S256x256, .bf16⟩
  | .local _ .vmem, ⟨8, _⟩ => ⟨S1x768, .f32⟩
  | .local _ .vmem, ⟨9, _⟩ => ⟨S4096x256, .bf16⟩
  | .local _ .vmem, ⟨10, _⟩ => ⟨S512x2, .i32⟩
  | .local _ .vmem, ⟨11, _⟩ => ⟨S512x2, .i32⟩
  | .local _ .vmem, ⟨12, _⟩ => ⟨S512x2, .i32⟩
  | .local _ .vmem, ⟨13, _⟩ => ⟨S512x2, .i32⟩
  | .local _ .vmem, ⟨14, _⟩ => ⟨S4096x256, .bf16⟩
  | .local _ .vmem, ⟨15, _⟩ => ⟨S1x768, .f32⟩
  | .local _ .vmem, ⟨16, _⟩ => ⟨S512x1, .f32⟩
  | .local _ .vmem, ⟨17, _⟩ => ⟨S512x1, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1_0 : Ref sig .tc := ⟨.hbm, 8, rfl⟩
abbrev main_v1_1 : Ref sig .tc := ⟨.hbm, 9, rfl⟩
abbrev main_v2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_scratch0 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg4_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem4_1 : DmaSem sig := 16

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev grid1 : Pipeline.Grid := ⟨1, ![32], ![false]⟩

def cc1_transform_0 (i : grid1.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc1_transform_1 (i : grid1.Coords) : Fin 2 → Nat :=
  let arg0 : BitVec 32 := BitVec.ofNat 32 (i 0).val
  let c16_i32 : BitVec 32 := 16#32
  let v0 : BitVec 32 := Scalar.subi arg0 c16_i32
  let c0_i32 : BitVec 32 := 0#32
  let c15_i32 : BitVec 32 := 15#32
  let v1 : BitVec 32 := Scalar.maxsi c0_i32 v0
  let v2 : BitVec 32 := Scalar.minsi c15_i32 v1
  let c0_i32_0 : BitVec 32 := 0#32
  let c0_i32_1 : BitVec 32 := 0#32
  ![v2.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x2 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x2 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S4096x256 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x768 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S512x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  shapeCasts_S512x1_S1x512 : S512x1.ShapeCasts S1x512
  inb_S4096x256_S4096x256_0_0 : ∀ a, (![0, 0] : Fin 2 → Nat) a + S4096x256.size a ≤ S4096x256.size a
  h_S4096x256 : 0 < S4096x256.numel
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  shapeCasts_S4096x256_S4096x256 : S4096x256.ShapeCasts S4096x256
  packedbf16_S4096x256_S4096x256_0_0 : (Rect.unit (s := S4096x256) ![0, 0] S4096x256.size inb_S4096x256_S4096x256_0_0).PackedRows (EltTy.packing .bf16)
  inb_S1x512_S1x512_0_0 : ∀ a, (![0, 0] : Fin 2 → Nat) a + S1x512.size a ≤ S1x512.size a
  h_S1x512 : 0 < S1x512.numel
  shapeCasts_S1x512_S1x512 : S1x512.ShapeCasts S1x512
  slices_S1x512_o0_0_S1x256 : S1x512.Slices ![0, 0] S1x256
  inb_S512x256_S512x256_0_0 : ∀ a, (![0, 0] : Fin 2 → Nat) a + S512x256.size a ≤ S512x256.size a
  h_S512x256 : 0 < S512x256.numel
  slices_S1x512_o0_256_S1x256 : S1x512.Slices ![0, 256] S1x256
  concatenates_S1x512_S1x256_S1x768_d1 : Shape.Concatenates [S1x512, S1x256] S1x768 1
  inb_S1x768_S1x768_0_0 : ∀ a, (![0, 0] : Fin 2 → Nat) a + S1x768.size a ≤ S1x768.size a
  h_S1x768 : 0 < S1x768.numel
  inb_S256x4096_S256x4096_0_0 : ∀ a, (![0, 0] : Fin 2 → Nat) a + S256x4096.size a ≤ S256x4096.size a
  h_S256x4096 : 0 < S256x4096.numel
  packedbf16_S256x256_S256x256_0_0 : (Rect.unit (s := S256x256) ![0, 0] S256x256.size inb_S256x256_S256x256_0_0).PackedRows (EltTy.packing .bf16)
  inb_S512x2_S512x2_0_0 : ∀ a, (![0, 0] : Fin 2 → Nat) a + S512x2.size a ≤ S512x2.size a
  h_S512x2 : 0 < S512x2.numel
  slices_S512x2_o0_0_S512x1 : S512x2.Slices ![0, 0] S512x1
  slices_S512x2_o0_1_S512x1 : S512x2.Slices ![0, 1] S512x1
  concatenates_S512x1_S512x1_S1024x1_d0 : Shape.Concatenates [S512x1, S512x1] S1024x1 0
  iota_S1024x4096_d1_w32 : S1024x4096.Iotas .tc 32 [1]
  broadcasts_S1024x1_S1024x4096 : S1024x1.Broadcasts S1024x4096
  slices_S1024x256_o0_0_S512x256 : S1024x256.Slices ![0, 0] S512x256
  slices_S1024x256_o512_0_S512x256 : S1024x256.Slices ![512, 0] S512x256
  inb_S1x768_S1x256_0_0 : ∀ a, (![0, 0] : Fin 2 → Nat) a + S1x256.size a ≤ S1x768.size a
  h_S1x256 : 0 < S1x256.numel
  shapeCasts_S1x256_S1x256 : S1x256.ShapeCasts S1x256
  inb_S1x768_S1x256_0_256 : ∀ a, (![0, 256] : Fin 2 → Nat) a + S1x256.size a ≤ S1x768.size a
  inb_S1x768_S1x256_0_512 : ∀ a, (![0, 512] : Fin 2 → Nat) a + S1x256.size a ≤ S1x768.size a
  broadcasts_S1x256_S512x256 : S1x256.Broadcasts S512x256
  reduces_S512x256_S512 : S512x256.Reduces [1] S512
  shapeCasts_S512_S512x1 : S512.ShapeCasts S512x1
  inb_S512x1_S512x1_0_0 : ∀ a, (![0, 0] : Fin 2 → Nat) a + S512x1.size a ≤ S512x1.size a
  h_S512x1 : 0 < S512x1.numel
  dot_S4096x256_S256x256_S4096x256_1_0_0_1_n_n_wf : DotDims.WF S4096x256 S256x256 S4096x256 [1] [0] [0] [1] [] []
  dot_S1x256_S512x256_S1x512_1_1_0_0_n_n_wf : DotDims.WF S1x256 S512x256 S1x512 [1] [1] [0] [0] [] []
  dot_S256x4096_S4096x256_S256x256_1_0_0_1_n_n_wf : DotDims.WF S256x4096 S4096x256 S256x256 [1] [0] [0] [1] [] []
  dot_S1024x4096_S4096x256_S1024x256_1_0_0_1_n_n_wf : DotDims.WF S1024x4096 S4096x256 S1024x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S4096x4096.size a
  hwx0_0 : ∀ i : grid0.Coords, EltTy.bits .f32 = 32 ∨ (Rect.block (s := S4096x4096) S256x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x256.size a ≤ S4096x256.size a
  hwx0_1 : ∀ i : grid0.Coords, EltTy.bits .f32 = 32 ∨ (Rect.block (s := S4096x256) S4096x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x256.size a ≤ S512x256.size a
  hwx0_3 : ∀ i : grid0.Coords, EltTy.bits .f32 = 32 ∨ (Rect.block (s := S512x256) S512x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x256.size a ≤ S4096x256.size a
  hwx0_5 : ∀ i : grid0.Coords, EltTy.bits .bf16 = 32 ∨ (Rect.block (s := S4096x256) S256x256.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x768.size a ≤ S1x768.size a
  hwx0_6 : ∀ i : grid0.Coords, EltTy.bits .f32 = 32 ∨ (Rect.block (s := S1x768) S1x768.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x2.size a ≤ S8192x2.size a
  hwx1_0 : ∀ i : grid1.Coords, EltTy.bits .i32 = 32 ∨ (Rect.block (s := S8192x2) S512x2.size (cc1_transform_0 i) (hinb1_0 i)).WholeWords (EltTy.packing .i32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x2.size a ≤ S8192x2.size a
  hwx1_1 : ∀ i : grid1.Coords, EltTy.bits .i32 = 32 ∨ (Rect.block (s := S8192x2) S512x2.size (cc1_transform_1 i) (hinb1_1 i)).WholeWords (EltTy.packing .i32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S4096x256.size a ≤ S4096x256.size a
  hwx1_2 : ∀ i : grid1.Coords, EltTy.bits .bf16 = 32 ∨ (Rect.block (s := S4096x256) S4096x256.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x768.size a ≤ S1x768.size a
  hwx1_3 : ∀ i : grid1.Coords, EltTy.bits .f32 = 32 ∨ (Rect.block (s := S1x768) S1x768.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S512x1.size a ≤ S16384x1.size a
  hwx1_4 : ∀ i : grid1.Coords, EltTy.bits .f32 = 32 ∨ (Rect.block (s := S16384x1) S512x1.size (cc1_transform_4 i) (hinb1_4 i)).WholeWords (EltTy.packing .f32)

variable [Facts₀]

def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf
def dot_S1x256_S512x256_S1x512_1_1_0_0_n_n : DotDims S1x256 S512x256 S1x512 where
  lhsContracting := [1]
  rhsContracting := [1]
  lhsNonContracting := [0]
  rhsNonContracting := [0]
  lhsBatch := []
  rhsBatch := []
  wf := dot_S1x256_S512x256_S1x512_1_1_0_0_n_n_wf
def dot_S256x4096_S4096x256_S256x256_1_0_0_1_n_n : DotDims S256x4096 S4096x256 S256x256 where
  lhsContracting := [1]
  rhsContracting := [0]
  lhsNonContracting := [0]
  rhsNonContracting := [1]
  lhsBatch := []
  rhsBatch := []
  wf := dot_S256x4096_S4096x256_S256x256_1_0_0_1_n_n_wf
def dot_S1024x4096_S4096x256_S1024x256_1_0_0_1_n_n : DotDims S1024x4096 S4096x256 S1024x256 where
  lhsContracting := [1]
  rhsContracting := [0]
  lhsNonContracting := [0]
  rhsNonContracting := [1]
  lhsBatch := []
  rhsBatch := []
  wf := dot_S1024x4096_S4096x256_S1024x256_1_0_0_1_n_n_wf

abbrev win0_0 : Pipeline.Window sig grid0 :=
  Pipeline.Window.ofSpec (Memref.whole main_arg1) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S4096x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1_0) S256x256.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v1_1) S1x768.size cc0_transform_6 reads0_6 true true 1 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond1 i == 1#1) | ⟨_ + 7, h⟩ => absurd h (Nat.not_lt.2 (Nat.le_add_left _ _))

abbrev win1_0 : Pipeline.Window sig grid1 :=
  Pipeline.Window.ofSpec (Memref.whole main_arg5) S512x2.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg6) S512x2.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1_0) S4096x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v1_1) S1x768.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v2) S512x1.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S4096x256 : Shape := ⟨2, ![4096, 256]⟩
abbrev S4096x4096 : Shape := ⟨2, ![4096, 4096]⟩
abbrev S256x256 : Shape := ⟨2, ![256, 256]⟩
abbrev S512x256 : Shape := ⟨2, ![512, 256]⟩
abbrev S512x1 : Shape := ⟨2, ![512, 1]⟩
abbrev S8192x2 : Shape := ⟨2, ![8192, 2]⟩
abbrev S256x1 : Shape := ⟨2, ![256, 1]⟩
abbrev S256x4096 : Shape := ⟨2, ![256, 4096]⟩
abbrev S258x4096 : Shape := ⟨2, ![258, 4096]⟩
abbrev S258x256 : Shape := ⟨2, ![258, 256]⟩
abbrev S256 : Shape := ⟨1, ![256]⟩
abbrev S1x256 : Shape := ⟨2, ![1, 256]⟩
abbrev S16384x2 : Shape := ⟨2, ![16384, 2]⟩
abbrev S16384x1 : Shape := ⟨2, ![16384, 1]⟩
abbrev S16384 : Shape := ⟨1, ![16384]⟩
abbrev S_ : Shape := ⟨0, ![]⟩
abbrev S1x16384 : Shape := ⟨2, ![1, 16384]⟩
abbrev S64x1x256 : Shape := ⟨3, ![64, 1, 256]⟩
abbrev S1x1x256 : Shape := ⟨3, ![1, 1, 256]⟩

abbrev nBuf : Space → Nat
  | .hbm => 38
  | .vmem => 23
  | .smem => 0
  | _ => 0

abbrev bufTy : (tb : Table) → Fin (tcTables nBuf tb) → BufTy
  | .hbm, ⟨0, _⟩ => ⟨S4096x256, .f32⟩
  | .hbm, ⟨1, _⟩ => ⟨S4096x4096, .f32⟩
  | .hbm, ⟨2, _⟩ => ⟨S256x256, .f32⟩
  | .hbm, ⟨3, _⟩ => ⟨S512x256, .f32⟩
  | .hbm, ⟨4, _⟩ => ⟨S512x1, .f32⟩
  | .hbm, ⟨5, _⟩ => ⟨S8192x2, .i32⟩
  | .hbm, ⟨6, _⟩ => ⟨S8192x2, .i32⟩
  | .hbm, ⟨7, _⟩ => ⟨S256x256, .f32⟩
  | .hbm, ⟨8, _⟩ => ⟨S256x1, .f32⟩
  | .hbm, ⟨9, _⟩ => ⟨S256x1, .f32⟩
  | .hbm, ⟨10, _⟩ => ⟨S256x256, .f32⟩
  | .hbm, ⟨11, _⟩ => ⟨S256x1, .f32⟩
  | .hbm, ⟨12, _⟩ => ⟨S256x1, .f32⟩
  | .hbm, ⟨13, _⟩ => ⟨S256x1, .f32⟩
  | .hbm, ⟨14, _⟩ => ⟨S256x256, .f32⟩
  | .hbm, ⟨15, _⟩ => ⟨S256x256, .bf16⟩
  | .hbm, ⟨16, _⟩ => ⟨S256x4096, .f32⟩
  | .hbm, ⟨17, _⟩ => ⟨S256x4096, .bf16⟩
  | .hbm, ⟨18, _⟩ => ⟨S4096x4096, .f32⟩
  | .hbm, ⟨19, _⟩ => ⟨S4096x4096, .bf16⟩
  | .hbm, ⟨20, _⟩ => ⟨S256x4096, .bf16⟩
  | .hbm, ⟨21, _⟩ => ⟨S258x4096, .bf16⟩
  | .hbm, ⟨22, _⟩ => ⟨S258x4096, .bf16⟩
  | .hbm, ⟨23, _⟩ => ⟨S16384x2, .i32⟩
  | .hbm, ⟨24, _⟩ => ⟨S16384x1, .i32⟩
  | .hbm, ⟨25, _⟩ => ⟨S16384, .i32⟩
  | .hbm, ⟨26, _⟩ => ⟨S_, .i32⟩
  | .hbm, ⟨27, _⟩ => ⟨S_, .i32⟩
  | .hbm, ⟨28, _⟩ => ⟨S16384, .i32⟩
  | .hbm, ⟨29, _⟩ => ⟨S1x16384, .i32⟩
  | .hbm, ⟨30, _⟩ => ⟨S16384x1, .i32⟩
  | .hbm, ⟨31, _⟩ => ⟨S16384, .i32⟩
  | .hbm, ⟨32, _⟩ => ⟨S_, .i32⟩
  | .hbm, ⟨33, _⟩ => ⟨S_, .i32⟩
  | .hbm, ⟨34, _⟩ => ⟨S16384, .i32⟩
  | .hbm, ⟨35, _⟩ => ⟨S1x16384, .i32⟩
  | .hbm, ⟨36, _⟩ => ⟨S64x1x256, .f32⟩
  | .hbm, ⟨37, _⟩ => ⟨S16384x1, .f32⟩
  | .local _ .vmem, ⟨0, _⟩ => ⟨S256x256, .bf16⟩
  | .local _ .vmem, ⟨1, _⟩ => ⟨S256x256, .bf16⟩
  | .local _ .vmem, ⟨2, _⟩ => ⟨S256x256, .bf16⟩
  | .local _ .vmem, ⟨3, _⟩ => ⟨S256x256, .bf16⟩
  | .local _ .vmem, ⟨4, _⟩ => ⟨S256x256, .bf16⟩
  | .local _ .vmem, ⟨5, _⟩ => ⟨S256x4096, .bf16⟩
  | .local _ .vmem, ⟨6, _⟩ => ⟨S4096x256, .bf16⟩
  | .local _ .vmem, ⟨7, _⟩ => ⟨S4096x256, .bf16⟩
  | .local _ .vmem, ⟨8, _⟩ => ⟨S256x1, .f32⟩
  | .local _ .vmem, ⟨9, _⟩ => ⟨S256x1, .f32⟩
  | .local _ .vmem, ⟨10, _⟩ => ⟨S256x1, .f32⟩
  | .local _ .vmem, ⟨11, _⟩ => ⟨S258x256, .bf16⟩
  | .local _ .vmem, ⟨12, _⟩ => ⟨S258x256, .bf16⟩
  | .local _ .vmem, ⟨13, _⟩ => ⟨S258x256, .bf16⟩
  | .local _ .vmem, ⟨14, _⟩ => ⟨S258x256, .bf16⟩
  | .local _ .vmem, ⟨15, _⟩ => ⟨S1x256, .i32⟩
  | .local _ .vmem, ⟨16, _⟩ => ⟨S1x256, .i32⟩
  | .local _ .vmem, ⟨17, _⟩ => ⟨S1x256, .i32⟩
  | .local _ .vmem, ⟨18, _⟩ => ⟨S1x256, .i32⟩
  | .local _ .vmem, ⟨19, _⟩ => ⟨S258x4096, .bf16⟩
  | .local _ .vmem, ⟨20, _⟩ => ⟨S258x4096, .bf16⟩
  | .local _ .vmem, ⟨21, _⟩ => ⟨S1x1x256, .f32⟩
  | .local _ .vmem, ⟨22, _⟩ => ⟨S1x1x256, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14_0 : Ref sig .tc := ⟨.hbm, 21, rfl⟩
abbrev main_v14_1 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_c : Ref sig .tc := ⟨.hbm, 26, rfl⟩
abbrev main_call0_v0 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_c_0 : Ref sig .tc := ⟨.hbm, 32, rfl⟩
abbrev main_call1_v0 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg5_0 : Ref sig .tc := ⟨.vmem, 11, rfl⟩
abbrev cc1_stg5_1 : Ref sig .tc := ⟨.vmem, 12, rfl⟩
abbrev cc1_stg6_0 : Ref sig .tc := ⟨.vmem, 13, rfl⟩
abbrev cc1_stg6_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg4_1 : Ref sig .tc := ⟨.vmem, 22, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc1_sem0_0 : DmaSem sig := 5
abbrev cc1_sem1_0 : DmaSem sig := 6
abbrev cc1_sem1_1 : DmaSem sig := 7
abbrev cc1_sem2_0 : DmaSem sig := 8
abbrev cc1_sem3_0 : DmaSem sig := 9
abbrev cc1_sem4_0 : DmaSem sig := 10
abbrev cc1_sem5_0 : DmaSem sig := 11
abbrev cc1_sem5_1 : DmaSem sig := 12
abbrev cc1_sem6_0 : DmaSem sig := 13
abbrev cc1_sem6_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem4_0 : DmaSem sig := 21
abbrev cc2_sem4_1 : DmaSem sig := 22

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S256x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S256x4096 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S4096x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S258x256 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S258x256 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![64], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S1x256 .i32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1x256 .i32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S258x4096 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S258x4096 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S1x1x256 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  slices_S512x256_S256x256_0_0 : S512x256.Slices ![0, 0] S256x256
  slices_S512x1_S256x1_0_0 : S512x1.Slices ![0, 0] S256x1
  slices_S512x256_S256x256_256_0 : S512x256.Slices ![256, 0] S256x256
  slices_S512x1_S256x1_256_0 : S512x1.Slices ![256, 0] S256x1
  transposes_S256x256_S256x256_1_0 : S256x256.Transposes [1, 0] S256x256
  bitsLt_bf16_f32 : FTy.bits .bf16 < FTy.bits .f32
  transposes_S4096x256_S256x4096_1_0 : S4096x256.Transposes [1, 0] S256x4096
  transposes_S4096x4096_S4096x4096_1_0 : S4096x4096.Transposes [1, 0] S4096x4096
  inb_S256x256_S256x256_0_0 : ∀ a, (![0, 0] : Fin 2 → Nat) a + S256x256.size a ≤ S256x256.size a
  h_S256x256 : 0 < S256x256.numel
  shapeCasts_S256x256_S256x256 : S256x256.ShapeCasts S256x256
  packedbf16_S256x256_S256x256_0_0 : (Rect.unit (s := S256x256) ![0, 0] S256x256.size inb_S256x256_S256x256_0_0).PackedRows (EltTy.packing .bf16)
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  inb_S4096x256_S4096x256_0_0 : ∀ a, (![0, 0] : Fin 2 → Nat) a + S4096x256.size a ≤ S4096x256.size a
  h_S4096x256 : 0 < S4096x256.numel
  shapeCasts_S4096x256_S4096x256 : S4096x256.ShapeCasts S4096x256
  inb_S256x1_S256x1_0_0 : ∀ a, (![0, 0] : Fin 2 → Nat) a + S256x1.size a ≤ S256x1.size a
  h_S256x1 : 0 < S256x1.numel
  shapeCasts_S256x1_S256x1 : S256x1.ShapeCasts S256x1
  broadcasts_S256x1_S256x256 : S256x1.Broadcasts S256x256
  reduces_S256x256_S256 : S256x256.Reduces [0] S256
  shapeCasts_S256_S1x256 : S256.ShapeCasts S1x256
  concatenates_S256x256_S1x256_S1x256_S258x256_d0 : Shape.Concatenates [S256x256, S1x256, S1x256] S258x256 0
  inb_S258x256_S258x256_0_0 : ∀ a, (![0, 0] : Fin 2 → Nat) a + S258x256.size a ≤ S258x256.size a
  h_S258x256 : 0 < S258x256.numel
  packedbf16_S258x256_S258x256_0_0 : (Rect.unit (s := S258x256) ![0, 0] S258x256.size inb_S258x256_S258x256_0_0).PackedRows (EltTy.packing .bf16)
  concatenates_S8192x2_S8192x2_S16384x2_d0 : Shape.Concatenates [S8192x2, S8192x2] S16384x2 0
  slices_S16384x2_S16384x1_0_0 : S16384x2.Slices ![0, 0] S16384x1
  shapeCasts_S16384x1_S16384 : S16384x1.ShapeCasts S16384
  pads_S16384_S16384_000 : S16384.Pads (![0] : Fin 1 → Nat) ![0] ![0] S16384
  h_S_ : 0 < S_.numel
  shapeCasts_S16384_S1x16384 : S16384.ShapeCasts S1x16384
  slices_S16384x2_S16384x1_0_1 : S16384x2.Slices ![0, 1] S16384x1
  iota_S4096x256_d0_w32 : S4096x256.Iotas .tc 32 [0]
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S4096x256 : S1x256.Broadcasts S4096x256
  natLt_1_32 : 1 < 32
  inb_S258x4096_S258x4096_0_0 : ∀ a, (![0, 0] : Fin 2 → Nat) a + S258x4096.size a ≤ S258x4096.size a
  h_S258x4096 : 0 < S258x4096.numel
  shapeCasts_S258x4096_S258x4096 : S258x4096.ShapeCasts S258x4096
  reduces_S258x256_S256 : S258x256.Reduces [0] S256
  shapeCasts_S1x256_S1x1x256 : S1x256.ShapeCasts S1x1x256
  inb_S1x1x256_S1x1x256_0_0_0 : ∀ a, (![0, 0, 0] : Fin 3 → Nat) a + S1x1x256.size a ≤ S1x1x256.size a
  h_S1x1x256 : 0 < S1x1x256.numel
  shapeCasts_S64x1x256_S16384x1 : S64x1x256.ShapeCasts S16384x1
  dot_S256x256_S256x1_S256x1_1_0_0_1_n_n_wf : DotDims.WF S256x256 S256x1 S256x1 [1] [0] [0] [1] [] []
  dot_S256x256_S256x256_S256x256_1_0_0_1_n_n_wf : DotDims.WF S256x256 S256x256 S256x256 [1] [0] [0] [1] [] []
  dot_S256x4096_S4096x256_S256x256_1_0_0_1_n_n_wf : DotDims.WF S256x4096 S4096x256 S256x256 [1] [0] [0] [1] [] []
  dot_S258x4096_S4096x256_S258x256_1_0_0_1_n_n_wf : DotDims.WF S258x4096 S4096x256 S258x256 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S256x256.size a ≤ S256x256.size a
  hwx0_0 : ∀ i : grid0.Coords, EltTy.bits .bf16 = 32 ∨ (Rect.block (s := S256x256) S256x256.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x4096.size a
  hwx0_1 : ∀ i : grid0.Coords, EltTy.bits .bf16 = 32 ∨ (Rect.block (s := S256x4096) S256x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x4096.size a
  hwx0_2 : ∀ i : grid0.Coords, EltTy.bits .bf16 = 32 ∨ (Rect.block (s := S256x4096) S256x256.size (cc0_transform_2 i) (hinb0_2 i)).WholeWords (EltTy.packing .bf16)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S256x4096.size a ≤ S256x4096.size a
  hwx1_0 : ∀ i : grid1.Coords, EltTy.bits .bf16 = 32 ∨ (Rect.block (s := S256x4096) S256x4096.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4096x256.size a ≤ S4096x4096.size a
  hwx1_1 : ∀ i : grid1.Coords, EltTy.bits .bf16 = 32 ∨ (Rect.block (s := S4096x4096) S4096x256.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x1.size a ≤ S256x1.size a
  hwx1_2 : ∀ i : grid1.Coords, EltTy.bits .f32 = 32 ∨ (Rect.block (s := S256x1) S256x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x1.size a ≤ S256x1.size a
  hwx1_3 : ∀ i : grid1.Coords, EltTy.bits .f32 = 32 ∨ (Rect.block (s := S256x1) S256x1.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x1.size a ≤ S256x1.size a
  hwx1_4 : ∀ i : grid1.Coords, EltTy.bits .f32 = 32 ∨ (Rect.block (s := S256x1) S256x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S258x256.size a ≤ S258x4096.size a
  hwx1_5 : ∀ i : grid1.Coords, EltTy.bits .bf16 = 32 ∨ (Rect.block (s := S258x4096) S258x256.size (cc1_transform_5 i) (hinb1_5 i)).WholeWords (EltTy.packing .bf16)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S258x256.size a ≤ S258x4096.size a
  hwx1_6 : ∀ i : grid1.Coords, EltTy.bits .bf16 = 32 ∨ (Rect.block (s := S258x4096) S258x256.size (cc1_transform_6 i) (hinb1_6 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x256.size a ≤ S1x16384.size a
  hwx2_0 : ∀ i : grid2.Coords, EltTy.bits .i32 = 32 ∨ (Rect.block (s := S1x16384) S1x256.size (cc2_transform_0 i) (hinb2_0 i)).WholeWords (EltTy.packing .i32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x256.size a ≤ S1x16384.size a
  hwx2_1 : ∀ i : grid2.Coords, EltTy.bits .i32 = 32 ∨ (Rect.block (s := S1x16384) S1x256.size (cc2_transform_1 i) (hinb2_1 i)).WholeWords (EltTy.packing .i32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S258x4096.size a ≤ S258x4096.size a
  hwx2_2 : ∀ i : grid2.Coords, EltTy.bits .bf16 = 32 ∨ (Rect.block (s := S258x4096) S258x4096.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S258x4096.size a ≤ S258x4096.size a
  hwx2_3 : ∀ i : grid2.Coords, EltTy.bits .bf16 = 32 ∨ (Rect.block (s := S258x4096) S258x4096.size (cc2_transform_3 i) (hinb2_3 i)).WholeWords (EltTy.packing .bf16)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1x1x256.size a ≤ S64x1x256.size a
  hwx2_4 : ∀ i : grid2.Coords, EltTy.bits .f32 = 32 ∨ (Rect.block (s := S64x1x256) S1x1x256.size (cc2_transform_4 i) (hinb2_4 i)).WholeWords (EltTy.packing .f32)

variable [Facts₀]

def dot_S256x256_S256x1_S256x1_1_0_0_1_n_n : DotDims S256x256 S256x1 S256x1 where
  lhsContracting := [1]
  rhsContracting := [0]
  lhsNonContracting := [0]
  rhsNonContracting := [1]
  lhsBatch := []
  rhsBatch := []
  wf := dot_S256x256_S256x1_S256x1_1_0_0_1_n_n_wf
def dot_S256x256_S256x256_S256x256_1_0_0_1_n_n : DotDims S256x256 S256x256 S256x256 where
  lhsContracting := [1]
  rhsContracting := [0]
  lhsNonContracting := [0]
  rhsNonContracting := [1]
  lhsBatch := []
  rhsBatch := []
  wf := dot_S256x256_S256x256_S256x256_1_0_0_1_n_n_wf
def dot_S256x4096_S4096x256_S256x256_1_0_0_1_n_n : DotDims S256x4096 S4096x256 S256x256 where
  lhsContracting := [1]
  rhsContracting := [0]
  lhsNonContracting := [0]
  rhsNonContracting := [1]
  lhsBatch := []
  rhsBatch := []
  wf := dot_S256x4096_S4096x256_S256x256_1_0_0_1_n_n_wf
def dot_S258x4096_S4096x256_S258x256_1_0_0_1_n_n : DotDims S258x4096 S4096x256 S258x256 where
  lhsContracting := [1]
  rhsContracting := [0]
  lhsNonContracting := [0]
  rhsNonContracting := [1]
  lhsBatch := []
  rhsBatch := []
  wf := dot_S258x4096_S4096x256_S258x256_1_0_0_1_n_n_wf

abbrev win0_0 : Pipeline.Window sig grid0 :=
  Pipeline.Window.ofSpec (Memref.whole main_v8) S256x256.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v10) S256x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v13) S256x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v13) S256x4096.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v12) S4096x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S256x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v5) S256x1.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v6) S256x1.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v14_0) S258x256.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v14_1) S258x256.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v19) S1x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v23) S1x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v14_0) S258x4096.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v14_1) S258x4096.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v24) S1x1x256.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== Proof.Enc.lean ====
import proofs.«164407_g2000604642866785_pallasbulk_226_8_alg».proof.Proof.Gen.KernelIdeal.Launch
import proofs.«164407_g2000604642866785_pallasbulk_226_8_alg».proof.Proof.Gen.KernelIdeal.Skeleton
import proofs.«164407_g2000604642866785_pallasbulk_226_8_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

/-! The frame half of the first pallas region (the encoder): a scratch buffer carried across the
    grid's sixteen points, filled at the first point with the product of the features and the first weight
    matrix; an output window (the folded decoder weights) stored at the first point only, left untouched at the
    later ones and written back after the last; an output window (a block of rows of the embedding) stored and
    written back at every point. -/

set_option maxRecDepth 16384

noncomputable section

namespace Cert.KernelIdeal.Enc

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The body's accesses: each is the whole of its buffer -/

abbrev rA : Rect S256x4096 := Rect.unit (s := S256x4096) ![0, 0] S256x4096.size inb_S256x4096_S256x4096_0_0
abbrev rS : Rect S4096x256 := Rect.unit (s := S4096x256) ![0, 0] S4096x256.size inb_S4096x256_S4096x256_0_0
abbrev rX : Rect S4096x256 := rS
abbrev rW1 : Rect S256x256 := Rect.unit (s := S256x256) ![0, 0] S256x256.size inb_S256x256_S256x256_0_0
abbrev rZ : Rect S256x256 := rW1
abbrev rW2 : Rect S512x256 := Rect.unit (s := S512x256) ![0, 0] S512x256.size inb_S512x256_S512x256_0_0
abbrev rW3 : Rect S1x512 := Rect.unit (s := S1x512) ![0, 0] S1x512.size inb_S1x512_S1x512_0_0
abbrev rF : Rect S1x768 := Rect.unit (s := S1x768) ![0, 0] S1x768.size inb_S1x768_S1x768_0_0

/-! ## What the body leaves -/

/-- The scratch after the first point: the features times the first weight matrix. -/
def xwVal (x1 : Vec F S4096x256 .f32) (x2 : Vec F S256x256 .f32) : Vec F S4096x256 .bf16 :=
  View.canon [⟨rS, k0_pay1 (View.ld x1 rX) (View.ld x2 rW1)⟩]

/-- The folded decoder weights, stored at the first point (from the row of the last layer's weights and the
    second weight matrix). -/
def foldVal (x3 : Vec F S512x256 .f32) (x4 : Vec F S1x512 .f32) : Vec F S1x768 .f32 :=
  View.canon [⟨rF, k0_pay2 (View.ld x4 rW3) (View.ld x3 rW2)⟩]

/-- The block of rows of the embedding any point stores: the adjacency block times the scratch. -/
def zOut (x0 : Vec F S256x4096 .f32) (xs : Vec F S4096x256 .bf16) : Vec F S256x256 .bf16 :=
  View.canon [⟨rZ, k0_pay3 (View.ld x0 rA) (View.ld xs rS)⟩]

theorem coverS (p0 : Vec F S4096x256 .bf16) (y : S4096x256.Idx) :
    ∃ pc ∈ ([⟨rS, p0⟩] : List (View.Piece (Elt F) S4096x256 .bf16)), y ∈ pc.1.set :=
  View.cover_of_tiled [⟨rS, p0⟩] S4096x256.size (by rfl) y

theorem coverF (p0 : Vec F S1x768 .f32) (y : S1x768.Idx) :
    ∃ pc ∈ ([⟨rF, p0⟩] : List (View.Piece (Elt F) S1x768 .f32)), y ∈ pc.1.set :=
  View.cover_of_tiled [⟨rF, p0⟩] S1x768.size (by rfl) y

theorem coverZ (p0 : Vec F S256x256 .bf16) (y : S256x256.Idx) :
    ∃ pc ∈ ([⟨rZ, p0⟩] : List (View.Piece (Elt F) S256x256 .bf16)), y ∈ pc.1.set :=
  View.cover_of_tiled [⟨rZ, p0⟩] S256x256.size (by rfl) y

/-- The first point. -/
def t0 : Fin cfg0.N := ⟨0, by rw [show cfg0.N = 16 from N_0]; decide⟩

/-- The scratch as every point after the first finds it. -/
def xw0 (c : Dev nD) : Vec F S4096x256 .bf16 := xwVal (iblk0 V c 1 t0) (iblk0 V c 2 t0)

/-- The folded weights' window as the first point leaves it. -/
def fold0 (c : Dev nD) : Vec F S1x768 .f32 := foldVal (iblk0 V c 3 t0) (iblk0 V c 4 t0)

/-! ## The invariant between points -/

/-- The scratch operand: a whole scoped buffer of the kernel's own, passed beside the windows. -/
abbrev scM : Memref sig .tc .vmem S4096x256 .bf16 := Memref.whole cc0_scratch0

/-- The core's other scoped buffers (the second region's staging buffers), each at some contents. -/
def rest8 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f))

/-- What the launch hands the region, with the scratch operand as a memref owned at some contents. -/
theorem PhiA0_eq (c : Dev nD) :
    (Pipeline.ΦA spec0 c : sProp 𝕄)
      = iprop(((∃ d, owns (c : Thread nD τ) scM fullShare d) ∗ rest8 c) ∗ (∃ r, prngReg c r)) := by
  unfold Pipeline.ΦA; rw [scopedRest0_eq]; unfold rest8; simp only [scM, owns_whole]; try rfl

/-- The invariant before position `n`: before the first point what the launch hands the region; afterwards the same
    with the scratch at the product the first point stored. -/
def PhiS (c : Dev nD) : ℕ → sProp 𝕄
  | 0 => Pipeline.ΦA spec0 c
  | _ + 1 => iprop((owns (c : Thread nD τ) scM fullShare (xw0 V c) ∗ rest8 c) ∗ (∃ r, prngReg c r))

theorem PhiS_zero (c : Dev nD) : PhiS V c 0 = Pipeline.ΦA spec0 c := rfl

theorem PhiS_pos (c : Dev nD) (n : ℕ) (hz : n ≠ 0) :
    PhiS V c n = iprop((owns (c : Thread nD τ) scM fullShare (xw0 V c) ∗ rest8 c) ∗ (∃ r, prngReg c r)) := by
  cases n with
  | zero => exact absurd rfl hz
  | succ n => rfl

/-! ## The pipeline's proof data -/

/-- The proof data of the region on core `c`: the arrays as the region finds them (`V`); after the body at point `t`
    each input's buffer at its block, the embedding's window at the adjacency block times the carried scratch, the
    folded weights' window at what the first point stored (at every point: the later ones leave it untouched). -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => zOut (iblk0 V c 0 t) (xw0 V c)
    | ⟨6, _⟩ => fold0 V c
  Φ t := PhiS V c t.val
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = zOut (iblk0 V c 0 t) (xw0 V c) := by dsimp only [dat0]
theorem after0_6 (c : Dev nD) (t : Fin cfg0.N) : (dat0 V c).after 6 t = fold0 V c := by dsimp only [dat0]

theorem Phi_eq (c : Dev nD) (t : Fin (cfg0.N + 1)) : (dat0 V c).Φ t = PhiS V c t.val := by dsimp only [dat0]

/-! ## The body's triples -/

set_option maxHeartbeats 2000000 in
/-- At the first point (the branch taken): the scratch, at anything, is filled with the product; the folded weights'
    buffer is stored; the embedding's block is the adjacency block times the scratch just filled. -/
theorem sound_kernel0_first (c : Dev nD) (E : Set ℕ) (i : grid0.Coords) (hc : k0_cond1 i = 1#1) (arg1 : Memref sig .tc .vmem S256x4096 .f32) (harg1 : arg1.IsWhole) (arg2 : Memref sig .tc .vmem S4096x256 .f32) (harg2 : arg2.IsWhole) (arg3 : Memref sig .tc .vmem S256x256 .f32) (harg3 : arg3.IsWhole) (arg4 : Memref sig .tc .vmem S512x256 .f32) (harg4 : arg4.IsWhole) (arg5 : Memref sig .tc .vmem S1x512 .f32) (harg5 : arg5.IsWhole) (arg6 : Memref sig .tc .vmem S256x256 .bf16) (harg6 : arg6.IsWhole) (arg7 : Memref sig .tc .vmem S1x768 .f32) (harg7 : arg7.IsWhole) (arg8 : Memref sig .tc .vmem S4096x256 .bf16) (harg8 : arg8.IsWhole)
    (x0 : Vec F S256x4096 .f32) (x1 : Vec F S4096x256 .f32) (x2 : Vec F S256x256 .f32) (x3 : Vec F S512x256 .f32) (x4 : Vec F S1x512 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (zOut x0 (xwVal x1 x2)) ∗ owns (c : Thread nD τ) arg7 fullShare (foldVal x3 x4) ∗ owns (c : Thread nD τ) arg8 fullShare (xwVal x1 x2)) -∗ K ⟨⟩))
      ⊢ wp frame (wpE (defs₀ (F := F)) Variants.none c none) E (cc0__encode_kernel i arg1 harg1 arg2 harg2 arg3 harg3 arg4 harg4 arg5 harg5 arg6 harg6 arg7 harg7 arg8 harg8) K := by
  simp only [cc0__encode_kernel_eq_skeleton]; unfold cc0__encode_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
  subst hf0 hf1 hf2 hf3 hf4
  sl_exec (disch := exact hc)
  sl_step
  sl_unfold_run_names
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    rw [View.read_writes_eq_canon _ _ _ (coverZ _)]
    unfold zOut xwVal
    rw [View.readCov_eq_canon_ld _ _ _ (coverS _)]
    rfl
  isplitl [H6]
  · iexists _; isplitr
    swap; · iexact H6
    ipureintro
    exact View.read_writes_eq_canon _ _ _ (coverF _)
  iexists _; isplitr
  swap; · iexact H7
  ipureintro
  exact View.read_writes_eq_canon _ _ _ (coverS _)

set_option maxHeartbeats 2000000 in
/-- At a later point (the branch not taken): the scratch is read, not written; the embedding's block is the adjacency
    block times the scratch. The other windows' buffers are not touched. -/
theorem sound_kernel0_rest (c : Dev nD) (E : Set ℕ) (i : grid0.Coords) (hc : ¬k0_cond1 i = 1#1) (arg1 : Memref sig .tc .vmem S256x4096 .f32) (harg1 : arg1.IsWhole) (arg2 : Memref sig .tc .vmem S4096x256 .f32) (harg2 : arg2.IsWhole) (arg3 : Memref sig .tc .vmem S256x256 .f32) (harg3 : arg3.IsWhole) (arg4 : Memref sig .tc .vmem S512x256 .f32) (harg4 : arg4.IsWhole) (arg5 : Memref sig .tc .vmem S1x512 .f32) (harg5 : arg5.IsWhole) (arg6 : Memref sig .tc .vmem S256x256 .bf16) (harg6 : arg6.IsWhole) (arg7 : Memref sig .tc .vmem S1x768 .f32) (harg7 : arg7.IsWhole) (arg8 : Memref sig .tc .vmem S4096x256 .bf16) (harg8 : arg8.IsWhole)
    (x0 : Vec F S256x4096 .f32) (xs : Vec F S4096x256 .bf16) (K : PUnit → sProp 𝕄) :
    iprop(owns (c : Thread nD τ) arg1 fullShare x0 ∗ (∃ d, owns (c : Thread nD τ) arg6 fullShare d) ∗ owns (c : Thread nD τ) arg8 fullShare xs
        ∗ (iprop(owns (c : Thread nD τ) arg1 fullShare x0 ∗ owns (c : Thread nD τ) arg6 fullShare (zOut x0 xs) ∗ owns (c : Thread nD τ) arg8 fullShare xs) -∗ K ⟨⟩))
      ⊢ wp frame (wpE (defs₀ (F := F)) Variants.none c none) E (cc0__encode_kernel i arg1 harg1 arg2 harg2 arg3 harg3 arg4 harg4 arg5 harg5 arg6 harg6 arg7 harg7 arg8 harg8) K := by
  simp only [cc0__encode_kernel_eq_skeleton]; unfold cc0__encode_kernel_skel
  unfold owns
  iintro ⟨⟨%f0, %hf0, H0⟩, ⟨%d5, %f5, -, H5⟩, ⟨%f7, %hf7, H7⟩, Hk⟩
  subst hf0 hf7
  sl_exec (disch := exact hc)
  sl_step
  sl_unfold_run_names
  iapply Hk
  isplitl [H0]
  · iexists f0; isplitr; · ipureintro; rfl
    iexact H0
  isplitl [H5]
  · iexists _; isplitr
    swap; · iexact H5
    ipureintro
    exact View.read_writes_eq_canon _ _ _ (coverZ _)
  iexists f7; isplitr; · ipureintro; rfl
  iexact H7

/-! ## The branch's condition and the windows' idle points, decided over the grid -/

/-- The branch is taken at the first point only. -/
theorem hcond : ∀ t : Fin cfg0.N, k0_cond1 (grid0.coords t) = 1#1 ↔ t.val = 0 :=
  (by decide +kernel : ∀ t : Fin grid0.N, k0_cond1 (grid0.coords t) = 1#1 ↔ t.val = 0)

theorem live0_0 : ∀ t : Fin cfg0.N, cfg0.idle 0 (grid0.coords t) = false := by decide +kernel
theorem live0_1 : ∀ t : Fin cfg0.N, cfg0.idle 1 (grid0.coords t) = false := by decide +kernel
theorem live0_2 : ∀ t : Fin cfg0.N, cfg0.idle 2 (grid0.coords t) = false := by decide +kernel
theorem live0_3 : ∀ t : Fin cfg0.N, cfg0.idle 3 (grid0.coords t) = false := by decide +kernel
theorem live0_4 : ∀ t : Fin cfg0.N, cfg0.idle 4 (grid0.coords t) = false := by decide +kernel
theorem live0_5 : ∀ t : Fin cfg0.N, cfg0.idle 5 (grid0.coords t) = false := by decide +kernel
/-- The folded weights' window is stored at the first point, -/
theorem live0_6 : ∀ t : Fin cfg0.N, t.val = 0 → cfg0.idle 6 (grid0.coords t) = false := by decide +kernel
/-- idle at the others, -/
theorem idle0_6 : ∀ t : Fin cfg0.N, t.val ≠ 0 → cfg0.idle 6 (grid0.coords t) = true := by decide +kernel
/-- written back after the last point -/
theorem flush0_6_last : ∀ t : Fin cfg0.N, t.val = 15 → (cfg0.win 6).flush t = true :=
  fun t h => (flush0_6 t).mpr (by rw [h])
/-- and at no other. -/
theorem noFlush0_6 : ∀ t : Fin cfg0.N, t.val ≠ 15 → (cfg0.win 6).flush t = false := fun t h => by
  have hN : t.val < 16 := lt_of_lt_of_eq t.isLt (show cfg0.N = 16 from N_0)
  cases hf : (cfg0.win 6).flush t with
  | false => rfl
  | true => exact absurd ((flush0_6 t).mp hf) (by omega)

/-! ## What the body finds in each window's buffer -/

theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl) (fun t => by rw [after0_2]; unfold Dat.blockOf iblk0; rw [A_eq0]; try rfl) t d).trans
    (by unfold Dat.fetched Dat.blockOf iblk0; rw [A_eq0]; try rfl)
theorem before0_3 (c : Dev nD) (t : Fin cfg0.N) (d) : (dat0 V c).before 3 t d = iblk0 V c 3 t :=
  ((dat0 V c).before_in_eq_fetched 3 rfl (fun _ => rfl) (fun _ _ _ => rfl) (fun t => by rw [after0_3]; unfold Dat.blockOf iblk0; rw [A_eq0]; try rfl) t d).trans
    (by unfold Dat.fetched Dat.blockOf iblk0; rw [A_eq0]; try rfl)
theorem before0_4 (c : Dev nD) (t : Fin cfg0.N) (d) : (dat0 V c).before 4 t d = iblk0 V c 4 t :=
  ((dat0 V c).before_in_eq_fetched 4 rfl (fun _ => rfl) (fun _ _ _ => rfl) (fun t => by rw [after0_4]; unfold Dat.blockOf iblk0; rw [A_eq0]; try rfl) t d).trans
    (by unfold Dat.fetched Dat.blockOf iblk0; rw [A_eq0]; try rfl)

/-- What the first point left in the folded weights' buffer is what every later point finds there: the points between
    leave the buffer as they found it, and none of them writes it back. -/
theorem before0_6_pos (c : Dev nD) : ∀ (n : ℕ) (hn : n < cfg0.N), n ≠ 0 → ∀ d, (dat0 V c).before 6 ⟨n, hn⟩ d = fold0 V c
  | 0, _, h, _ => absurd rfl h
  | n + 1, hn, _, d => by
    have hN : n + 1 < 16 := lt_of_lt_of_eq hn (show cfg0.N = 16 from N_0)
    rw [(dat0 V c).before_of_pos 6 ⟨n + 1, hn⟩ (Nat.succ_ne_zero n) ((cfg0.win 6).fetch_out rfl _)]
    rw [noFlush0_6 ⟨n + 1 - 1, _⟩ (by simp only [Nat.add_sub_cancel]; omega), if_neg Bool.false_ne_true]
    unfold Dat.left
    by_cases hz : n = 0
    · subst hz
      rw [live0_6 ⟨0 + 1 - 1, _⟩ rfl]
      dsimp only
      unfold Dat.kept
      rw [after0_6]
      exact (Pipeline.fill_of_clip_none (cfg := cfg0) 6 _ (fun _ => rfl) d (fold0 V c) _).trans ((cfg0.win 6).fill_cut _ _)
    · rw [idle0_6 ⟨n + 1 - 1, _⟩ (by simp only [Nat.add_sub_cancel]; exact hz)]
      dsimp only
      exact before0_6_pos c n (Nat.lt_of_succ_lt hn) hz d

theorem before0_6 (c : Dev nD) (t : Fin cfg0.N) (hz : t.val ≠ 0) (d) : (dat0 V c).before 6 t d = fold0 V c :=
  before0_6_pos V c t.val t.isLt hz d

/-! ## The body obligation, at a generic point -/

/-- What the body is called with at point `t` (the library's precondition, the windows one by one), -/
def bodyPre (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t)

/-- At a point live for a window the obligation asks its buffer at the stated contents. -/
theorem leaves_live (c : Dev nD) (t : Fin cfg0.N) (w : Fin cfg0.W) (h : cfg0.idle w (grid0.coords t) = false) :
    (dat0 V c).leavesExact w t = owns (c : Thread nD τ) ((cfg0.win w).stage (cfg0.slots t w)) fullShare ((dat0 V c).after w t) := by
  unfold Dat.leavesExact; rw [h]

/-- So it does at an idle point that writes the block back. -/
theorem leaves_flush (c : Dev nD) (t : Fin cfg0.N) (w : Fin cfg0.W) (h : cfg0.idle w (grid0.coords t) = true) (hf : (cfg0.win w).flush t = true) :
    (dat0 V c).leavesExact w t = owns (c : Thread nD τ) ((cfg0.win w).stage (cfg0.slots t w)) fullShare ((dat0 V c).after w t) := by
  unfold Dat.leavesExact; rw [h, hf]

set_option maxHeartbeats 4000000 in
/-- The body at any point. At the first the branch is taken: the invariant hands over the scratch at anything and takes
    it back at the product; the folded weights' buffer is stored. At a later point the invariant hands over the scratch at
    the product and takes it back so; the folded weights' buffer is left as found, which at the last point — where it is
    written back — is what the first point stored. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0_0, before0_1, before0_2, before0_3, before0_4]
  rw [show (dat0 V c).owesAt () t.succ = (dat0 V c).owesAt () t.castSucc from rfl]
  rw [Phi_eq, Phi_eq, show (t.succ : Fin (cfg0.N + 1)).val = t.val + 1 from rfl, show (t.castSucc : Fin (cfg0.N + 1)).val = t.val from rfl]
  rw [PhiS_pos V c (t.val + 1) (Nat.succ_ne_zero _)]
  rw [leaves_live V c t 0 (live0_0 t), leaves_live V c t 1 (live0_1 t), leaves_live V c t 2 (live0_2 t), leaves_live V c t 3 (live0_3 t), leaves_live V c t 4 (live0_4 t), leaves_live V c t 5 (live0_5 t)]
  rw [after0_0, after0_1, after0_2, after0_3, after0_4, after0_5]
  have hN : t.val < 16 := lt_of_lt_of_eq t.isLt (show cfg0.N = 16 from N_0)
  by_cases hz : t.val = 0
  · have hc := (hcond t).mpr hz
    rw [leaves_live V c t 6 (live0_6 t hz), after0_6]
    rw [show PhiS V c t.val = Pipeline.ΦA spec0 c from by rw [hz]; rfl, PhiA0_eq]
    have ht : t = t0 := Fin.ext hz
    subst ht
    iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩⟩
    iapply (sound_kernel0_first c Set.univ (grid0.coords t0) hc _ _ _ _ _ _ _ _ _ _ _ _ _ _ _ _ (iblk0 V c 0 t0) (iblk0 V c 1 t0) (iblk0 V c 2 t0) (iblk0 V c 3 t0) (iblk0 V c 4 t0) _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [HS]; · iexact HS
    iintro ⟨H0, H1, H2, H3, H4, H5, H6, HS⟩
    isplitl [HS HR Hg]
    · isplitl [HS HR]
      · isplitl [HS]; · iexact HS
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · have hc : ¬k0_cond1 (grid0.coords t) = 1#1 := fun h => hz ((hcond t).mp h)
    rw [PhiS_pos V c t.val hz]
    by_cases hl : t.val = 15
    · rw [leaves_flush V c t 6 (idle0_6 t hz) (flush0_6_last t hl), after0_6]
      simp only [before0_6 V c t hz]
      iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩⟩
      iapply (sound_kernel0_rest c Set.univ (grid0.coords t) hc _ _ _ _ _ _ _ _ _ _ _ _ _ _ _ _ (iblk0 V c 0 t) (xw0 V c) _)
      isplitl [H0]; · iexact H0
      isplitl [H5]; · iexists _; iexact H5
      isplitl [HS]; · iexact HS
      iintro ⟨H0, H5, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · rw [Dat.leavesExact_idle (dat0 V c) 6 t (idle0_6 t hz) (noFlush0_6 t hl)]
      iintro ⟨⟨⟨HS, HR⟩, Hg⟩, Ho, ⟨%d0, H0⟩, ⟨%d1, H1⟩, ⟨%d2, H2⟩, ⟨%d3, H3⟩, ⟨%d4, H4⟩, ⟨%d5, H5⟩, H6⟩
      iapply (sound_kernel0_rest c Set.univ (grid0.coords t) hc _ _ _ _ _ _ _ _ _ _ _ _ _ _ _ _ (iblk0 V c 0 t) (xw0 V c) _)
      isplitl [H0]; · iexact H0
      isplitl [H5]; · iexists _; iexact H5
      isplitl [HS]; · iexact HS
      iintro ⟨H0, H5, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6

/-- The library's body obligation, at every point. -/
theorem body_obligation0 (c : Dev nD) : BodyObligation (dat0 (F := F) V c) (defs₀ (F := F)) Variants.none () Set.univ := fun t => by
  rw [bigSep_W0, bigSep_W0]
  exact sound_body V c t

theorem hin0 (c : Dev nD) : Pipeline.ΦA spec0 c ⊢ (dat0 V c).Φ 0 := by
  rw [Phi_eq]
  exact Idealize.SL.BI.Entails.refl _

theorem hout0 (c : Dev nD) : (dat0 V c).Φ (Fin.last cfg0.N) ⊢ Pipeline.ΦA spec0 c := by
  rw [Phi_eq, PhiS_pos V c _ (by rw [Fin.val_last]; have : cfg0.N = 16 := N_0; omega), PhiA0_eq]
  iintro ⟨⟨HS, HR⟩, Hg⟩
  isplitl [HS HR]
  · isplitl [HS]; · iexists _; iexact HS
    iexact HR
  iexact Hg

end Cert.KernelIdeal.Enc

end
-- ==== Proof.Dec.lean ====
/- The frame half of the decode region (pipeline 1, grid 32, five windows), generic in the float interpretation:
   at the TensorCore's buffer contents `V` on entry, each window's block at a grid point, what the body leaves in
   the output window's staging buffer as a function of the input blocks, the body's triple, the pipeline's proof
   data, and the body obligation at every point. -/
import proofs.«164407_g2000604642866785_pallasbulk_226_8_alg».proof.Proof.Gen.KernelIdeal.Launch
import proofs.«164407_g2000604642866785_pallasbulk_226_8_alg».proof.Proof.Gen.KernelIdeal.Skeleton
import proofs.«164407_g2000604642866785_pallasbulk_226_8_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents recurses once per coordinate of the long axes
set_option maxRecDepth 16384

noncomputable section

namespace Cert.KernelIdeal.Dec

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s (`hA`) and whose body leaves the block in place (`hafter`): where the window is not
    fetched its block index has not moved, so the previous point's block is this point's. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for any proof
    data whose array is `V`'s (`hA`) and whose body leaves the block in place (`hafter`): where the window is not
    fetched its block index has not moved, so the previous point's block is this point's. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for any proof
    data whose array is `V`'s (`hA`) and whose body leaves the block in place (`hafter`): where the window is not
    fetched its block index has not moved, so the previous point's block is this point's. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not, for any proof
    data whose array is `V`'s (`hA`) and whose body leaves the block in place (`hafter`): where the window is not
    fetched its block index has not moved, so the previous point's block is this point's. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

/-- The whole edge block [512,2]. -/
abbrev rE : Rect S512x2 := Rect.unit (s := S512x2) ![0, 0] S512x2.size inb_S512x2_S512x2_0_0
/-- The whole embedding table [4096,256]. -/
abbrev rZ : Rect S4096x256 := Rect.unit (s := S4096x256) ![0, 0] S4096x256.size inb_S4096x256_S4096x256_0_0
/-- The three [1,256] thirds of the fold row [1,768], at column offsets 0, 256, 512. -/
abbrev rF0 : Rect S1x768 := Rect.unit (s := S1x768) ![0, 0] S1x256.size inb_S1x768_S1x256_0_0
abbrev rF256 : Rect S1x768 := Rect.unit (s := S1x768) ![0, 256] S1x256.size inb_S1x768_S1x256_0_256
abbrev rF512 : Rect S1x768 := Rect.unit (s := S1x768) ![0, 512] S1x256.size inb_S1x768_S1x256_0_512
/-- The whole output column [512,1]. -/
abbrev rO : Rect S512x1 := Rect.unit (s := S512x1) ![0, 0] S512x1.size inb_S512x1_S512x1_0_0

/-! ## What the body leaves in the output window's buffer -/

/-- Window 4's staging buffer after the body at grid coordinate `i`, from the input windows' blocks: its one store,
    the logistic of the logit column, which itself reads both edge blocks, the table and the fold row's thirds. -/
def out1_4 (i : grid1.Coords) (x0 x1 : Vec F S512x2 .i32) (x2 : Vec F S4096x256 .bf16) (x3 : Vec F S1x768 .f32) : Vec F S512x1 .f32 :=
  View.canon [⟨rO, k1_pay1 (k1_pay2 i (View.ld x0 rE) (View.ld x1 rE) (View.ld x2 rZ) (View.ld x3 rF0) (View.ld x3 rF256) (View.ld x3 rF512))⟩]

/-- Its one store is the whole buffer, so it covers it. -/
theorem cover1_4 (p0 : Vec F S512x1 .f32) (y : S512x1.Idx) :
    ∃ pc ∈ ([⟨rO, p0⟩] : List (View.Piece (Elt F) S512x1 .f32)), y ∈ pc.1.set :=
  View.cover_of_tiled [⟨rO, p0⟩] S512x1.size (by rfl) y

/-! ## The body's triple -/

set_option maxHeartbeats 1000000 in
/-- The kernel body on whole staging memrefs, the inputs' at read contents `xW` and the output's at anything, runs to
    the continuation holding the inputs' as they were and the output's at `out1_4` of the inputs'. -/
theorem sound_kernel1 (c : Dev nD) (E : Set ℕ) (i : grid1.Coords) (arg1 : Memref sig .tc .vmem S512x2 .i32) (harg1 : arg1.IsWhole) (arg2 : Memref sig .tc .vmem S512x2 .i32) (harg2 : arg2.IsWhole) (arg3 : Memref sig .tc .vmem S4096x256 .bf16) (harg3 : arg3.IsWhole) (arg4 : Memref sig .tc .vmem S1x768 .f32) (harg4 : arg4.IsWhole) (arg5 : Memref sig .tc .vmem S512x1 .f32) (harg5 : arg5.IsWhole)
    (x0 : Vec F S512x2 .i32) (x1 : Vec F S512x2 .i32) (x2 : Vec F S4096x256 .bf16) (x3 : Vec F S1x768 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out1_4 i x0 x1 x2 x3)) -∗ K ⟨⟩))
      ⊢ wp frame (wpE (defs₀ (F := F)) Variants.none c none) E (cc1__decode_kernel i arg1 harg1 arg2 harg2 arg3 harg3 arg4 harg4 arg5 harg5) K := by
  simp only [cc1__decode_kernel_eq_skeleton]; unfold cc1__decode_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  try dsimp only
  exact View.read_writes_eq_canon _ _ _ (cover1_4 _)

/-! ## The pipeline's proof data -/

/-- The proof data of pipeline 1 on core `c`: the arrays as the region finds them (`V`); after the body at point `t`
    each input's buffer at its block and the output's at `out1_4` of the input blocks at `t`'s coordinate; the
    invariant the scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (grid1.coords t) (iblk1 V c 0 t) (iblk1 V c 1 t) (iblk1 V c 2 t) (iblk1 V c 3 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = out1_4 (grid1.coords t) (iblk1 V c 0 t) (iblk1 V c 1 t) (iblk1 V c 2 t) (iblk1 V c 3 t) := by dsimp only [dat1]

/-- The invariant is the class's at every point. -/
theorem Φ_eq1 (c : Dev nD) (t : Fin (cfg1.N + 1)) : (dat1 V c).Φ t = Pipeline.ΦA spec1 c := rfl

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' memrefs hold their blocks, so the body's triple applies; the invariant and
    the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ (grid1.coords t) _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Dec

end
-- ==== Proof.Run.lean ====
/-
  The kernel program's run, region by region. @main is one host line (the weight column recast as a row), the encoder
  region and the decoder region. Between two of them every unscoped buffer of the core holds known contents: the launch
  memory, then the host line's result folded in, then each region's arrays at what its write-backs leave and every other
  buffer as the region found it. From the two regions' per-point obligations the launch theorem gives: every weakly fair
  execution terminates, nothing faults, the argument arrays end as launched, and the result array ends at the decoder
  region's output array.
-/
import proofs.«164407_g2000604642866785_pallasbulk_226_8_alg».proof.Proof.Enc
import proofs.«164407_g2000604642866785_pallasbulk_226_8_alg».proof.Proof.Dec
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the host line (the encoder region's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the encoder region's exit: its arrays at what the pipeline leaves, every other buffer as entered. -/
def W2 (c : Dev nD) : Valuation τ sig (Elt F) :=
  Pipeline.withArrays spec0 c (W1 m ρ c) fun w => (Enc.dat0 (V1 m ρ) c).arrAt w cfg0.N
theorem W2_arr (c : Dev nD) (w : Fin cfg0.W) :
    W2 m ρ c (Proc.devRef .tc (Pipeline.arrRef spec0 w)) = (Enc.dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (Enc.dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At the decoder region's exit. -/
def W3 (c : Dev nD) : Valuation τ sig (Elt F) :=
  Pipeline.withArrays spec1 c (W2 m ρ c) fun w => (Dec.dat1 (V2 m ρ) c).arrAt w cfg1.N
theorem W3_arr (c : Dev nD) (w : Fin cfg1.W) :
    W3 m ρ c (Proc.devRef .tc (Pipeline.arrRef spec1 w)) = (Dec.dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (Dec.dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! ## The arguments end as launched: an argument is an input of a region (never written back) or no array of it -/

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := W3_of_ne m ρ c main_arg0 (by decide)
    _ = W1 m ρ c (Proc.devRef .tc main_arg0) := (W2_arr m ρ c 1).trans (((Enc.dat0 (V1 m ρ) c).arrAt_in 1 rfl cfg0.N).trans (Enc.A_eq0 (V1 m ρ) c 1))
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl
theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) := (W2_arr m ρ c 0).trans (((Enc.dat0 (V1 m ρ) c).arrAt_in 0 rfl cfg0.N).trans (Enc.A_eq0 (V1 m ρ) c 0))
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl
theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := (W2_arr m ρ c 2).trans (((Enc.dat0 (V1 m ρ) c).arrAt_in 2 rfl cfg0.N).trans (Enc.A_eq0 (V1 m ρ) c 2))
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl
theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := W3_of_ne m ρ c main_arg3 (by decide)
    _ = W1 m ρ c (Proc.devRef .tc main_arg3) := (W2_arr m ρ c 3).trans (((Enc.dat0 (V1 m ρ) c).arrAt_in 3 rfl cfg0.N).trans (Enc.A_eq0 (V1 m ρ) c 3))
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl
theorem W3_main_arg4 (c : Dev nD) : W3 m ρ c (Proc.devRef .tc main_arg4) = m ((c : Thread nD τ).loc main_arg4) :=
  calc W3 m ρ c (Proc.devRef .tc main_arg4)
    _ = W2 m ρ c (Proc.devRef .tc main_arg4) := W3_of_ne m ρ c main_arg4 (by decide)
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl
theorem W3_main_arg5 (c : Dev nD) : W3 m ρ c (Proc.devRef .tc main_arg5) = m ((c : Thread nD τ).loc main_arg5) :=
  calc W3 m ρ c (Proc.devRef .tc main_arg5)
    _ = W2 m ρ c (Proc.devRef .tc main_arg5) := (W3_arr m ρ c 0).trans (((Dec.dat1 (V2 m ρ) c).arrAt_in 0 rfl cfg1.N).trans (Dec.A_eq1 (V2 m ρ) c 0))
    _ = W1 m ρ c (Proc.devRef .tc main_arg5) := W2_of_ne m ρ c main_arg5 (by decide)
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl
theorem W3_main_arg6 (c : Dev nD) : W3 m ρ c (Proc.devRef .tc main_arg6) = m ((c : Thread nD τ).loc main_arg6) :=
  calc W3 m ρ c (Proc.devRef .tc main_arg6)
    _ = W2 m ρ c (Proc.devRef .tc main_arg6) := (W3_arr m ρ c 1).trans (((Dec.dat1 (V2 m ρ) c).arrAt_in 1 rfl cfg1.N).trans (Dec.A_eq1 (V2 m ρ) c 1))
    _ = W1 m ρ c (Proc.devRef .tc main_arg6) := W2_of_ne m ρ c main_arg6 (by decide)
    _ = W0 m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := rfl

/-- The result array ends at the decoder region's output array. -/
theorem W3_main_v2 (c : Dev nD) : W3 m ρ c (Proc.devRef .tc main_v2) = (Dec.dat1 (V2 m ρ) c).arrAt 4 cfg1.N :=
  W3_arr m ρ c 4

/-! ## The proof data family and the thread state -/

abbrev adm : (p : Fin 2) → (pcfgs (F := F) p).Adm := fun p => (cfgs p).toPCfg_adm
/-- Each pipeline's proof data at its region's entry contents: a literal match on the pipeline's number. -/
def pdats : (p : Fin 2) → (c : Dev nD) → Dat τ (Elt F) Unit ℕ (UR sig nD τ) ℕ (Pipeline.pin (pcfgs (F := F)) adm p) c
  | ⟨0, _⟩ => fun c => Enc.dat0 (V1 m ρ) c
  | ⟨1, _⟩ => fun c => Dec.dat1 (V2 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps0_fresh : (hostOps0 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m ρ c) ∗ ∃ r, prngReg c r)

/-! ## The regions as segments -/

set_option backward.isDefEq.respectTransparency.types false in
/-- Region 0 over the thread state: entered with every unscoped buffer at the contents before it, left with the region's
    arrays at what its write-backs leave and every other buffer as entered. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (Enc.body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = (Enc.dat0 (V1 m ρ) c).Φ 0 from rfl]
    iintro ⟨Hp, -, Hr⟩
    iapply (Enc.hin0 (V1 m ρ) c)
    iapply (show (iprop(Pipeline.scopedRest spec0 c ∗ ∃ r, prngReg c r) : sProp 𝕄) ⊢ Pipeline.ΦA spec0 c from by
      unfold Pipeline.ΦA; exact .rfl)
    isplitl [Hr]; · iexact Hr
    iexact Hp
  hout c := by
    rw [Pipeline.ownSems0_none, show (pdats m ρ 0 c).Φ (Fin.last _) = (Enc.dat0 (V1 m ρ) c).Φ (Fin.last cfg0.N) from rfl]
    iintro HP
    ihave H := (Enc.hout0 (V1 m ρ) c) $$ HP
    ihave H2 := (show (Pipeline.ΦA spec0 c : sProp 𝕄) ⊢ iprop(Pipeline.scopedRest spec0 c ∗ ∃ r, prngReg c r) from by
      unfold Pipeline.ΦA; exact .rfl) $$ H
    icases H2 with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at the contents before it, left with the region's
    arrays at what its write-backs leave and every other buffer as entered. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (Dec.body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ) ]
theorem main_run (c : Dev nD) : main (F := F) c = Pipeline.Seg.run (segs m ρ) := (main_chain c).trans (by chain_rfl)

set_option backward.isDefEq.respectTransparency.types false in
/-- The frame: every weakly fair execution of @main from any memory with zero counters terminates, nothing faulting, and
    the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun c => by
      dsimp only [Pipeline.Seg.post, reg1]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨(h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c),
       (h c _ (mem_uc main_arg5 (by decide))).trans (W3_main_arg5 m ρ c),
       (h c _ (mem_uc main_arg6 (by decide))).trans (W3_main_arg6 m ρ c)⟩)

set_option backward.isDefEq.respectTransparency.types false in
/-- The run with the result named: the same, and the result array ends at the last boundary's contents. -/
theorem run : θ_run defs (onTc (τ := τ) (main (F := F))) ⟨m, fun _ => 0, ρ⟩ (fun r => ∀ c : Dev nD,
      r.2.mem ((c.tc : Thread nD τ).loc main_v2) = W3 m ρ c (Proc.devRef .tc main_v2)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun c => by
      dsimp only [Pipeline.Seg.post, reg1]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v2 (by decide)), (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c),
       (h c _ (mem_uc main_arg5 (by decide))).trans (W3_main_arg5 m ρ c),
       (h c _ (mem_uc main_arg6 (by decide))).trans (W3_main_arg6 m ρ c)⟩)

end Cert.KernelIdeal.Run

end
-- ==== Proof.EncK.lean ====
import proofs.«164407_g2000604642866785_pallasbulk_226_8_alg».proof.Proof.Gen.Kernel.Launch
import proofs.«164407_g2000604642866785_pallasbulk_226_8_alg».proof.Proof.Gen.Kernel.Skeleton
import proofs.«164407_g2000604642866785_pallasbulk_226_8_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

/-! The frame half of the first pallas region (the encoder): a scratch buffer carried across the
    grid's sixteen points, filled at the first point with the product of the features and the first weight
    matrix; an output window (the folded decoder weights) stored at the first point only, left untouched at the
    later ones and written back after the last; an output window (a block of rows of the embedding) stored and
    written back at every point. -/

set_option maxRecDepth 16384

noncomputable section

namespace Cert.Kernel.Enc

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The body's accesses: each is the whole of its buffer -/

abbrev rA : Rect S256x4096 := Rect.unit (s := S256x4096) ![0, 0] S256x4096.size inb_S256x4096_S256x4096_0_0
abbrev rS : Rect S4096x256 := Rect.unit (s := S4096x256) ![0, 0] S4096x256.size inb_S4096x256_S4096x256_0_0
abbrev rX : Rect S4096x256 := rS
abbrev rW1 : Rect S256x256 := Rect.unit (s := S256x256) ![0, 0] S256x256.size inb_S256x256_S256x256_0_0
abbrev rZ : Rect S256x256 := rW1
abbrev rW2 : Rect S512x256 := Rect.unit (s := S512x256) ![0, 0] S512x256.size inb_S512x256_S512x256_0_0
abbrev rW3 : Rect S1x512 := Rect.unit (s := S1x512) ![0, 0] S1x512.size inb_S1x512_S1x512_0_0
abbrev rF : Rect S1x768 := Rect.unit (s := S1x768) ![0, 0] S1x768.size inb_S1x768_S1x768_0_0

/-! ## What the body leaves -/

/-- The scratch after the first point: the features times the first weight matrix. -/
def xwVal (x1 : Vec F S4096x256 .f32) (x2 : Vec F S256x256 .f32) : Vec F S4096x256 .bf16 :=
  View.canon [⟨rS, k0_pay1 (View.ld x1 rX) (View.ld x2 rW1)⟩]

/-- The folded decoder weights, stored at the first point (from the row of the last layer's weights and the
    second weight matrix). -/
def foldVal (x3 : Vec F S512x256 .f32) (x4 : Vec F S1x512 .f32) : Vec F S1x768 .f32 :=
  View.canon [⟨rF, k0_pay2 (View.ld x4 rW3) (View.ld x3 rW2)⟩]

/-- The block of rows of the embedding any point stores: the adjacency block times the scratch. -/
def zOut (x0 : Vec F S256x4096 .f32) (xs : Vec F S4096x256 .bf16) : Vec F S256x256 .bf16 :=
  View.canon [⟨rZ, k0_pay3 (View.ld x0 rA) (View.ld xs rS)⟩]

theorem coverS (p0 : Vec F S4096x256 .bf16) (y : S4096x256.Idx) :
    ∃ pc ∈ ([⟨rS, p0⟩] : List (View.Piece (Elt F) S4096x256 .bf16)), y ∈ pc.1.set :=
  View.cover_of_tiled [⟨rS, p0⟩] S4096x256.size (by rfl) y

theorem coverF (p0 : Vec F S1x768 .f32) (y : S1x768.Idx) :
    ∃ pc ∈ ([⟨rF, p0⟩] : List (View.Piece (Elt F) S1x768 .f32)), y ∈ pc.1.set :=
  View.cover_of_tiled [⟨rF, p0⟩] S1x768.size (by rfl) y

theorem coverZ (p0 : Vec F S256x256 .bf16) (y : S256x256.Idx) :
    ∃ pc ∈ ([⟨rZ, p0⟩] : List (View.Piece (Elt F) S256x256 .bf16)), y ∈ pc.1.set :=
  View.cover_of_tiled [⟨rZ, p0⟩] S256x256.size (by rfl) y

/-- The first point. -/
def t0 : Fin cfg0.N := ⟨0, by rw [show cfg0.N = 16 from N_0]; decide⟩

/-- The scratch as every point after the first finds it. -/
def xw0 (c : Dev nD) : Vec F S4096x256 .bf16 := xwVal (iblk0 V c 1 t0) (iblk0 V c 2 t0)

/-- The folded weights' window as the first point leaves it. -/
def fold0 (c : Dev nD) : Vec F S1x768 .f32 := foldVal (iblk0 V c 3 t0) (iblk0 V c 4 t0)

/-! ## The invariant between points -/

/-- The scratch operand: a whole scoped buffer of the kernel's own, passed beside the windows. -/
abbrev scM : Memref sig .tc .vmem S4096x256 .bf16 := Memref.whole cc0_scratch0

/-- The core's other scoped buffers (the second region's staging buffers), each at some contents. -/
def rest8 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f))

/-- What the launch hands the region, with the scratch operand as a memref owned at some contents. -/
theorem PhiA0_eq (c : Dev nD) :
    (Pipeline.ΦA spec0 c : sProp 𝕄)
      = iprop(((∃ d, owns (c : Thread nD τ) scM fullShare d) ∗ rest8 c) ∗ (∃ r, prngReg c r)) := by
  unfold Pipeline.ΦA; rw [scopedRest0_eq]; unfold rest8; simp only [scM, owns_whole]; try rfl

/-- The invariant before position `n`: before the first point what the launch hands the region; afterwards the same
    with the scratch at the product the first point stored. -/
def PhiS (c : Dev nD) : ℕ → sProp 𝕄
  | 0 => Pipeline.ΦA spec0 c
  | _ + 1 => iprop((owns (c : Thread nD τ) scM fullShare (xw0 V c) ∗ rest8 c) ∗ (∃ r, prngReg c r))

theorem PhiS_zero (c : Dev nD) : PhiS V c 0 = Pipeline.ΦA spec0 c := rfl

theorem PhiS_pos (c : Dev nD) (n : ℕ) (hz : n ≠ 0) :
    PhiS V c n = iprop((owns (c : Thread nD τ) scM fullShare (xw0 V c) ∗ rest8 c) ∗ (∃ r, prngReg c r)) := by
  cases n with
  | zero => exact absurd rfl hz
  | succ n => rfl

/-! ## The pipeline's proof data -/

/-- The proof data of the region on core `c`: the arrays as the region finds them (`V`); after the body at point `t`
    each input's buffer at its block, the embedding's window at the adjacency block times the carried scratch, the
    folded weights' window at what the first point stored (at every point: the later ones leave it untouched). -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => zOut (iblk0 V c 0 t) (xw0 V c)
    | ⟨6, _⟩ => fold0 V c
  Φ t := PhiS V c t.val
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = zOut (iblk0 V c 0 t) (xw0 V c) := by dsimp only [dat0]
theorem after0_6 (c : Dev nD) (t : Fin cfg0.N) : (dat0 V c).after 6 t = fold0 V c := by dsimp only [dat0]

theorem Phi_eq (c : Dev nD) (t : Fin (cfg0.N + 1)) : (dat0 V c).Φ t = PhiS V c t.val := by dsimp only [dat0]

/-! ## The body's triples -/

set_option maxHeartbeats 2000000 in
/-- At the first point (the branch taken): the scratch, at anything, is filled with the product; the folded weights'
    buffer is stored; the embedding's block is the adjacency block times the scratch just filled. -/
theorem sound_kernel0_first (c : Dev nD) (E : Set ℕ) (i : grid0.Coords) (hc : k0_cond1 i = 1#1) (arg1 : Memref sig .tc .vmem S256x4096 .f32) (harg1 : arg1.IsWhole) (arg2 : Memref sig .tc .vmem S4096x256 .f32) (harg2 : arg2.IsWhole) (arg3 : Memref sig .tc .vmem S256x256 .f32) (harg3 : arg3.IsWhole) (arg4 : Memref sig .tc .vmem S512x256 .f32) (harg4 : arg4.IsWhole) (arg5 : Memref sig .tc .vmem S1x512 .f32) (harg5 : arg5.IsWhole) (arg6 : Memref sig .tc .vmem S256x256 .bf16) (harg6 : arg6.IsWhole) (arg7 : Memref sig .tc .vmem S1x768 .f32) (harg7 : arg7.IsWhole) (arg8 : Memref sig .tc .vmem S4096x256 .bf16) (harg8 : arg8.IsWhole)
    (x0 : Vec F S256x4096 .f32) (x1 : Vec F S4096x256 .f32) (x2 : Vec F S256x256 .f32) (x3 : Vec F S512x256 .f32) (x4 : Vec F S1x512 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (zOut x0 (xwVal x1 x2)) ∗ owns (c : Thread nD τ) arg7 fullShare (foldVal x3 x4) ∗ owns (c : Thread nD τ) arg8 fullShare (xwVal x1 x2)) -∗ K ⟨⟩))
      ⊢ wp frame (wpE (defs₀ (F := F)) Variants.none c none) E (cc0__encode_kernel i arg1 harg1 arg2 harg2 arg3 harg3 arg4 harg4 arg5 harg5 arg6 harg6 arg7 harg7 arg8 harg8) K := by
  simp only [cc0__encode_kernel_eq_skeleton]; unfold cc0__encode_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
  subst hf0 hf1 hf2 hf3 hf4
  sl_exec (disch := exact hc)
  sl_step
  sl_unfold_run_names
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    rw [View.read_writes_eq_canon _ _ _ (coverZ _)]
    unfold zOut xwVal
    rw [View.readCov_eq_canon_ld _ _ _ (coverS _)]
    rfl
  isplitl [H6]
  · iexists _; isplitr
    swap; · iexact H6
    ipureintro
    exact View.read_writes_eq_canon _ _ _ (coverF _)
  iexists _; isplitr
  swap; · iexact H7
  ipureintro
  exact View.read_writes_eq_canon _ _ _ (coverS _)

set_option maxHeartbeats 2000000 in
/-- At a later point (the branch not taken): the scratch is read, not written; the embedding's block is the adjacency
    block times the scratch. The other windows' buffers are not touched. -/
theorem sound_kernel0_rest (c : Dev nD) (E : Set ℕ) (i : grid0.Coords) (hc : ¬k0_cond1 i = 1#1) (arg1 : Memref sig .tc .vmem S256x4096 .f32) (harg1 : arg1.IsWhole) (arg2 : Memref sig .tc .vmem S4096x256 .f32) (harg2 : arg2.IsWhole) (arg3 : Memref sig .tc .vmem S256x256 .f32) (harg3 : arg3.IsWhole) (arg4 : Memref sig .tc .vmem S512x256 .f32) (harg4 : arg4.IsWhole) (arg5 : Memref sig .tc .vmem S1x512 .f32) (harg5 : arg5.IsWhole) (arg6 : Memref sig .tc .vmem S256x256 .bf16) (harg6 : arg6.IsWhole) (arg7 : Memref sig .tc .vmem S1x768 .f32) (harg7 : arg7.IsWhole) (arg8 : Memref sig .tc .vmem S4096x256 .bf16) (harg8 : arg8.IsWhole)
    (x0 : Vec F S256x4096 .f32) (xs : Vec F S4096x256 .bf16) (K : PUnit → sProp 𝕄) :
    iprop(owns (c : Thread nD τ) arg1 fullShare x0 ∗ (∃ d, owns (c : Thread nD τ) arg6 fullShare d) ∗ owns (c : Thread nD τ) arg8 fullShare xs
        ∗ (iprop(owns (c : Thread nD τ) arg1 fullShare x0 ∗ owns (c : Thread nD τ) arg6 fullShare (zOut x0 xs) ∗ owns (c : Thread nD τ) arg8 fullShare xs) -∗ K ⟨⟩))
      ⊢ wp frame (wpE (defs₀ (F := F)) Variants.none c none) E (cc0__encode_kernel i arg1 harg1 arg2 harg2 arg3 harg3 arg4 harg4 arg5 harg5 arg6 harg6 arg7 harg7 arg8 harg8) K := by
  simp only [cc0__encode_kernel_eq_skeleton]; unfold cc0__encode_kernel_skel
  unfold owns
  iintro ⟨⟨%f0, %hf0, H0⟩, ⟨%d5, %f5, -, H5⟩, ⟨%f7, %hf7, H7⟩, Hk⟩
  subst hf0 hf7
  sl_exec (disch := exact hc)
  sl_step
  sl_unfold_run_names
  iapply Hk
  isplitl [H0]
  · iexists f0; isplitr; · ipureintro; rfl
    iexact H0
  isplitl [H5]
  · iexists _; isplitr
    swap; · iexact H5
    ipureintro
    exact View.read_writes_eq_canon _ _ _ (coverZ _)
  iexists f7; isplitr; · ipureintro; rfl
  iexact H7

/-! ## The branch's condition and the windows' idle points, decided over the grid -/

/-- The branch is taken at the first point only. -/
theorem hcond : ∀ t : Fin cfg0.N, k0_cond1 (grid0.coords t) = 1#1 ↔ t.val = 0 :=
  (by decide +kernel : ∀ t : Fin grid0.N, k0_cond1 (grid0.coords t) = 1#1 ↔ t.val = 0)

theorem live0_0 : ∀ t : Fin cfg0.N, cfg0.idle 0 (grid0.coords t) = false := by decide +kernel
theorem live0_1 : ∀ t : Fin cfg0.N, cfg0.idle 1 (grid0.coords t) = false := by decide +kernel
theorem live0_2 : ∀ t : Fin cfg0.N, cfg0.idle 2 (grid0.coords t) = false := by decide +kernel
theorem live0_3 : ∀ t : Fin cfg0.N, cfg0.idle 3 (grid0.coords t) = false := by decide +kernel
theorem live0_4 : ∀ t : Fin cfg0.N, cfg0.idle 4 (grid0.coords t) = false := by decide +kernel
theorem live0_5 : ∀ t : Fin cfg0.N, cfg0.idle 5 (grid0.coords t) = false := by decide +kernel
/-- The folded weights' window is stored at the first point, -/
theorem live0_6 : ∀ t : Fin cfg0.N, t.val = 0 → cfg0.idle 6 (grid0.coords t) = false := by decide +kernel
/-- idle at the others, -/
theorem idle0_6 : ∀ t : Fin cfg0.N, t.val ≠ 0 → cfg0.idle 6 (grid0.coords t) = true := by decide +kernel
/-- written back after the last point -/
theorem flush0_6_last : ∀ t : Fin cfg0.N, t.val = 15 → (cfg0.win 6).flush t = true :=
  fun t h => (flush0_6 t).mpr (by rw [h])
/-- and at no other. -/
theorem noFlush0_6 : ∀ t : Fin cfg0.N, t.val ≠ 15 → (cfg0.win 6).flush t = false := fun t h => by
  have hN : t.val < 16 := lt_of_lt_of_eq t.isLt (show cfg0.N = 16 from N_0)
  cases hf : (cfg0.win 6).flush t with
  | false => rfl
  | true => exact absurd ((flush0_6 t).mp hf) (by omega)

/-! ## What the body finds in each window's buffer -/

theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl) (fun t => by rw [after0_2]; unfold Dat.blockOf iblk0; rw [A_eq0]; try rfl) t d).trans
    (by unfold Dat.fetched Dat.blockOf iblk0; rw [A_eq0]; try rfl)
theorem before0_3 (c : Dev nD) (t : Fin cfg0.N) (d) : (dat0 V c).before 3 t d = iblk0 V c 3 t :=
  ((dat0 V c).before_in_eq_fetched 3 rfl (fun _ => rfl) (fun _ _ _ => rfl) (fun t => by rw [after0_3]; unfold Dat.blockOf iblk0; rw [A_eq0]; try rfl) t d).trans
    (by unfold Dat.fetched Dat.blockOf iblk0; rw [A_eq0]; try rfl)
theorem before0_4 (c : Dev nD) (t : Fin cfg0.N) (d) : (dat0 V c).before 4 t d = iblk0 V c 4 t :=
  ((dat0 V c).before_in_eq_fetched 4 rfl (fun _ => rfl) (fun _ _ _ => rfl) (fun t => by rw [after0_4]; unfold Dat.blockOf iblk0; rw [A_eq0]; try rfl) t d).trans
    (by unfold Dat.fetched Dat.blockOf iblk0; rw [A_eq0]; try rfl)

/-- What the first point left in the folded weights' buffer is what every later point finds there: the points between
    leave the buffer as they found it, and none of them writes it back. -/
theorem before0_6_pos (c : Dev nD) : ∀ (n : ℕ) (hn : n < cfg0.N), n ≠ 0 → ∀ d, (dat0 V c).before 6 ⟨n, hn⟩ d = fold0 V c
  | 0, _, h, _ => absurd rfl h
  | n + 1, hn, _, d => by
    have hN : n + 1 < 16 := lt_of_lt_of_eq hn (show cfg0.N = 16 from N_0)
    rw [(dat0 V c).before_of_pos 6 ⟨n + 1, hn⟩ (Nat.succ_ne_zero n) ((cfg0.win 6).fetch_out rfl _)]
    rw [noFlush0_6 ⟨n + 1 - 1, _⟩ (by simp only [Nat.add_sub_cancel]; omega), if_neg Bool.false_ne_true]
    unfold Dat.left
    by_cases hz : n = 0
    · subst hz
      rw [live0_6 ⟨0 + 1 - 1, _⟩ rfl]
      dsimp only
      unfold Dat.kept
      rw [after0_6]
      exact (Pipeline.fill_of_clip_none (cfg := cfg0) 6 _ (fun _ => rfl) d (fold0 V c) _).trans ((cfg0.win 6).fill_cut _ _)
    · rw [idle0_6 ⟨n + 1 - 1, _⟩ (by simp only [Nat.add_sub_cancel]; exact hz)]
      dsimp only
      exact before0_6_pos c n (Nat.lt_of_succ_lt hn) hz d

theorem before0_6 (c : Dev nD) (t : Fin cfg0.N) (hz : t.val ≠ 0) (d) : (dat0 V c).before 6 t d = fold0 V c :=
  before0_6_pos V c t.val t.isLt hz d

/-! ## The body obligation, at a generic point -/

/-- What the body is called with at point `t` (the library's precondition, the windows one by one), -/
def bodyPre (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t)

/-- At a point live for a window the obligation asks its buffer at the stated contents. -/
theorem leaves_live (c : Dev nD) (t : Fin cfg0.N) (w : Fin cfg0.W) (h : cfg0.idle w (grid0.coords t) = false) :
    (dat0 V c).leavesExact w t = owns (c : Thread nD τ) ((cfg0.win w).stage (cfg0.slots t w)) fullShare ((dat0 V c).after w t) := by
  unfold Dat.leavesExact; rw [h]

/-- So it does at an idle point that writes the block back. -/
theorem leaves_flush (c : Dev nD) (t : Fin cfg0.N) (w : Fin cfg0.W) (h : cfg0.idle w (grid0.coords t) = true) (hf : (cfg0.win w).flush t = true) :
    (dat0 V c).leavesExact w t = owns (c : Thread nD τ) ((cfg0.win w).stage (cfg0.slots t w)) fullShare ((dat0 V c).after w t) := by
  unfold Dat.leavesExact; rw [h, hf]

set_option maxHeartbeats 4000000 in
/-- The body at any point. At the first the branch is taken: the invariant hands over the scratch at anything and takes
    it back at the product; the folded weights' buffer is stored. At a later point the invariant hands over the scratch at
    the product and takes it back so; the folded weights' buffer is left as found, which at the last point — where it is
    written back — is what the first point stored. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0_0, before0_1, before0_2, before0_3, before0_4]
  rw [show (dat0 V c).owesAt () t.succ = (dat0 V c).owesAt () t.castSucc from rfl]
  rw [Phi_eq, Phi_eq, show (t.succ : Fin (cfg0.N + 1)).val = t.val + 1 from rfl, show (t.castSucc : Fin (cfg0.N + 1)).val = t.val from rfl]
  rw [PhiS_pos V c (t.val + 1) (Nat.succ_ne_zero _)]
  rw [leaves_live V c t 0 (live0_0 t), leaves_live V c t 1 (live0_1 t), leaves_live V c t 2 (live0_2 t), leaves_live V c t 3 (live0_3 t), leaves_live V c t 4 (live0_4 t), leaves_live V c t 5 (live0_5 t)]
  rw [after0_0, after0_1, after0_2, after0_3, after0_4, after0_5]
  have hN : t.val < 16 := lt_of_lt_of_eq t.isLt (show cfg0.N = 16 from N_0)
  by_cases hz : t.val = 0
  · have hc := (hcond t).mpr hz
    rw [leaves_live V c t 6 (live0_6 t hz), after0_6]
    rw [show PhiS V c t.val = Pipeline.ΦA spec0 c from by rw [hz]; rfl, PhiA0_eq]
    have ht : t = t0 := Fin.ext hz
    subst ht
    iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩⟩
    iapply (sound_kernel0_first c Set.univ (grid0.coords t0) hc _ _ _ _ _ _ _ _ _ _ _ _ _ _ _ _ (iblk0 V c 0 t0) (iblk0 V c 1 t0) (iblk0 V c 2 t0) (iblk0 V c 3 t0) (iblk0 V c 4 t0) _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [HS]; · iexact HS
    iintro ⟨H0, H1, H2, H3, H4, H5, H6, HS⟩
    isplitl [HS HR Hg]
    · isplitl [HS HR]
      · isplitl [HS]; · iexact HS
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · have hc : ¬k0_cond1 (grid0.coords t) = 1#1 := fun h => hz ((hcond t).mp h)
    rw [PhiS_pos V c t.val hz]
    by_cases hl : t.val = 15
    · rw [leaves_flush V c t 6 (idle0_6 t hz) (flush0_6_last t hl), after0_6]
      simp only [before0_6 V c t hz]
      iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩⟩
      iapply (sound_kernel0_rest c Set.univ (grid0.coords t) hc _ _ _ _ _ _ _ _ _ _ _ _ _ _ _ _ (iblk0 V c 0 t) (xw0 V c) _)
      isplitl [H0]; · iexact H0
      isplitl [H5]; · iexists _; iexact H5
      isplitl [HS]; · iexact HS
      iintro ⟨H0, H5, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · rw [Dat.leavesExact_idle (dat0 V c) 6 t (idle0_6 t hz) (noFlush0_6 t hl)]
      iintro ⟨⟨⟨HS, HR⟩, Hg⟩, Ho, ⟨%d0, H0⟩, ⟨%d1, H1⟩, ⟨%d2, H2⟩, ⟨%d3, H3⟩, ⟨%d4, H4⟩, ⟨%d5, H5⟩, H6⟩
      iapply (sound_kernel0_rest c Set.univ (grid0.coords t) hc _ _ _ _ _ _ _ _ _ _ _ _ _ _ _ _ (iblk0 V c 0 t) (xw0 V c) _)
      isplitl [H0]; · iexact H0
      isplitl [H5]; · iexists _; iexact H5
      isplitl [HS]; · iexact HS
      iintro ⟨H0, H5, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6

/-- The library's body obligation, at every point. -/
theorem body_obligation0 (c : Dev nD) : BodyObligation (dat0 (F := F) V c) (defs₀ (F := F)) Variants.none () Set.univ := fun t => by
  rw [bigSep_W0, bigSep_W0]
  exact sound_body V c t

theorem hin0 (c : Dev nD) : Pipeline.ΦA spec0 c ⊢ (dat0 V c).Φ 0 := by
  rw [Phi_eq]
  exact Idealize.SL.BI.Entails.refl _

theorem hout0 (c : Dev nD) : (dat0 V c).Φ (Fin.last cfg0.N) ⊢ Pipeline.ΦA spec0 c := by
  rw [Phi_eq, PhiS_pos V c _ (by rw [Fin.val_last]; have : cfg0.N = 16 := N_0; omega), PhiA0_eq]
  iintro ⟨⟨HS, HR⟩, Hg⟩
  isplitl [HS HR]
  · isplitl [HS]; · iexists _; iexact HS
    iexact HR
  iexact Hg

end Cert.Kernel.Enc

end
-- ==== Proof.DecK.lean ====
/- The frame half of the decode region (pipeline 1, grid 32, five windows), generic in the float interpretation:
   at the TensorCore's buffer contents `V` on entry, each window's block at a grid point, what the body leaves in
   the output window's staging buffer as a function of the input blocks, the body's triple, the pipeline's proof
   data, and the body obligation at every point. -/
import proofs.«164407_g2000604642866785_pallasbulk_226_8_alg».proof.Proof.Gen.Kernel.Launch
import proofs.«164407_g2000604642866785_pallasbulk_226_8_alg».proof.Proof.Gen.Kernel.Skeleton
import proofs.«164407_g2000604642866785_pallasbulk_226_8_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents recurses once per coordinate of the long axes
set_option maxRecDepth 16384

noncomputable section

namespace Cert.Kernel.Dec

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s (`hA`) and whose body leaves the block in place (`hafter`): where the window is not
    fetched its block index has not moved, so the previous point's block is this point's. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for any proof
    data whose array is `V`'s (`hA`) and whose body leaves the block in place (`hafter`): where the window is not
    fetched its block index has not moved, so the previous point's block is this point's. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for any proof
    data whose array is `V`'s (`hA`) and whose body leaves the block in place (`hafter`): where the window is not
    fetched its block index has not moved, so the previous point's block is this point's. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not, for any proof
    data whose array is `V`'s (`hA`) and whose body leaves the block in place (`hafter`): where the window is not
    fetched its block index has not moved, so the previous point's block is this point's. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

/-- The whole edge block [512,2]. -/
abbrev rE : Rect S512x2 := Rect.unit (s := S512x2) ![0, 0] S512x2.size inb_S512x2_S512x2_0_0
/-- The whole embedding table [4096,256]. -/
abbrev rZ : Rect S4096x256 := Rect.unit (s := S4096x256) ![0, 0] S4096x256.size inb_S4096x256_S4096x256_0_0
/-- The three [1,256] thirds of the fold row [1,768], at column offsets 0, 256, 512. -/
abbrev rF0 : Rect S1x768 := Rect.unit (s := S1x768) ![0, 0] S1x256.size inb_S1x768_S1x256_0_0
abbrev rF256 : Rect S1x768 := Rect.unit (s := S1x768) ![0, 256] S1x256.size inb_S1x768_S1x256_0_256
abbrev rF512 : Rect S1x768 := Rect.unit (s := S1x768) ![0, 512] S1x256.size inb_S1x768_S1x256_0_512
/-- The whole output column [512,1]. -/
abbrev rO : Rect S512x1 := Rect.unit (s := S512x1) ![0, 0] S512x1.size inb_S512x1_S512x1_0_0

/-! ## What the body leaves in the output window's buffer -/

/-- Window 4's staging buffer after the body at grid coordinate `i`, from the input windows' blocks: its one store,
    the logistic of the logit column, which itself reads both edge blocks, the table and the fold row's thirds. -/
def out1_4 (i : grid1.Coords) (x0 x1 : Vec F S512x2 .i32) (x2 : Vec F S4096x256 .bf16) (x3 : Vec F S1x768 .f32) : Vec F S512x1 .f32 :=
  View.canon [⟨rO, k1_pay1 (k1_pay2 i (View.ld x0 rE) (View.ld x1 rE) (View.ld x2 rZ) (View.ld x3 rF0) (View.ld x3 rF256) (View.ld x3 rF512))⟩]

/-- Its one store is the whole buffer, so it covers it. -/
theorem cover1_4 (p0 : Vec F S512x1 .f32) (y : S512x1.Idx) :
    ∃ pc ∈ ([⟨rO, p0⟩] : List (View.Piece (Elt F) S512x1 .f32)), y ∈ pc.1.set :=
  View.cover_of_tiled [⟨rO, p0⟩] S512x1.size (by rfl) y

/-! ## The body's triple -/

set_option maxHeartbeats 1000000 in
/-- The kernel body on whole staging memrefs, the inputs' at read contents `xW` and the output's at anything, runs to
    the continuation holding the inputs' as they were and the output's at `out1_4` of the inputs'. -/
theorem sound_kernel1 (c : Dev nD) (E : Set ℕ) (i : grid1.Coords) (arg1 : Memref sig .tc .vmem S512x2 .i32) (harg1 : arg1.IsWhole) (arg2 : Memref sig .tc .vmem S512x2 .i32) (harg2 : arg2.IsWhole) (arg3 : Memref sig .tc .vmem S4096x256 .bf16) (harg3 : arg3.IsWhole) (arg4 : Memref sig .tc .vmem S1x768 .f32) (harg4 : arg4.IsWhole) (arg5 : Memref sig .tc .vmem S512x1 .f32) (harg5 : arg5.IsWhole)
    (x0 : Vec F S512x2 .i32) (x1 : Vec F S512x2 .i32) (x2 : Vec F S4096x256 .bf16) (x3 : Vec F S1x768 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out1_4 i x0 x1 x2 x3)) -∗ K ⟨⟩))
      ⊢ wp frame (wpE (defs₀ (F := F)) Variants.none c none) E (cc1__decode_kernel i arg1 harg1 arg2 harg2 arg3 harg3 arg4 harg4 arg5 harg5) K := by
  simp only [cc1__decode_kernel_eq_skeleton]; unfold cc1__decode_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  try dsimp only
  exact View.read_writes_eq_canon _ _ _ (cover1_4 _)

/-! ## The pipeline's proof data -/

/-- The proof data of pipeline 1 on core `c`: the arrays as the region finds them (`V`); after the body at point `t`
    each input's buffer at its block and the output's at `out1_4` of the input blocks at `t`'s coordinate; the
    invariant the scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (grid1.coords t) (iblk1 V c 0 t) (iblk1 V c 1 t) (iblk1 V c 2 t) (iblk1 V c 3 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = out1_4 (grid1.coords t) (iblk1 V c 0 t) (iblk1 V c 1 t) (iblk1 V c 2 t) (iblk1 V c 3 t) := by dsimp only [dat1]

/-- The invariant is the class's at every point. -/
theorem Φ_eq1 (c : Dev nD) (t : Fin (cfg1.N + 1)) : (dat1 V c).Φ t = Pipeline.ΦA spec1 c := rfl

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' memrefs hold their blocks, so the body's triple applies; the invariant and
    the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ (grid1.coords t) _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Dec

end
-- ==== Proof.RunK.lean ====
/-
  The kernel program's run, region by region. @main is one host line (the weight column recast as a row), the encoder
  region and the decoder region. Between two of them every unscoped buffer of the core holds known contents: the launch
  memory, then the host line's result folded in, then each region's arrays at what its write-backs leave and every other
  buffer as the region found it. From the two regions' per-point obligations the launch theorem gives: every weakly fair
  execution terminates, nothing faults, the argument arrays end as launched, and the result array ends at the decoder
  region's output array.
-/
import proofs.«164407_g2000604642866785_pallasbulk_226_8_alg».proof.Proof.EncK
import proofs.«164407_g2000604642866785_pallasbulk_226_8_alg».proof.Proof.DecK
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the host line (the encoder region's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the encoder region's exit: its arrays at what the pipeline leaves, every other buffer as entered. -/
def W2 (c : Dev nD) : Valuation τ sig (Elt F) :=
  Pipeline.withArrays spec0 c (W1 m ρ c) fun w => (Enc.dat0 (V1 m ρ) c).arrAt w cfg0.N
theorem W2_arr (c : Dev nD) (w : Fin cfg0.W) :
    W2 m ρ c (Proc.devRef .tc (Pipeline.arrRef spec0 w)) = (Enc.dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (Enc.dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At the decoder region's exit. -/
def W3 (c : Dev nD) : Valuation τ sig (Elt F) :=
  Pipeline.withArrays spec1 c (W2 m ρ c) fun w => (Dec.dat1 (V2 m ρ) c).arrAt w cfg1.N
theorem W3_arr (c : Dev nD) (w : Fin cfg1.W) :
    W3 m ρ c (Proc.devRef .tc (Pipeline.arrRef spec1 w)) = (Dec.dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (Dec.dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! ## The arguments end as launched: an argument is an input of a region (never written back) or no array of it -/

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := W3_of_ne m ρ c main_arg0 (by decide)
    _ = W1 m ρ c (Proc.devRef .tc main_arg0) := (W2_arr m ρ c 1).trans (((Enc.dat0 (V1 m ρ) c).arrAt_in 1 rfl cfg0.N).trans (Enc.A_eq0 (V1 m ρ) c 1))
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl
theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) := (W2_arr m ρ c 0).trans (((Enc.dat0 (V1 m ρ) c).arrAt_in 0 rfl cfg0.N).trans (Enc.A_eq0 (V1 m ρ) c 0))
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl
theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := (W2_arr m ρ c 2).trans (((Enc.dat0 (V1 m ρ) c).arrAt_in 2 rfl cfg0.N).trans (Enc.A_eq0 (V1 m ρ) c 2))
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl
theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := W3_of_ne m ρ c main_arg3 (by decide)
    _ = W1 m ρ c (Proc.devRef .tc main_arg3) := (W2_arr m ρ c 3).trans (((Enc.dat0 (V1 m ρ) c).arrAt_in 3 rfl cfg0.N).trans (Enc.A_eq0 (V1 m ρ) c 3))
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl
theorem W3_main_arg4 (c : Dev nD) : W3 m ρ c (Proc.devRef .tc main_arg4) = m ((c : Thread nD τ).loc main_arg4) :=
  calc W3 m ρ c (Proc.devRef .tc main_arg4)
    _ = W2 m ρ c (Proc.devRef .tc main_arg4) := W3_of_ne m ρ c main_arg4 (by decide)
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl
theorem W3_main_arg5 (c : Dev nD) : W3 m ρ c (Proc.devRef .tc main_arg5) = m ((c : Thread nD τ).loc main_arg5) :=
  calc W3 m ρ c (Proc.devRef .tc main_arg5)
    _ = W2 m ρ c (Proc.devRef .tc main_arg5) := (W3_arr m ρ c 0).trans (((Dec.dat1 (V2 m ρ) c).arrAt_in 0 rfl cfg1.N).trans (Dec.A_eq1 (V2 m ρ) c 0))
    _ = W1 m ρ c (Proc.devRef .tc main_arg5) := W2_of_ne m ρ c main_arg5 (by decide)
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl
theorem W3_main_arg6 (c : Dev nD) : W3 m ρ c (Proc.devRef .tc main_arg6) = m ((c : Thread nD τ).loc main_arg6) :=
  calc W3 m ρ c (Proc.devRef .tc main_arg6)
    _ = W2 m ρ c (Proc.devRef .tc main_arg6) := (W3_arr m ρ c 1).trans (((Dec.dat1 (V2 m ρ) c).arrAt_in 1 rfl cfg1.N).trans (Dec.A_eq1 (V2 m ρ) c 1))
    _ = W1 m ρ c (Proc.devRef .tc main_arg6) := W2_of_ne m ρ c main_arg6 (by decide)
    _ = W0 m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := rfl

/-- The result array ends at the decoder region's output array. -/
theorem W3_main_v2 (c : Dev nD) : W3 m ρ c (Proc.devRef .tc main_v2) = (Dec.dat1 (V2 m ρ) c).arrAt 4 cfg1.N :=
  W3_arr m ρ c 4

/-! ## The proof data family and the thread state -/

abbrev adm : (p : Fin 2) → (pcfgs (F := F) p).Adm := fun p => (cfgs p).toPCfg_adm
/-- Each pipeline's proof data at its region's entry contents: a literal match on the pipeline's number. -/
def pdats : (p : Fin 2) → (c : Dev nD) → Dat τ (Elt F) Unit ℕ (UR sig nD τ) ℕ (Pipeline.pin (pcfgs (F := F)) adm p) c
  | ⟨0, _⟩ => fun c => Enc.dat0 (V1 m ρ) c
  | ⟨1, _⟩ => fun c => Dec.dat1 (V2 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps0_fresh : (hostOps0 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m ρ c) ∗ ∃ r, prngReg c r)

/-! ## The regions as segments -/

set_option backward.isDefEq.respectTransparency.types false in
/-- Region 0 over the thread state: entered with every unscoped buffer at the contents before it, left with the region's
    arrays at what its write-backs leave and every other buffer as entered. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (Enc.body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = (Enc.dat0 (V1 m ρ) c).Φ 0 from rfl]
    iintro ⟨Hp, -, Hr⟩
    iapply (Enc.hin0 (V1 m ρ) c)
    iapply (show (iprop(Pipeline.scopedRest spec0 c ∗ ∃ r, prngReg c r) : sProp 𝕄) ⊢ Pipeline.ΦA spec0 c from by
      unfold Pipeline.ΦA; exact .rfl)
    isplitl [Hr]; · iexact Hr
    iexact Hp
  hout c := by
    rw [Pipeline.ownSems0_none, show (pdats m ρ 0 c).Φ (Fin.last _) = (Enc.dat0 (V1 m ρ) c).Φ (Fin.last cfg0.N) from rfl]
    iintro HP
    ihave H := (Enc.hout0 (V1 m ρ) c) $$ HP
    ihave H2 := (show (Pipeline.ΦA spec0 c : sProp 𝕄) ⊢ iprop(Pipeline.scopedRest spec0 c ∗ ∃ r, prngReg c r) from by
      unfold Pipeline.ΦA; exact .rfl) $$ H
    icases H2 with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at the contents before it, left with the region's
    arrays at what its write-backs leave and every other buffer as entered. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (Dec.body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ) ]
theorem main_run (c : Dev nD) : main (F := F) c = Pipeline.Seg.run (segs m ρ) := (main_chain c).trans (by chain_rfl)

set_option backward.isDefEq.respectTransparency.types false in
/-- The frame: every weakly fair execution of @main from any memory with zero counters terminates, nothing faulting, and
    the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun c => by
      dsimp only [Pipeline.Seg.post, reg1]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨(h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c),
       (h c _ (mem_uc main_arg5 (by decide))).trans (W3_main_arg5 m ρ c),
       (h c _ (mem_uc main_arg6 (by decide))).trans (W3_main_arg6 m ρ c)⟩)

set_option backward.isDefEq.respectTransparency.types false in
/-- The run with the result named: the same, and the result array ends at the last boundary's contents. -/
theorem run : θ_run defs (onTc (τ := τ) (main (F := F))) ⟨m, fun _ => 0, ρ⟩ (fun r => ∀ c : Dev nD,
      r.2.mem ((c.tc : Thread nD τ).loc main_v2) = W3 m ρ c (Proc.devRef .tc main_v2)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun c => by
      dsimp only [Pipeline.Seg.post, reg1]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v2 (by decide)), (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c),
       (h c _ (mem_uc main_arg5 (by decide))).trans (W3_main_arg5 m ρ c),
       (h c _ (mem_uc main_arg6 (by decide))).trans (W3_main_arg6 m ρ c)⟩)

end Cert.Kernel.Run

end
-- ==== Proof.SpecBase.lean ====
/-
  Shared vocabulary for the two programs' results as functions of the argument arrays: matrices of extended reals and of
  32-bit words over literal extents, the one-hot weight of a node for an index word, and the edge list as the two
  argument lists one after the other.
-/
import Idealize.ShloMosaic.PureOps.Ideal
import Idealize.ShloMosaic.Lib.ValueIdx

noncomputable section

namespace Cert.Spec

open Idealize.ShloMosaic Idealize.ShloMosaic.ValueIdx

/-- An a×b matrix of extended reals, indexed as the programs' arrays are. -/
abbrev M (a b : Nat) : Type := (⟨2, ![a, b]⟩ : Shape).Idx → EReal
/-- An a×b matrix of 32-bit words. -/
abbrev IM (a b : Nat) : Type := (⟨2, ![a, b]⟩ : Shape).Idx → BitVec 32

/-- The one-hot weight of node `n` for the index word `v`: one when the node's number is the word, else zero. -/
def hot (v : BitVec 32) (n : Fin 4096) : EReal := if BitVec.ofNat 32 n.val = v then 1 else 0

/-- Endpoint `col` of edge `e` of the whole edge list: the first 8192 edges are the first list's, the rest the second's. -/
def edgeAt (te fe : IM 8192 2) (e : Fin 16384) (col : Fin 2) : BitVec 32 :=
  if h : e.val < 8192 then te (ix2 ⟨e.val, h⟩ col) else fe (ix2 ⟨e.val - 8192, by have := e.isLt; omega⟩ col)

end Cert.Spec

end
-- ==== Proof.RefRun.lean ====
/-
  The reference program's run with its result named, and what the host lines around its last region compute: the
  result array is the last region's output read in row-major order, the two index rows that region reads are the
  two columns of the edge list (the argument lists one after the other), and the two tables it reads are what the
  second region left.
-/
import proofs.«164407_g2000604642866785_pallasbulk_226_8_alg».proof.Proof.Gen.ReferenceIdeal.Frame
import proofs.«164407_g2000604642866785_pallasbulk_226_8_alg».proof.Proof.SpecBase
import Idealize.ShloMosaic.Lib.StableHlo.Run
import Idealize.ShloMosaic.Lib.ValueIdx
import Idealize.ShloMosaic.Lib.ValueLayout

set_option maxRecDepth 16384

noncomputable section

namespace Cert.ReferenceIdeal.RefRun

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

section Run

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- From any memory with zero counters every weakly fair execution of @main on the TensorCores terminates, nothing
    faulting; in every final state the result array holds what the fold of the segments leaves there, and the
    argument arrays are as launched. -/
theorem run : θ_run defs (onTc (τ := τ) (main (F := F))) ⟨m, fun _ => 0, ρ⟩ (fun r => ∀ c : Dev nD,
      r.2.mem ((c.tc : Thread nD τ).loc main_v25) = W10 m ρ c (Proc.devRef .tc main_v25)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v25 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c)⟩)

end Run

/-! ## The host lines that lay one column of the edge list out as a row -/

section EdgeRow

variable {α : Type}

/-- A pad of width zero on every side, nothing between the entries, changes nothing. -/
theorem pad_none (x : (⟨1, ![16384]⟩ : Shape).Idx → α) {u : Shape} (v : u.Idx → α)
    (h : (⟨1, ![16384]⟩ : Shape).Pads (![0] : Fin 1 → Nat) ![0] ![0] ⟨1, ![16384]⟩) (hu : 0 < u.numel) :
    pad ⟨1, ![16384]⟩ (![0] : Fin 1 → Nat) ![0] ![0] x v h hu = x := by
  funext j
  have hin : ∀ a : Fin 1, (![0] : Fin 1 → Nat) a ≤ (j (a.cast h.1)).val
      ∧ ((j (a.cast h.1)).val - (![0] : Fin 1 → Nat) a) % ((![0] : Fin 1 → Nat) a + 1) = 0
      ∧ ((j (a.cast h.1)).val - (![0] : Fin 1 → Nat) a) / ((![0] : Fin 1 → Nat) a + 1) < (⟨1, ![16384]⟩ : Shape).size a := by
    intro a
    match a with
    | ⟨0, _⟩ =>
      have hj : (j 0).val < 16384 := (j 0).isLt
      show 0 ≤ (j 0).val ∧ ((j 0).val - 0) % (0 + 1) = 0 ∧ ((j 0).val - 0) / (0 + 1) < 16384
      omega
  unfold pad
  rw [dif_pos hin]
  refine congrArg x (funext fun a => Fin.ext ?_)
  match a with
  | ⟨0, _⟩ =>
    show ((j 0).val - 0) / (0 + 1) = (j 0).val
    omega

/-- Column `off` of the two lists one after the other, as a row: the concatenation along the rows, the column cut
    out, flattened, padded by nothing, and laid out as one row. -/
def edgeRow (off : Nat) (te fe : Cert.Spec.IM 8192 2)
    (hc : Shape.Concatenates [(⟨2, ![8192, 2]⟩ : Shape), ⟨2, ![8192, 2]⟩] ⟨2, ![16384, 2]⟩ 0)
    (hs : (⟨2, ![16384, 2]⟩ : Shape).Slices ![0, off] ⟨2, ![16384, 1]⟩)
    (h1 : (⟨2, ![16384, 1]⟩ : Shape).ShapeCasts ⟨1, ![16384]⟩)
    (hp : (⟨1, ![16384]⟩ : Shape).Pads (![0] : Fin 1 → Nat) ![0] ![0] ⟨1, ![16384]⟩)
    (hu : 0 < (⟨0, ![]⟩ : Shape).numel)
    (h2 : (⟨1, ![16384]⟩ : Shape).ShapeCasts ⟨2, ![1, 16384]⟩) : (⟨2, ![1, 16384]⟩ : Shape).Idx → BitVec 32 :=
  shapeCast ⟨2, ![1, 16384]⟩
    (pad ⟨1, ![16384]⟩ (![0] : Fin 1 → Nat) ![0] ![0]
      (shapeCast ⟨1, ![16384]⟩
        (extractStridedSlice ⟨2, ![16384, 1]⟩ ![0, off]
          (concatenate ⟨2, ![16384, 2]⟩ 0 [⟨⟨2, ![8192, 2]⟩, te⟩, ⟨⟨2, ![8192, 2]⟩, fe⟩] hc) hs) h1)
      (constantI ⟨0, ![]⟩ 32 0#32) hp hu) h2

/-- Entry `e` of that row is endpoint `off` of edge `e` of the whole list. -/
theorem edgeRow_apply (off : Nat) (te fe : Cert.Spec.IM 8192 2) (hc) (hs) (h1) (hp) (hu) (h2)
    (col : Fin 2) (hcol : col.val = off) (z : Fin 1) (e : Fin 16384) :
    edgeRow off te fe hc hs h1 hp hu h2 (ix2 z e) = Cert.Spec.edgeAt te fe e col := by
  unfold edgeRow
  rw [pad_none]
  refine (shapeCast_apply (s := ⟨1, ![16384]⟩) (t := ⟨2, ![1, 16384]⟩) _ h2 (ix2 z e) (ix1 e) ?_).trans ?_
  · rw [Shape.rowMajor_val_one, Shape.rowMajor_val_two]
    have hz : z.val = 0 := by omega
    show e.val = z.val * 16384 + e.val
    omega
  refine (shapeCast_apply (s := ⟨2, ![16384, 1]⟩) (t := ⟨1, ![16384]⟩) _ h1 (ix1 e) (ix2 e (0 : Fin 1)) ?_).trans ?_
  · rw [Shape.rowMajor_val_one, Shape.rowMajor_val_two]
    show e.val * 1 + 0 = e.val
    omega
  refine (extractStridedSlice_apply (s := ⟨2, ![16384, 2]⟩) (t := ⟨2, ![16384, 1]⟩) ![0, off] _ hs (ix2 e (0 : Fin 1)) (ix2 e col) ?_).trans ?_
  · intro a
    match a with
    | ⟨0, _⟩ => show e.val = 0 + e.val; omega
    | ⟨1, _⟩ => show col.val = off + 0; omega
  unfold Cert.Spec.edgeAt
  by_cases he : e.val < 8192
  · rw [dif_pos he]
    refine concatenate_pair_apply_left (t := ⟨2, ![16384, 2]⟩) (s₁ := ⟨2, ![8192, 2]⟩) (s₂ := ⟨2, ![8192, 2]⟩) 0 te fe hc (ix2 e col) rfl (ix2 ⟨e.val, he⟩ col) ?_
    intro b
    match b with
    | ⟨0, _⟩ => rfl
    | ⟨1, _⟩ => rfl
  · rw [dif_neg he]
    refine concatenate_pair_apply_right (t := ⟨2, ![16384, 2]⟩) (s₁ := ⟨2, ![8192, 2]⟩) (s₂ := ⟨2, ![8192, 2]⟩) 0 te fe hc (ix2 e col) rfl rfl
      (ix2 ⟨e.val - 8192, by have := e.isLt; omega⟩ col) ?_ ?_
    · intro b hb
      match b with
      | ⟨0, _⟩ => exact absurd rfl hb
      | ⟨1, _⟩ => rfl
    · show e.val - 8192 + 8192 = e.val
      omega

end EdgeRow

/-! ## What the last region finds, and what the run ends with -/

section IdealRun

variable (m : (ℓ : Loc nD τ sig) → Buf (Elt Ideal) ℓ) (ρ : Dev nD → PrngReg)

/-- The result array is the last region's output array read in row-major order: entry `e` of the column is entry
    `e % 256` of row block `e / 256`. -/
theorem out_eq (c : Dev nD) :
    (W10 (F := Ideal) m ρ c (Proc.devRef .tc main_v25) : S16384x1.Idx → EReal)
      = fun i => (dat2 (V8 m ρ) c).arrAt 4 cfg2.N
          (ix3 (⟨(i 0).val / 256, by have := idx2_lt0 i; omega⟩ : Fin 64) (0 : Fin 1)
            (⟨(i 0).val % 256, Nat.mod_lt _ (by decide)⟩ : Fin 256)) := by
  have e : (W10 (F := Ideal) m ρ c (Proc.devRef .tc main_v25) : S16384x1.Idx → EReal)
      = shapeCast S16384x1 ((dat2 (V8 m ρ) c).arrAt 4 cfg2.N : S64x1x256.Idx → EReal) shapeCasts_S64x1x256_S16384x1 := by
    rw [← W9_arr m ρ c 4]
    dsimp only [W10, hostOps3]; after_results; rfl
  rw [e]; funext i
  refine shapeCast_apply (s := S64x1x256) (t := S16384x1) _ _ i _ ?_
  show ((⟨3, ![64, 1, 256]⟩ : Shape).rowMajor _).val = ((⟨2, ![16384, 1]⟩ : Shape).rowMajor i).val
  rw [Shape.rowMajor_val_three, Shape.rowMajor_val_two]
  have h0 := idx2_lt0 i
  have h1 := idx2_lt1 i
  show ((i 0).val / 256 * 1 + 0) * 256 + (i 0).val % 256 = (i 0).val * 1 + (i 1).val
  omega

/-- A buffer none of the operations of a line writes holds after the line what it held before: the line's writes
    listed, the buffer compared with each. -/
local macro "not_written" : tactic => `(tactic|
  exact StableHlo.after_of_forall_not_mem _ _ (List.forall_iff_forall_mem.mp (by
    simp only [hostOps0, hostOps2, hostOps2_1, hostOps2_2, hostOps2_3, hostOps2_4, List.flatten_cons, List.flatten_nil,
      List.append_nil, List.cons_append, List.nil_append, List.Forall, StableHlo.nullary_writes, StableHlo.unary_writes,
      StableHlo.binary_writes, StableHlo.ternary_writes, StableHlo.quaternary_writes, StableHlo.reshape_writes,
      StableHlo.binaryIndexed_writes, Finset.mem_singleton]
    repeat' apply And.intro
    all_goals exact StableHlo.devRef_ne_of_ne (by decide))))

/-- The second region ends with the first edge list as launched: no line before it and neither region writes it. -/
theorem W3_main_arg5 (c : Dev nD) : W3 m ρ c (Proc.devRef .tc main_arg5) = m ((c : Thread nD τ).loc main_arg5) :=
  calc W3 m ρ c (Proc.devRef .tc main_arg5)
    _ = W2 m ρ c (Proc.devRef .tc main_arg5) := W3_of_ne m ρ c main_arg5 (by decide)
    _ = W1 m ρ c (Proc.devRef .tc main_arg5) := W2_of_ne m ρ c main_arg5 (by decide)
    _ = W0 m ρ c (Proc.devRef .tc main_arg5) := by not_written
    _ = m ((c : Thread nD τ).loc main_arg5) := rfl

/-- The second region ends with the second edge list as launched. -/
theorem W3_main_arg6 (c : Dev nD) : W3 m ρ c (Proc.devRef .tc main_arg6) = m ((c : Thread nD τ).loc main_arg6) :=
  calc W3 m ρ c (Proc.devRef .tc main_arg6)
    _ = W2 m ρ c (Proc.devRef .tc main_arg6) := W3_of_ne m ρ c main_arg6 (by decide)
    _ = W1 m ρ c (Proc.devRef .tc main_arg6) := W2_of_ne m ρ c main_arg6 (by decide)
    _ = W0 m ρ c (Proc.devRef .tc main_arg6) := by not_written
    _ = m ((c : Thread nD τ).loc main_arg6) := rfl

/-- The first index row the last region reads is column 0 of the whole edge list. -/
theorem V8_v19 (c : Dev nD) :
    (V8 (F := Ideal) m ρ c main_v19 : S1x16384.Idx → BitVec 32)
      = fun i => Cert.Spec.edgeAt (m ((c : Thread nD τ).loc main_arg5)) (m ((c : Thread nD τ).loc main_arg6))
          (⟨(i 1).val, idx2_lt1 i⟩ : Fin 16384) 0 := by
  have e : (V8 (F := Ideal) m ρ c main_v19 : S1x16384.Idx → BitVec 32)
      = edgeRow 0 (W3 m ρ c (Proc.devRef .tc main_arg5)) (W3 m ρ c (Proc.devRef .tc main_arg6))
          concatenates_S8192x2_S8192x2_S16384x2_d0 slices_S16384x2_S16384x1_0_0 shapeCasts_S16384x1_S16384
          pads_S16384_S16384_000 h_S_ shapeCasts_S16384_S1x16384 := by
    dsimp only [V8, W8, W7, W6, W5, W4, hostOps2, hostOps2_1, hostOps2_2, hostOps2_3, hostOps2_4]; after_results; rfl
  rw [e, W3_main_arg5, W3_main_arg6]; funext i
  rw [eq_ix2 i]
  exact edgeRow_apply 0 _ _ _ _ _ _ _ _ 0 rfl (i 0) (i 1)

/-- The second index row the last region reads is column 1 of the whole edge list. -/
theorem V8_v23 (c : Dev nD) :
    (V8 (F := Ideal) m ρ c main_v23 : S1x16384.Idx → BitVec 32)
      = fun i => Cert.Spec.edgeAt (m ((c : Thread nD τ).loc main_arg5)) (m ((c : Thread nD τ).loc main_arg6))
          (⟨(i 1).val, idx2_lt1 i⟩ : Fin 16384) 1 := by
  have e : (V8 (F := Ideal) m ρ c main_v23 : S1x16384.Idx → BitVec 32)
      = edgeRow 1 (W3 m ρ c (Proc.devRef .tc main_arg5)) (W3 m ρ c (Proc.devRef .tc main_arg6))
          concatenates_S8192x2_S8192x2_S16384x2_d0 slices_S16384x2_S16384x1_0_1 shapeCasts_S16384x1_S16384
          pads_S16384_S16384_000 h_S_ shapeCasts_S16384_S1x16384 := by
    dsimp only [V8, W8, W7, W6, W5, W4, hostOps2, hostOps2_1, hostOps2_2, hostOps2_3, hostOps2_4]; after_results; rfl
  rw [e, W3_main_arg5, W3_main_arg6]; funext i
  rw [eq_ix2 i]
  exact edgeRow_apply 1 _ _ _ _ _ _ _ _ 1 rfl (i 0) (i 1)

/-- The first table the last region reads is what the second region left: the lines between write it not. -/
theorem V8_ti (c : Dev nD) : V8 (F := Ideal) m ρ c main_v14_0 = (dat1 (V2 m ρ) c).arrAt 5 cfg1.N :=
  calc W8 m ρ c (Proc.devRef .tc main_v14_0)
    _ = W7 m ρ c (Proc.devRef .tc main_v14_0) := by not_written
    _ = W6 m ρ c (Proc.devRef .tc main_v14_0) := by not_written
    _ = W5 m ρ c (Proc.devRef .tc main_v14_0) := by not_written
    _ = W4 m ρ c (Proc.devRef .tc main_v14_0) := by not_written
    _ = W3 m ρ c (Proc.devRef .tc main_v14_0) := by not_written
    _ = (dat1 (V2 m ρ) c).arrAt 5 cfg1.N := W3_arr m ρ c 5

/-- The second table the last region reads is what the second region left. -/
theorem V8_tj (c : Dev nD) : V8 (F := Ideal) m ρ c main_v14_1 = (dat1 (V2 m ρ) c).arrAt 6 cfg1.N :=
  calc W8 m ρ c (Proc.devRef .tc main_v14_1)
    _ = W7 m ρ c (Proc.devRef .tc main_v14_1) := by not_written
    _ = W6 m ρ c (Proc.devRef .tc main_v14_1) := by not_written
    _ = W5 m ρ c (Proc.devRef .tc main_v14_1) := by not_written
    _ = W4 m ρ c (Proc.devRef .tc main_v14_1) := by not_written
    _ = W3 m ρ c (Proc.devRef .tc main_v14_1) := by not_written
    _ = (dat1 (V2 m ρ) c).arrAt 6 cfg1.N := W3_arr m ρ c 6

end IdealRun

end Cert.ReferenceIdeal.RefRun

end
-- ==== Proof.KVal.lean ====
/- What the kernel program's buffers hold at its two inner boundaries, read off the run's boundary contents.
   After the one host line every argument array is as launched and the weight row [1,512] is the weight column [512,1]
   in row-major order, entry for entry. After the encoder region the two edge lists are still as launched, and the node
   table and the folded weight row are the region's two output arrays as its write-backs leave them. -/
import proofs.«164407_g2000604642866785_pallasbulk_226_8_alg».proof.Proof.Run
import Idealize.ShloMosaic.Lib.Pipeline.Value
import Idealize.ShloMosaic.Lib.ValueIdx

set_option maxRecDepth 16384

noncomputable section

namespace Cert.KernelIdeal.KVal

open Idealize.ShloMosaic Idealize.ShloMosaic.TcCoe Idealize.ShloMosaic.Tactic Idealize.ShloMosaic.ValueIdx
open Cert.KernelIdeal Cert.KernelIdeal.Gen Cert.KernelIdeal.Run

variable {F : FTy → Type} [FloatOps F]
variable (m : (ℓ : Loc nD τ sig) → Buf (Elt F) ℓ) (ρ : Dev nD → PrngReg)

/-! ## After the host line -/

/-- The host line writes only the weight row, so any other buffer of the core holds after it what was launched. -/
theorem W1_of_ne (c : Dev nD) (b : Ref sig .tc) (hb : b ≠ main_v0) :
    W1 m ρ c (Proc.devRef .tc b) = m ((c : Thread nD τ).loc b) :=
  (StableHlo.after_of_forall_not_mem (b := Proc.devRef .tc b) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne hb))).trans rfl

/-- The node features, the adjacency and the first two weight matrices reach the encoder region as launched. -/
theorem V1_main_arg0 (c : Dev nD) : V1 m ρ c main_arg0 = m ((c : Thread nD τ).loc main_arg0) := W1_of_ne m ρ c main_arg0 (by decide)
theorem V1_main_arg1 (c : Dev nD) : V1 m ρ c main_arg1 = m ((c : Thread nD τ).loc main_arg1) := W1_of_ne m ρ c main_arg1 (by decide)
theorem V1_main_arg2 (c : Dev nD) : V1 m ρ c main_arg2 = m ((c : Thread nD τ).loc main_arg2) := W1_of_ne m ρ c main_arg2 (by decide)
theorem V1_main_arg3 (c : Dev nD) : V1 m ρ c main_arg3 = m ((c : Thread nD τ).loc main_arg3) := W1_of_ne m ρ c main_arg3 (by decide)

/-- The weight row is the weight column in row-major order. -/
theorem V1_main_v0_cast (c : Dev nD) :
    (V1 m ρ c main_v0 : S1x512.Idx → Elt F .f32)
      = shapeCast S1x512 (m ((c : Thread nD τ).loc main_arg4) : S512x1.Idx → Elt F .f32) shapeCasts_S512x1_S1x512 := by
  dsimp only [Run.V1, Run.W1, Gen.hostOps0]; after_results; rfl

/-- Entry `k` of the weight row is entry `k` of the weight column. -/
theorem V1_main_v0_apply (c : Dev nD) (k : Fin 512) :
    (V1 m ρ c main_v0 : S1x512.Idx → Elt F .f32) (ix2 (0 : Fin 1) k)
      = (m ((c : Thread nD τ).loc main_arg4) : S512x1.Idx → Elt F .f32) (ix2 k (0 : Fin 1)) := by
  rw [V1_main_v0_cast]
  refine shapeCast_apply _ _ _ _ ?_
  show (S512x1.rowMajor (ix2 k (0 : Fin 1))).val = (S1x512.rowMajor (ix2 (0 : Fin 1) k)).val
  rw [Shape.rowMajor_val_two, Shape.rowMajor_val_two]
  show k.val * 1 + 0 = 0 * 512 + k.val
  omega

/-- The weight row as one function of its index, on the extended reals: the column at the index's second coordinate. -/
theorem V1_main_v0 (m : (ℓ : Loc nD τ sig) → Buf (Elt Ideal) ℓ) (ρ : Dev nD → PrngReg) (c : Dev nD) :
    (Run.V1 (F := Ideal) m ρ c main_v0 : S1x512.Idx → EReal)
      = fun i => (m ((c : Thread nD τ).loc main_arg4) : S512x1.Idx → EReal) (ix2 (⟨(i 1).val, idx2_lt1 i⟩ : Fin 512) (0 : Fin 1)) := by
  funext i
  obtain ⟨p, q, rfl⟩ : ∃ (p : Fin 1) (q : Fin 512), i = ix2 p q := ⟨i 0, i 1, eq_ix2 i⟩
  obtain rfl : p = 0 := Subsingleton.elim _ _
  exact V1_main_v0_apply (F := Ideal) m ρ c q

/-! ## After the encoder region -/

/-- The two edge lists are no array of the encoder region and are not written by the host line: the decoder region finds
    them as launched. -/
theorem V2_main_arg5 (c : Dev nD) : V2 m ρ c main_arg5 = m ((c : Thread nD τ).loc main_arg5) :=
  (W2_of_ne m ρ c main_arg5 (by decide)).trans (W1_of_ne m ρ c main_arg5 (by decide))
theorem V2_main_arg6 (c : Dev nD) : V2 m ρ c main_arg6 = m ((c : Thread nD τ).loc main_arg6) :=
  (W2_of_ne m ρ c main_arg6 (by decide)).trans (W1_of_ne m ρ c main_arg6 (by decide))

/-- The node table and the folded weight row are the encoder region's two output arrays as its write-backs leave them. -/
theorem V2_main_v1_0 (c : Dev nD) : V2 m ρ c main_v1_0 = (Enc.dat0 (V1 m ρ) c).arrAt 5 cfg0.N := W2_arr m ρ c 5
theorem V2_main_v1_1 (c : Dev nD) : V2 m ρ c main_v1_1 = (Enc.dat0 (V1 m ρ) c).arrAt 6 cfg0.N := W2_arr m ρ c 6

end Cert.KernelIdeal.KVal

end
-- ==== Proof.SpecEnc.lean ====
/-
  The first region's results as functions of the argument arrays: the feature matrix times the first weight matrix,
  the adjacency matrix times that product, and the folded weight row — the first half of the last weight row
  contracted against the rows of the second weight matrix, followed by the row's second half.
-/
import Idealize.ShloMosaic.PureOps.Ideal
import Idealize.ShloMosaic.Lib.ValueIdx
import proofs.«164407_g2000604642866785_pallasbulk_226_8_alg».proof.Proof.SpecBase

noncomputable section

open scoped BigOperators

namespace Cert.Spec

open Idealize.ShloMosaic Idealize.ShloMosaic.ValueIdx

/-- The product of the 4096×256 feature matrix by the 256×256 first weight matrix: entry (n, h) is the sum over d of
    x (n, d) * w1 (d, h). -/
def encXw (x : M 4096 256) (w1 : M 256 256) : M 4096 256 := fun i =>
  ∑ d : Fin 256, x (ix2 (⟨(i 0).val, idx2_lt0 i⟩ : Fin 4096) d) * w1 (ix2 d (⟨(i 1).val, idx2_lt1 i⟩ : Fin 256))

/-- The adjacency matrix times the product above: entry (n, h) is the sum over m of adj (n, m) * (x w1) (m, h). -/
def encZ (adj : M 4096 4096) (x : M 4096 256) (w1 : M 256 256) : M 4096 256 := fun i =>
  ∑ m : Fin 4096, adj (ix2 (⟨(i 0).val, idx2_lt0 i⟩ : Fin 4096) m) * encXw x w1 (ix2 m (⟨(i 1).val, idx2_lt1 i⟩ : Fin 256))

/-- The folded weight row of 768 entries: entry j below 512 is the sum over k of w3r (0, k) * w2 (j, k) (the first 256
    entries of the last weight row against row j of the second weight matrix); entry j from 512 on is w3r (0, j - 256)
    (the last weight row's second half). -/
def encFold (w2 : M 512 256) (w3r : M 1 512) : M 1 768 := fun i =>
  if h : (i 1).val < 512 then
    ∑ k : Fin 256, w3r (ix2 (0 : Fin 1) (⟨k.val, by have := k.isLt; omega⟩ : Fin 512)) * w2 (ix2 (⟨(i 1).val, h⟩ : Fin 512) k)
  else
    w3r (ix2 (0 : Fin 1) (⟨(i 1).val - 256, by have := idx2_lt1 i; omega⟩ : Fin 512))

end Cert.Spec

end
-- ==== Proof.LibTileOps.lean ====
/-
  Two-dimensional tiles read at an index, at the ideal values.

  A product of an m×k tile by a k×n tile accumulated into the zero tile is, entry by entry, the sum over the contracted
  coordinate of the products of the entries; a 1×n row stretched to m×n reads, at (a, b), the row's entry b. Each
  statement is for the dimension numbers as a record over any extents; a program's own record is one of these at its
  literal extents.
-/
import Idealize.ShloMosaic.PureOps.Ideal.Laws
import Idealize.ShloMosaic.Lib.ValueIdx
import Idealize.ShloMosaic.Lib.Pipeline.Value

noncomputable section

open scoped BigOperators

namespace Idealize.ShloMosaic.TileOps

open Idealize.ShloMosaic.ValueIdx

/-- The product of an m×k tile by a k×n tile (the left operand contracted on its columns, the right on its rows, no batch
    axes) into the zero tile, read at (a, b): the sum over the contracted coordinate of the products of the entries. -/
theorem matmul_zero_apply {m k n : Nat} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    FloatOps.matmul (⟨[1], [0], [0], [1], [], [], w⟩ : DotDims ⟨2, ![m, k]⟩ ⟨2, ![k, n]⟩ ⟨2, ![m, n]⟩) prec A B
        (constant ⟨2, ![m, n]⟩ .f32 0x00000000#32) (ix2 a b)
      = ∑ c : Fin k, A (ix2 a c) * B (ix2 c b) := by
  rw [Ideal.matmul_constant_zero_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- A 1×n row stretched to m×n reads, at (a, b), the row's entry b. -/
theorem broadcastRow_apply {α : Type} {m n : Nat} (x : (⟨2, ![1, n]⟩ : Shape).Idx → α)
    (h : (⟨2, ![1, n]⟩ : Shape).Broadcasts ⟨2, ![m, n]⟩) (a : Fin m) (b : Fin n) :
    broadcastTo ⟨2, ![m, n]⟩ x h (ix2 a b) = x (ix2 (0 : Fin 1) b) := by
  refine broadcastTo_apply x h (ix2 a b) (ix2 (0 : Fin 1) b) fun ax => ?_
  match ax with
  | ⟨0, _⟩ => rfl
  | ⟨1, _⟩ =>
    show b.val = if n = 1 then 0 else b.val
    by_cases hn : n = 1
    · rw [if_pos hn]; have := b.isLt; omega
    · rw [if_neg hn]

end Idealize.ShloMosaic.TileOps

end
-- ==== Proof.LibTileNT.lean ====
/-
  A two-dimensional tile times the transpose of another, read at an index, at the ideal values.

  The product of an m×k tile by the transpose of an n×k tile — both operands contracted along their columns, no batch
  axes — accumulated into the zero tile is, entry by entry, the sum over the contracted coordinate of the products of
  the entries: the entry (a, b) is the sum over c of A (a, c) * B (b, c). The statement is for the dimension numbers as a
  record over any extents; a program's own record is one of these at its literal extents.
-/
import Idealize.ShloMosaic.PureOps.Ideal.Laws
import Idealize.ShloMosaic.Lib.ValueIdx
import Idealize.ShloMosaic.Lib.Pipeline.Value

noncomputable section

open scoped BigOperators

namespace Idealize.ShloMosaic.TileOps

open Idealize.ShloMosaic.ValueIdx

/-- The product of an m×k tile by the transpose of an n×k tile (both operands contracted on their columns, no batch
    axes) into the zero tile, read at (a, b): the sum over the contracted coordinate c of A (a, c) * B (b, c). -/
theorem matmul_nt_zero_apply {m k n : Nat} {φ₁ φ₂ : FTy}
    (w : DotDims.WF ⟨2, ![m, k]⟩ ⟨2, ![n, k]⟩ ⟨2, ![m, n]⟩ [1] [1] [0] [0] [] [])
    (prec : Option ContractPrecision) (A : FVec Ideal ⟨2, ![m, k]⟩ φ₁) (B : FVec Ideal ⟨2, ![n, k]⟩ φ₂)
    (a : Fin m) (b : Fin n) :
    FloatOps.matmul (⟨[1], [1], [0], [0], [], [], w⟩ : DotDims ⟨2, ![m, k]⟩ ⟨2, ![n, k]⟩ ⟨2, ![m, n]⟩) prec A B
        (constant ⟨2, ![m, n]⟩ .f32 0x00000000#32) (ix2 a b)
      = ∑ c : Fin k, A (ix2 a c) * B (ix2 b c) := by
  rw [Ideal.matmul_constant_zero_apply,
    ← Equiv.sum_comp (contrEquiv1 (⟨[1], [1], [0], [0], [], [], w⟩ : DotDims ⟨2, ![m, k]⟩ ⟨2, ![n, k]⟩ ⟨2, ![m, n]⟩) k rfl rfl).symm]
  refine Finset.sum_congr rfl fun c _ => ?_
  have c2 := contrEquiv1_symm_val
    (⟨[1], [1], [0], [0], [], [], w⟩ : DotDims ⟨2, ![m, k]⟩ ⟨2, ![n, k]⟩ ⟨2, ![m, n]⟩) k rfl rfl c
  have l2 : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

end Idealize.ShloMosaic.TileOps

end
-- ==== Proof.EncValue.lean ====
/-
  The values the first region leaves, at the ideal values: the embedding's array ends holding the adjacency matrix
  times the features times the first weight matrix, and the folded row's array the first half of the last weight row
  contracted against the rows of the second weight matrix followed by the row's second half.

  Each of the body's three stored tiles is read at an index (a product of tiles into the zero tile is the sum over the
  contracted coordinate of the products of the entries; a concatenation is its left or right piece according to the
  column); each input window's block is the array's entries at the block's row and column offsets; every point writes
  back its block of one function of the whole arrays, and the written blocks cover the array.
-/
import proofs.«164407_g2000604642866785_pallasbulk_226_8_alg».proof.Proof.Enc
import proofs.«164407_g2000604642866785_pallasbulk_226_8_alg».proof.Proof.SpecEnc
import proofs.«164407_g2000604642866785_pallasbulk_226_8_alg».proof.Proof.LibTileOps
import proofs.«164407_g2000604642866785_pallasbulk_226_8_alg».proof.Proof.LibTileNT
import Idealize.ShloMosaic.Lib.Pipeline.Value

set_option maxRecDepth 16384

noncomputable section

namespace Cert.KernelIdeal.EncValue

open Cert.KernelIdeal Cert.KernelIdeal.Gen
open Idealize.ShloMosaic Idealize.SL.Sem Idealize.ShloMosaic.ValueIdx Idealize.ShloMosaic.TcCoe
open Idealize.ShloMosaic.Pipeline (Dat Cfg Window)
open scoped BigOperators

/-! ## The three payloads read at an index -/

/-- The scratch payload: entry (n, h) is the sum over d of the first operand's (n, d) times the second's (d, h). -/
theorem pay1_apply (v9 : Vec Ideal S4096x256 .f32) (v11 : Vec Ideal S256x256 .f32) (n : Fin 4096) (h : Fin 256) :
    Gen.k0_pay1 (F := Ideal) v9 v11 (ix2 n h) = ∑ d : Fin 256, v9 (ix2 n d) * v11 (ix2 d h) := by
  unfold Gen.k0_pay1
  rw [shapeCast_self]
  exact TileOps.matmul_zero_apply _ none _ _ n h

/-- The embedding block's payload: entry (r, h) is the sum over m of the adjacency block's (r, m) times the scratch's (m, h). -/
theorem pay3_apply (v3 : Vec Ideal S256x4096 .f32) (v5 : Vec Ideal S4096x256 .bf16) (r : Fin 256) (h : Fin 256) :
    Gen.k0_pay3 (F := Ideal) v3 v5 (ix2 r h) = ∑ m : Fin 4096, v3 (ix2 r m) * v5 (ix2 m h) := by
  unfold Gen.k0_pay3
  exact TileOps.matmul_zero_apply (φ₁ := .bf16) (φ₂ := .bf16) _ none _ v5 r h

/-- The folded row's payload below column 512: the first 256 entries of the row against row j of the matrix. -/
theorem pay2_apply_lo (v18 : Vec Ideal S1x512 .f32) (v21 : Vec Ideal S512x256 .f32) (j : Fin 768) (hj : j.val < 512) :
    Gen.k0_pay2 (F := Ideal) v18 v21 (ix2 (0 : Fin 1) j)
      = ∑ k : Fin 256, v18 (ix2 (0 : Fin 1) (⟨k.val, by have := k.isLt; omega⟩ : Fin 512)) * v21 (ix2 (⟨j.val, hj⟩ : Fin 512) k) := by
  unfold Gen.k0_pay2
  rw [shapeCast_self]
  refine (concatenate_pair_apply_left (t := S1x768) (s₁ := S1x512) (s₂ := S1x256) (1 : Fin 2) _ _ _ (ix2 (0 : Fin 1) j) rfl (ix2 (0 : Fin 1) (⟨j.val, hj⟩ : Fin 512)) ?_).trans ?_
  · intro b
    match b with
    | ⟨0, _⟩ => rfl
    | ⟨1, _⟩ => rfl
  · refine (TileOps.matmul_nt_zero_apply (φ₁ := .f32) (φ₂ := .f32) _ none _ v21 (0 : Fin 1) (⟨j.val, hj⟩ : Fin 512)).trans ?_
    refine Finset.sum_congr rfl fun k _ => ?_
    congr 1
    refine extractStridedSlice_apply _ v18 _ _ _ fun a => ?_
    match a with
    | ⟨0, _⟩ => rfl
    | ⟨1, _⟩ => simp

/-- The folded row's payload from column 512 on: the row's entry 256 columns back. -/
theorem pay2_apply_hi (v18 : Vec Ideal S1x512 .f32) (v21 : Vec Ideal S512x256 .f32) (j : Fin 768) (hj : ¬ j.val < 512) :
    Gen.k0_pay2 (F := Ideal) v18 v21 (ix2 (0 : Fin 1) j)
      = v18 (ix2 (0 : Fin 1) (⟨j.val - 256, by have := j.isLt; omega⟩ : Fin 512)) := by
  unfold Gen.k0_pay2
  rw [shapeCast_self]
  refine (concatenate_pair_apply_right (t := S1x768) (s₁ := S1x512) (s₂ := S1x256) (1 : Fin 2) _ _ _ (ix2 (0 : Fin 1) j) rfl rfl
    (ix2 (0 : Fin 1) (⟨j.val - 512, by have := j.isLt; omega⟩ : Fin 256)) ?_ ?_).trans ?_
  · intro b hb
    match b with
    | ⟨0, _⟩ => rfl
    | ⟨1, _⟩ => exact absurd rfl hb
  · show (j.val - 512) + 512 = j.val
    omega
  · refine extractStridedSlice_apply _ v18 _ _ _ fun a => ?_
    match a with
    | ⟨0, _⟩ => rfl
    | ⟨1, _⟩ =>
      show j.val - 256 = 256 + (j.val - 512)
      omega

/-! ## What the body leaves, read at an index -/

theorem hz : (![0, 0] : Fin 2 → Nat) = fun _ => 0 := funext fun a => by fin_cases a <;> rfl

/-- A two-dimensional index is the pair of its coordinates. -/
theorem exists_ix2 {n0 n1 : Nat} (j : (⟨2, ![n0, n1]⟩ : Shape).Idx) : ∃ (a : Fin n0) (b : Fin n1), j = ix2 a b :=
  ⟨j 0, j 1, eq_ix2 j⟩

theorem xwVal_apply (x1 : Vec Ideal S4096x256 .f32) (x2 : Vec Ideal S256x256 .f32) (n : Fin 4096) (h : Fin 256) :
    Enc.xwVal (F := Ideal) x1 x2 (ix2 n h) = ∑ d : Fin 256, x1 (ix2 n d) * x2 (ix2 d h) := by
  unfold Enc.xwVal
  rw [View.canon_unit_zero hz]
  simp only [View.ld_unit_zero (S := S4096x256) hz, View.ld_unit_zero (S := S256x256) hz]
  exact pay1_apply _ _ n h

theorem zOut_apply (x0 : Vec Ideal S256x4096 .f32) (xs : Vec Ideal S4096x256 .bf16) (r h : Fin 256) :
    Enc.zOut (F := Ideal) x0 xs (ix2 r h) = ∑ m : Fin 4096, x0 (ix2 r m) * xs (ix2 m h) := by
  unfold Enc.zOut
  rw [View.canon_unit_zero hz]
  simp only [View.ld_unit_zero (S := S256x4096) hz, View.ld_unit_zero (S := S4096x256) hz]
  exact pay3_apply _ _ r h

theorem foldVal_eq (x3 : Vec Ideal S512x256 .f32) (x4 : Vec Ideal S1x512 .f32) :
    Enc.foldVal (F := Ideal) x3 x4 = Gen.k0_pay2 x4 x3 := by
  unfold Enc.foldVal
  rw [View.canon_unit_zero hz]
  simp only [View.ld_unit_zero (S := S1x512) hz, View.ld_unit_zero (S := S512x256) hz]

variable (V : (c : Dev nD) → (b : Ref sig .tc) → Buf (Elt Ideal) ((c : Thread nD τ).loc b))

/-! ## The windows' index maps, decided over the grid -/

/-- The adjacency window moves with the embedding window along the rows and both sit at column block zero; the
    four whole windows and the folded row's window sit at block zero; the row block stays below sixteen. -/
theorem idx_facts : ∀ t : Fin cfg0.N,
    win0_0.index t (0 : Fin 2) = win0_5.index t (0 : Fin 2) ∧ win0_0.index t (1 : Fin 2) = 0
    ∧ win0_5.index t (1 : Fin 2) = 0 ∧ win0_5.index t (0 : Fin 2) ≤ 15
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_6.index t (0 : Fin 2) = 0 ∧ win0_6.index t (1 : Fin 2) = 0 :=
  (by decide +kernel : ∀ t : Fin grid0.N, _)

/-- Every row block of the embedding is some point's. -/
theorem idx_onto5 : ∀ q0 : Fin 16, ∃ t : Fin cfg0.N, win0_5.index t = ![q0.val, 0] :=
  (by decide +kernel : ∀ q0 : Fin 16, ∃ t : Fin grid0.N, win0_5.index t = ![q0.val, 0])

/-- Some point writes the folded row back. -/
theorem flush6_ex : ∃ t : Fin cfg0.N, (cfg0.win 6).flush t = true :=
  (by decide +kernel : ∃ t : Fin grid0.N, (cfg0.win 6).flush t = true)

/-! ## The input windows' blocks as entries of the arrays -/

theorem iblk_adj (c : Dev nD) (t : Fin cfg0.N) (r : Fin 256) (m : Fin 4096) :
    Enc.iblk0 V c 0 t (ix2 r m)
      = V c main_arg1 (ix2 (⟨win0_5.index t (0 : Fin 2) * 256 + r.val, by
          have := (idx_facts t).2.2.2.1; have := r.isLt; omega⟩ : Fin 4096) m) := by
  unfold Enc.iblk0
  rw [View.read_apply]
  show V c main_arg1 (((cfg0.win 0).blk t).view.emb (ix2 r m)) = _
  congr 1
  obtain ⟨e0, e1, -⟩ := idx_facts t
  funext a; apply Fin.ext
  match a with
  | ⟨0, _⟩ => show win0_0.index t (0 : Fin 2) * 256 + 1 * r.val = win0_5.index t (0 : Fin 2) * 256 + r.val; omega
  | ⟨1, _⟩ => show win0_0.index t (1 : Fin 2) * 4096 + 1 * m.val = m.val; omega

theorem iblk_x (c : Dev nD) (t : Fin cfg0.N) (n : Fin 4096) (d : Fin 256) :
    Enc.iblk0 V c 1 t (ix2 n d) = V c main_arg0 (ix2 n d) := by
  unfold Enc.iblk0
  rw [View.read_apply]
  show V c main_arg0 (((cfg0.win 1).blk t).view.emb (ix2 n d)) = _
  congr 1
  obtain ⟨-, -, -, -, e0, e1, -⟩ := idx_facts t
  funext a; apply Fin.ext
  match a with
  | ⟨0, _⟩ => show win0_1.index t (0 : Fin 2) * 4096 + 1 * n.val = n.val; omega
  | ⟨1, _⟩ => show win0_1.index t (1 : Fin 2) * 256 + 1 * d.val = d.val; omega

theorem iblk_w1 (c : Dev nD) (t : Fin cfg0.N) (d : Fin 256) (h : Fin 256) :
    Enc.iblk0 V c 2 t (ix2 d h) = V c main_arg2 (ix2 d h) := by
  unfold Enc.iblk0
  rw [View.read_apply]
  show V c main_arg2 (((cfg0.win 2).blk t).view.emb (ix2 d h)) = _
  congr 1
  obtain ⟨-, -, -, -, -, -, e0, e1, -⟩ := idx_facts t
  funext a; apply Fin.ext
  match a with
  | ⟨0, _⟩ => show win0_2.index t (0 : Fin 2) * 256 + 1 * d.val = d.val; omega
  | ⟨1, _⟩ => show win0_2.index t (1 : Fin 2) * 256 + 1 * h.val = h.val; omega

theorem iblk_w2 (c : Dev nD) (t : Fin cfg0.N) (j : Fin 512) (k : Fin 256) :
    Enc.iblk0 V c 3 t (ix2 j k) = V c main_arg3 (ix2 j k) := by
  unfold Enc.iblk0
  rw [View.read_apply]
  show V c main_arg3 (((cfg0.win 3).blk t).view.emb (ix2 j k)) = _
  congr 1
  obtain ⟨-, -, -, -, -, -, -, -, e0, e1, -⟩ := idx_facts t
  funext a; apply Fin.ext
  match a with
  | ⟨0, _⟩ => show win0_3.index t (0 : Fin 2) * 512 + 1 * j.val = j.val; omega
  | ⟨1, _⟩ => show win0_3.index t (1 : Fin 2) * 256 + 1 * k.val = k.val; omega

theorem iblk_w3 (c : Dev nD) (t : Fin cfg0.N) (z : Fin 1) (k : Fin 512) :
    Enc.iblk0 V c 4 t (ix2 z k) = V c main_v0 (ix2 z k) := by
  unfold Enc.iblk0
  rw [View.read_apply]
  show V c main_v0 (((cfg0.win 4).blk t).view.emb (ix2 z k)) = _
  congr 1
  obtain ⟨-, -, -, -, -, -, -, -, -, -, e0, e1, -⟩ := idx_facts t
  funext a; apply Fin.ext
  match a with
  | ⟨0, _⟩ => show win0_4.index t (0 : Fin 2) * 1 + 1 * z.val = z.val; omega
  | ⟨1, _⟩ => show win0_4.index t (1 : Fin 2) * 512 + 1 * k.val = k.val; omega

/-! ## The scratch: the features times the first weight matrix -/

theorem xw0_eq (c : Dev nD) : Enc.xw0 V c = Cert.Spec.encXw (V c main_arg0) (V c main_arg2) := by
  funext i
  obtain ⟨n, h, rfl⟩ := exists_ix2 i
  unfold Enc.xw0
  rw [xwVal_apply]
  unfold Cert.Spec.encXw
  refine Finset.sum_congr rfl fun d _ => ?_
  rw [iblk_x, iblk_w1]

/-! ## The embedding: window 5 -/

theorem flushed5_eq (c : Dev nD) (t : Fin cfg0.N) :
    (Enc.dat0 V c).flushed 5 t
      = ((cfg0.win 5).blk t).view.read (Elt Ideal) (Cert.Spec.encZ (V c main_arg1) (V c main_arg0) (V c main_arg2)) := by
  show (cfg0.win 5).cut (grid0.coords t) ((Enc.dat0 V c).after 5 t) = _
  rw [Enc.after0_5]
  refine funext fun (j : S256x256.Idx) => ?_
  obtain ⟨r, h, rfl⟩ := exists_ix2 j
  show Enc.zOut (Enc.iblk0 V c 0 t) (Enc.xw0 V c) (ix2 r h)
    = Cert.Spec.encZ (V c main_arg1) (V c main_arg0) (V c main_arg2) (((cfg0.win 5).blk t).view.emb (ix2 r h))
  rw [zOut_apply, xw0_eq]
  unfold Cert.Spec.encZ
  obtain ⟨-, -, e5, -⟩ := idx_facts t
  refine Finset.sum_congr rfl fun m _ => ?_
  rw [iblk_adj]
  congr 1
  · congr 1
    funext a; apply Fin.ext
    match a with
    | ⟨0, _⟩ => show win0_5.index t (0 : Fin 2) * 256 + r.val = win0_5.index t (0 : Fin 2) * 256 + 1 * r.val; omega
    | ⟨1, _⟩ => rfl
  · congr 1
    funext a; apply Fin.ext
    match a with
    | ⟨0, _⟩ => rfl
    | ⟨1, _⟩ => show h.val = win0_5.index t (1 : Fin 2) * 256 + 1 * h.val; omega

theorem mem_blk5 (t : Fin cfg0.N) (i : S4096x256.Idx) :
    i ∈ ((cfg0.win 5).blk t).view.set ↔ ∀ a : Fin 2, win0_5.index t a * S256x256.size a ≤ (i a).val ∧ (i a).val < win0_5.index t a * S256x256.size a + S256x256.size a := by
  show i ∈ ((View.whole main_v1_0).slice (win0_5.rect t)).set ↔ _
  rw [View.set_slice_whole, Rect.mem_set_unit]
  exact Iff.rfl

theorem cover5 (i : S4096x256.Idx) : ∃ t : Fin cfg0.N, (cfg0.win 5).flush t = true ∧ i ∈ ((cfg0.win 5).blk t).view.set := by
  have hi0 : (i 0).val < 4096 := (i 0).isLt
  have hi1 : (i 1).val < 256 := (i 1).isLt
  obtain ⟨t, ht⟩ := idx_onto5 ⟨(i 0).val / 256, by omega⟩
  have q0 : win0_5.index t (0 : Fin 2) = (i 0).val / 256 := congrFun ht 0
  have q1 : win0_5.index t (1 : Fin 2) = 0 := congrFun ht 1
  refine ⟨t, flush0_5 t, ?_⟩
  rw [mem_blk5]
  intro a
  match a with
  | ⟨0, _⟩ => show win0_5.index t (0 : Fin 2) * 256 ≤ (i 0).val ∧ (i 0).val < win0_5.index t (0 : Fin 2) * 256 + 256; omega
  | ⟨1, _⟩ => show win0_5.index t (1 : Fin 2) * 256 ≤ (i 1).val ∧ (i 1).val < win0_5.index t (1 : Fin 2) * 256 + 256; omega

/-- The embedding after the region: the adjacency matrix times the features times the first weight matrix. -/
theorem enc_z (c : Dev nD) :
    (Enc.dat0 (F := Ideal) V c).arrAt 5 cfg0.N = Cert.Spec.encZ (V c main_arg1) (V c main_arg0) (V c main_arg2) :=
  (Enc.dat0 V c).arrAt_eq_of_cover 5 _ (fun t _ => flushed5_eq V c t) (cover5)

/-! ## The folded row: window 6 -/

theorem fold0_eq (c : Dev nD) : Enc.fold0 V c = Cert.Spec.encFold (V c main_arg3) (V c main_v0) := by
  funext i
  obtain ⟨z, j, rfl⟩ := exists_ix2 i
  obtain rfl : z = 0 := Subsingleton.elim _ _
  unfold Enc.fold0
  rw [foldVal_eq]
  unfold Cert.Spec.encFold
  by_cases hj : j.val < 512
  · rw [pay2_apply_lo _ _ j hj, dif_pos (show ((ix2 (0 : Fin 1) j : (⟨2, ![1, 768]⟩ : Shape).Idx) 1).val < 512 from hj)]
    refine Finset.sum_congr rfl fun k _ => ?_
    rw [iblk_w3, iblk_w2]
  · rw [pay2_apply_hi _ _ j hj, dif_neg (show ¬ ((ix2 (0 : Fin 1) j : (⟨2, ![1, 768]⟩ : Shape).Idx) 1).val < 512 from hj)]
    rw [iblk_w3]

theorem flushed6_eq (c : Dev nD) (t : Fin cfg0.N) :
    (Enc.dat0 V c).flushed 6 t
      = ((cfg0.win 6).blk t).view.read (Elt Ideal) (Cert.Spec.encFold (V c main_arg3) (V c main_v0)) := by
  show (cfg0.win 6).cut (grid0.coords t) ((Enc.dat0 V c).after 6 t) = _
  rw [Enc.after0_6, fold0_eq]
  refine funext fun (j : S1x768.Idx) => ?_
  show Cert.Spec.encFold (V c main_arg3) (V c main_v0) j
    = Cert.Spec.encFold (V c main_arg3) (V c main_v0) (((cfg0.win 6).blk t).view.emb j)
  congr 1
  obtain ⟨-, -, -, -, -, -, -, -, -, -, -, -, e0, e1⟩ := idx_facts t
  funext a; apply Fin.ext
  match a with
  | ⟨0, _⟩ => show (j 0).val = win0_6.index t (0 : Fin 2) * 1 + 1 * (j 0).val; omega
  | ⟨1, _⟩ => show (j 1).val = win0_6.index t (1 : Fin 2) * 768 + 1 * (j 1).val; omega

theorem mem_blk6 (t : Fin cfg0.N) (i : S1x768.Idx) :
    i ∈ ((cfg0.win 6).blk t).view.set ↔ ∀ a : Fin 2, win0_6.index t a * S1x768.size a ≤ (i a).val ∧ (i a).val < win0_6.index t a * S1x768.size a + S1x768.size a := by
  show i ∈ ((View.whole main_v1_1).slice (win0_6.rect t)).set ↔ _
  rw [View.set_slice_whole, Rect.mem_set_unit]
  exact Iff.rfl

theorem cover6 (i : S1x768.Idx) : ∃ t : Fin cfg0.N, (cfg0.win 6).flush t = true ∧ i ∈ ((cfg0.win 6).blk t).view.set := by
  have hi0 : (i 0).val < 1 := (i 0).isLt
  have hi1 : (i 1).val < 768 := (i 1).isLt
  obtain ⟨t, hf⟩ := flush6_ex
  obtain ⟨-, -, -, -, -, -, -, -, -, -, -, -, e0, e1⟩ := idx_facts t
  refine ⟨t, hf, ?_⟩
  rw [mem_blk6]
  intro a
  match a with
  | ⟨0, _⟩ => show win0_6.index t (0 : Fin 2) * 1 ≤ (i 0).val ∧ (i 0).val < win0_6.index t (0 : Fin 2) * 1 + 1; omega
  | ⟨1, _⟩ => show win0_6.index t (1 : Fin 2) * 768 ≤ (i 1).val ∧ (i 1).val < win0_6.index t (1 : Fin 2) * 768 + 768; omega

/-- The folded row after the region: the first half of the last weight row against the rows of the second weight
    matrix, then the row's second half. -/
theorem enc_fold (c : Dev nD) :
    (Enc.dat0 (F := Ideal) V c).arrAt 6 cfg0.N = Cert.Spec.encFold (V c main_arg3) (V c main_v0) :=
  (Enc.dat0 V c).arrAt_eq_of_cover 6 _ (fun t _ => flushed6_eq V c t) (cover6)

end Cert.KernelIdeal.EncValue

end
-- ==== Proof.SpecDec.lean ====
/-
  The edge decoder's result as a function of the two edge lists, the node-embedding table and the folded weight row.

  For an index word `v` the decoder gathers row `v` of the table by multiplying the one-hot row of `v` into the table;
  the logit of an edge is the sum over the 256 features of the product of the two gathered rows weighted by the last
  third of the folded row, plus the positive parts of the two gathered rows weighted by the first and the second third;
  the result is the logistic of the logit, spelt as the program computes it: one over one plus the exponential of zero
  minus the logit.
-/
import Idealize.ShloMosaic.PureOps.Ideal
import Idealize.ShloMosaic.Lib.ValueIdx
import proofs.«164407_g2000604642866785_pallasbulk_226_8_alg».proof.Proof.SpecBase

noncomputable section

open scoped BigOperators

namespace Cert.Spec

open Idealize.ShloMosaic Idealize.ShloMosaic.ValueIdx

/-- Feature `h` of the table row the index word `v` selects: the one-hot row of `v` times column `h` of the table. -/
def gatherRow (z : M 4096 256) (v : BitVec 32) (h : Fin 256) : EReal :=
  ∑ n : Fin 4096, hot v n * z (ix2 n h)

/-- The logit of an edge with endpoint words `vi`, `vj`: over the features, the product of the two gathered rows
    weighted by the folded row's last third, plus the positive part of the first gathered row weighted by its first
    third, plus the positive part of the second gathered row weighted by its second third. -/
def decLogit (z : M 4096 256) (fold : M 1 768) (vi vj : BitVec 32) : EReal :=
  ∑ h : Fin 256,
    (gatherRow z vi h * gatherRow z vj h * fold (ix2 (0 : Fin 1) (⟨512 + h.val, by have := h.isLt; omega⟩ : Fin 768))
      + max (gatherRow z vi h) 0 * fold (ix2 (0 : Fin 1) (⟨h.val, by have := h.isLt; omega⟩ : Fin 768))
      + max (gatherRow z vj h) 0 * fold (ix2 (0 : Fin 1) (⟨256 + h.val, by have := h.isLt; omega⟩ : Fin 768)))

/-- The decoder's output column: at edge `e` of the whole edge list, one over one plus the exponential of zero minus
    the edge's logit. -/
def decOut (te fe : IM 8192 2) (z : M 4096 256) (fold : M 1 768) : M 16384 1 := fun i =>
  Ideal.div 1 (1 + Ideal.exp (0 - decLogit z fold
    (edgeAt te fe (⟨(i 0).val, idx2_lt0 i⟩ : Fin 16384) (0 : Fin 2))
    (edgeAt te fe (⟨(i 0).val, idx2_lt0 i⟩ : Fin 16384) (1 : Fin 2))))

end Cert.Spec

end
-- ==== Proof.LibLaneSum.lean ====
/-
  A sum along the second axis of a two-dimensional tile, read at a row.

  The float add-reduction of an m×n tile over its second axis, at the ideal values, holds at row p the finite sum of
  the row's n entries; the accumulator word is the zero word, the sum's neutral element, and does not appear.
-/
import Idealize.ShloMosaic.PureOps.Ideal.Laws
import Idealize.ShloMosaic.Lib.ValueIdx

noncomputable section

open scoped BigOperators

namespace Idealize.ShloMosaic.LaneSum

open Idealize.ShloMosaic.ValueIdx

/-- The add-reduction over axis 1 of an m×n tile, read at row p: the sum over j of the entries (p, j). -/
theorem laneSum_apply {m n : Nat} (src : FVec Ideal ⟨2, ![m, n]⟩ .f32)
    (h : (⟨2, ![m, n]⟩ : Shape).Reduces [(1 : Fin 2)] ⟨1, ![m]⟩) (hφ : FKind.Formats FTy.f32)
    (hacc : (0x00000000#32 : BitVec FTy.f32.bits) = FKind.add.neutral FTy.f32 hφ) (p : Fin m) :
    multiReduction .add [(1 : Fin 2)] ⟨1, ![m]⟩ src 0x00000000#32 h hφ hacc (ix1 p) = ∑ j : Fin n, src (ix2 p j) := by
  refine (Ideal.multiReduction_add_single src 0x00000000#32 h hφ hacc (ix1 p)).trans ?_
  refine Finset.sum_congr rfl fun k _ => congrArg src (funext fun c => Fin.ext ?_)
  rw [h.lift_val]
  match c with
  | ⟨0, _⟩ => simp [Shape.Reduces.liftVal]
  | ⟨1, _⟩ => simp [Shape.Reduces.liftVal]

end Idealize.ShloMosaic.LaneSum

end
-- ==== Proof.LibColForm.lean ====
/-
  A column read at an index: a vector recast as a one-column matrix, and a one-column matrix stretched along its rows.
-/
import Idealize.ShloMosaic.Lib.ValueIdx
import Idealize.ShloMosaic.Lib.Pipeline.Value

namespace Cert.ColForm

open Idealize.ShloMosaic Idealize.ShloMosaic.ValueIdx

/-- A vector of length `n` recast as an `n × 1` matrix, read at row `j` and column `0`, is the vector at `j`: both
    positions are the `j`-th in row-major order. -/
theorem col_of_reshape {α : Type} {n : Nat} (v : (⟨1, ![n]⟩ : Shape).Idx → α)
    (h : (⟨1, ![n]⟩ : Shape).ShapeCasts ⟨2, ![n, 1]⟩) (j : Fin n) :
    shapeCast (⟨2, ![n, 1]⟩ : Shape) v h (ix2 j (0 : Fin 1)) = v (ix1 j) := by
  refine shapeCast_apply v h (ix2 j (0 : Fin 1)) (ix1 j) ?_
  rw [Shape.rowMajor_val_one, Shape.rowMajor_val_two]
  show j.val = j.val * 1 + 0
  omega

/-- An `m × 1` column stretched to `m × n` reads, at `(a, b)`, the column's entry `a`. -/
theorem broadcastCol_apply {α : Type} {m n : Nat} (x : (⟨2, ![m, 1]⟩ : Shape).Idx → α)
    (h : (⟨2, ![m, 1]⟩ : Shape).Broadcasts ⟨2, ![m, n]⟩) (a : Fin m) (b : Fin n) :
    broadcastTo ⟨2, ![m, n]⟩ x h (ix2 a b) = x (ix2 a (0 : Fin 1)) := by
  refine broadcastTo_apply x h (ix2 a b) (ix2 a (0 : Fin 1)) fun ax => ?_
  match ax with
  | ⟨0, _⟩ =>
    show a.val = if m = 1 then 0 else a.val
    by_cases hm : m = 1
    · rw [if_pos hm]; have := a.isLt; omega
    · rw [if_neg hm]
  | ⟨1, _⟩ => rfl

end Cert.ColForm
-- ==== Proof.DecValue.lean ====
/-
  The values of the edge decoder (pipeline 1) at the ideal values.

  The body's logit column, read at a row: the one-hot matrix of the row's two index words times the embedding table
  gathers the two table rows; the row's entry is the sum over the 256 features of the product of the two gathered rows
  weighted by the last third of the folded row plus the positive parts of the two gathered rows weighted by the first
  and the second third; the stored column is one over one plus the exponential of zero minus that. The edge block the
  body reads at grid point `t` is the first list's block `t` at the first sixteen points and the second list's block
  `t − 16` after, so row `r` of point `t` is edge `512 t + r` of the two lists one after the other. Point `t` writes
  back rows `512 t … 512 t + 511` of the output column, and the 32 points' blocks cover it: after the run the output
  column is the decoder's spec of the arrays as the region finds them.
-/
import proofs.«164407_g2000604642866785_pallasbulk_226_8_alg».proof.Proof.Dec
import proofs.«164407_g2000604642866785_pallasbulk_226_8_alg».proof.Proof.SpecDec
import proofs.«164407_g2000604642866785_pallasbulk_226_8_alg».proof.Proof.LibTileOps
import proofs.«164407_g2000604642866785_pallasbulk_226_8_alg».proof.Proof.LibLaneSum
import proofs.«164407_g2000604642866785_pallasbulk_226_8_alg».proof.Proof.LibColForm
import Idealize.ShloMosaic.Lib.Pipeline.Value
import Idealize.ShloMosaic.PureOps.Ideal.Laws

noncomputable section

open scoped BigOperators

namespace Cert.KernelIdeal.DecValue

open Cert.KernelIdeal Cert.KernelIdeal.Gen Idealize.ShloMosaic Idealize.ShloMosaic.TcCoe Idealize.SL.Sem
open Idealize.ShloMosaic.ValueIdx
open Idealize.ShloMosaic.Pipeline (Dat)

/-! ## The body's two payloads read at an index -/

/-- The word 0x3F800000 is the number one. -/
theorem ofBits_one : Ideal.ofBits .f32 0x3F800000#32 = 1 := by
  simp [Ideal.ofBits, Ideal.ieee, -EReal.coe_mul]; norm_num

/-- The stored column at an index: one over one plus the exponential of zero minus the logit. -/
theorem pay1_apply (x : FVec Ideal S512x1 .f32) (j : S512x1.Idx) :
    k1_pay1 (F := Ideal) x j = Ideal.div 1 (1 + Ideal.exp (0 - x j)) := by
  show Ideal.div (Ideal.ofBits .f32 0x3F800000#32) (Ideal.ofBits .f32 0x3F800000#32 + Ideal.exp (Ideal.ofBits .f32 0x00000000#32 - x j)) = _
  rw [ofBits_one, Ideal.ofBits_zero_f32]

/-- A select on the equality of two words is the `if` on their equality. -/
theorem sel_eq (x y : BitVec 32) (A B : EReal) : Scalar.select (IntOp.cmpi .eq x y) A B = if x = y then A else B := by
  unfold Scalar.select IntOp.cmpi
  by_cases h : x = y
  · subst h; simp
  · have hb : (x == y) = false := by simpa using h
    simp [hb, h]

/-- The first 512 rows of the gathered matrix … -/
theorem slice_top (g : FVec Ideal S1024x256 .f32) (r : Fin 512) (h : Fin 256) :
    extractStridedSlice S512x256 ![0, 0] g slices_S1024x256_o0_0_S512x256 (ix2 r h) = g (ix2 (⟨r.val, by have := r.isLt; omega⟩ : Fin 1024) h) :=
  extractStridedSlice_apply _ g _ (ix2 r h) _ (fun a => match a with
    | ⟨0, _⟩ => by show r.val = 0 + r.val; omega
    | ⟨1, _⟩ => by show h.val = 0 + h.val; omega)

/-- … and its last 512 rows. -/
theorem slice_bot (g : FVec Ideal S1024x256 .f32) (r : Fin 512) (h : Fin 256) :
    extractStridedSlice S512x256 ![512, 0] g slices_S1024x256_o512_0_S512x256 (ix2 r h) = g (ix2 (⟨512 + r.val, by have := r.isLt; omega⟩ : Fin 1024) h) :=
  extractStridedSlice_apply _ g _ (ix2 r h) _ (fun a => match a with
    | ⟨0, _⟩ => by show 512 + r.val = 512 + r.val; omega
    | ⟨1, _⟩ => by show h.val = 0 + h.val; omega)

/-- The index column: its first 512 rows are column 0 of the edge block … -/
theorem idx_top (v3 : IVec S512x2 32) (r : Fin 512) :
    concatenate S1024x1 0 [⟨S512x1, extractStridedSlice S512x1 ![0, 0] v3 slices_S512x2_o0_0_S512x1⟩,
        ⟨S512x1, extractStridedSlice S512x1 ![0, 1] v3 slices_S512x2_o0_1_S512x1⟩] concatenates_S512x1_S512x1_S1024x1_d0
      (ix2 (⟨r.val, by have := r.isLt; omega⟩ : Fin 1024) (0 : Fin 1)) = v3 (ix2 r (0 : Fin 2)) := by
  refine (concatenate_pair_apply_left (t := S1024x1) (s₁ := S512x1) (s₂ := S512x1) _ _ _ _ (ix2 (⟨r.val, by have := r.isLt; omega⟩ : Fin 1024) (0 : Fin 1)) rfl (ix2 r (0 : Fin 1))
    (fun b => match b with | ⟨0, _⟩ => rfl | ⟨1, _⟩ => rfl)).trans ?_
  exact extractStridedSlice_apply _ v3 _ (ix2 r (0 : Fin 1)) (ix2 r (0 : Fin 2)) (fun a => match a with
    | ⟨0, _⟩ => by show r.val = 0 + r.val; omega
    | ⟨1, _⟩ => by show (0 : Nat) = 0 + 0; rfl)

/-- … and its last 512 rows column 1. -/
theorem idx_bot (v3 : IVec S512x2 32) (r : Fin 512) :
    concatenate S1024x1 0 [⟨S512x1, extractStridedSlice S512x1 ![0, 0] v3 slices_S512x2_o0_0_S512x1⟩,
        ⟨S512x1, extractStridedSlice S512x1 ![0, 1] v3 slices_S512x2_o0_1_S512x1⟩] concatenates_S512x1_S512x1_S1024x1_d0
      (ix2 (⟨512 + r.val, by have := r.isLt; omega⟩ : Fin 1024) (0 : Fin 1)) = v3 (ix2 r (1 : Fin 2)) := by
  refine (concatenate_pair_apply_right (t := S1024x1) (s₁ := S512x1) (s₂ := S512x1) _ _ _ _ (ix2 (⟨512 + r.val, by have := r.isLt; omega⟩ : Fin 1024) (0 : Fin 1)) rfl rfl (ix2 r (0 : Fin 1))
    (fun b hb => match b with | ⟨0, _⟩ => absurd rfl hb | ⟨1, _⟩ => rfl) (by show r.val + 512 = 512 + r.val; omega)).trans ?_
  exact extractStridedSlice_apply _ v3 _ (ix2 r (0 : Fin 1)) (ix2 r (1 : Fin 2)) (fun a => match a with
    | ⟨0, _⟩ => by show r.val = 0 + r.val; omega
    | ⟨1, _⟩ => by show (1 : Nat) = 1 + 0; rfl)

/-- An entry of the one-hot matrix: one where the column's number is the row's index word, else zero. -/
theorem hot_entry (idx : IVec S1024x1 32) (a : Fin 1024) (c : Fin 4096) :
    (truncf .bf16 (select (cmpi .eq (iota .tc S1024x4096 32 [1] iota_S1024x4096_d1_w32) (broadcastTo S1024x4096 idx broadcasts_S1024x1_S1024x4096))
        (broadcast S1024x4096 (Scalar.ofBits .f32 0x3F800000#32)) (broadcast S1024x4096 (Scalar.ofBits .f32 0x00000000#32))) bitsLt_bf16_f32
      : FVec Ideal S1024x4096 .bf16) (ix2 a c) = Spec.hot (idx (ix2 a (0 : Fin 1))) c := by
  show Scalar.select (IntOp.cmpi .eq (iota .tc S1024x4096 32 [1] iota_S1024x4096_d1_w32 (ix2 a c)) (broadcastTo S1024x4096 idx broadcasts_S1024x1_S1024x4096 (ix2 a c)))
    (Ideal.ofBits .f32 0x3F800000#32) (Ideal.ofBits .f32 0x00000000#32) = _
  rw [iota_single_apply, ColForm.broadcastCol_apply, sel_eq, ofBits_one, Ideal.ofBits_zero_f32]
  rfl

/-- The gather as a matrix product, entry by entry. -/
theorem gather_apply (oh : FVec Ideal S1024x4096 .bf16) (z : FVec Ideal S4096x256 .bf16) (a : Fin 1024) (b : Fin 256) :
    matmul dot_S1024x4096_S4096x256_S1024x256_1_0_0_1_n_n none oh z (constant S1024x256 .f32 0x00000000#32) (ix2 a b)
      = ∑ c : Fin 4096, oh (ix2 a c) * z (ix2 c b) :=
  TileOps.matmul_zero_apply dot_S1024x4096_S4096x256_S1024x256_1_0_0_1_n_n_wf none oh z a b

/-- The edge block the body reads: the first window's at the first sixteen points, the second's after. -/
abbrev selBlk (i : grid1.Coords) (v1 v2 : Vec Ideal S512x2 .i32) : Vec Ideal S512x2 .i32 :=
  Scalar.select (Scalar.cmpi .slt (BitVec.ofNat 32 (i 0).val) 16#32) v1 v2

/-- A row of the one-hot matrix times a column of the table gathers the table row the index word names. -/
theorem gatherRow_eq (idx : IVec S1024x1 32) (z : FVec Ideal S4096x256 .bf16) (a : Fin 1024) (h : Fin 256) :
    (∑ c : Fin 4096, (truncf .bf16 (select (cmpi .eq (iota .tc S1024x4096 32 [1] iota_S1024x4096_d1_w32) (broadcastTo S1024x4096 idx broadcasts_S1024x1_S1024x4096))
        (broadcast S1024x4096 (Scalar.ofBits .f32 0x3F800000#32)) (broadcast S1024x4096 (Scalar.ofBits .f32 0x00000000#32))) bitsLt_bf16_f32
      : FVec Ideal S1024x4096 .bf16) (ix2 a c) * z (ix2 c h)) = Spec.gatherRow z (idx (ix2 a (0 : Fin 1))) h :=
  Finset.sum_congr rfl fun c _ => congrArg (· * z (ix2 c h)) (hot_entry idx a c)

/-- THE LOGIT COLUMN at row `r`: over the features, the product of the two gathered rows weighted by the third loaded
    at offset 512, plus the positive parts of the first and second gathered rows weighted by the thirds at 0 and 256. -/
theorem pay2_apply (i : grid1.Coords) (v1 v2 : Vec Ideal S512x2 .i32) (z : Vec Ideal S4096x256 .bf16)
    (f0 f1 f2 : Vec Ideal S1x256 .f32) (r : Fin 512) :
    k1_pay2 (F := Ideal) i v1 v2 z f0 f1 f2 (ix2 r (0 : Fin 1))
      = ∑ h : Fin 256,
          (Spec.gatherRow z (selBlk i v1 v2 (ix2 r (0 : Fin 2))) h * Spec.gatherRow z (selBlk i v1 v2 (ix2 r (1 : Fin 2))) h * f2 (ix2 (0 : Fin 1) h)
            + max (Spec.gatherRow z (selBlk i v1 v2 (ix2 r (0 : Fin 2))) h) 0 * f0 (ix2 (0 : Fin 1) h)
            + max (Spec.gatherRow z (selBlk i v1 v2 (ix2 r (1 : Fin 2))) h) 0 * f1 (ix2 (0 : Fin 1) h)) := by
  unfold k1_pay2
  refine (ColForm.col_of_reshape _ shapeCasts_S512_S512x1 r).trans ?_
  refine (LaneSum.laneSum_apply _ reduces_S512x256_S512 (.inl rfl) rfl r).trans ?_
  refine Finset.sum_congr rfl fun h _ => ?_
  simp only [addf_apply, mulf_apply, maximumf_apply, broadcast_apply, slice_top, slice_bot, gather_apply, TileOps.broadcastRow_apply, shapeCast_self]
  rw [gatherRow_eq _ z ⟨r.val, by have := r.isLt; omega⟩ h, gatherRow_eq _ z ⟨512 + r.val, by have := r.isLt; omega⟩ h, idx_top, idx_bot]
  have h0 : (FloatOps.ofBits FTy.f32 0x00000000#32 : Ideal .f32) = (0 : EReal) := Ideal.ofBits_zero_f32
  rw [h0]

/-! ## The windows' blocks as the region finds the arrays -/

open Cert.KernelIdeal.Dec

variable (V : (c : Dev nD) → (b : Ref sig .tc) → Buf (Elt Ideal) ((c : Thread nD τ).loc b))

/-- The zero offsets, however spelt. -/
theorem hz : (![0, 0] : Fin 2 → Nat) = fun _ => 0 := funext fun a => by fin_cases a <;> rfl

/-- The printed index maps and the body's choice of edge block, decided over the 32 grid points. -/
theorem idx_facts : ∀ t : Fin cfg1.N,
    win1_4.index t (0 : Fin 2) = t.val ∧ win1_4.index t (1 : Fin 2) = 0
    ∧ win1_0.index t (0 : Fin 2) = min t.val 15 ∧ win1_0.index t (1 : Fin 2) = 0
    ∧ win1_1.index t (0 : Fin 2) = t.val - 16 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ Scalar.cmpi .slt (BitVec.ofNat 32 ((grid1.coords t) 0).val) 16#32 = (if t.val < 16 then 1#1 else 0#1) :=
  (by decide +kernel : ∀ t : Fin grid1.N, _)

/-- The table window's block is the whole table at every point. -/
theorem iblk2_eq (c : Dev nD) (t : Fin cfg1.N) : iblk1 V c 2 t = V c main_v1_0 := by
  obtain ⟨-, -, -, -, -, -, e0, e1, -⟩ := idx_facts t
  funext j
  show V c main_v1_0 (((cfg1.win 2).blk t).view.emb j) = V c main_v1_0 j
  refine congrArg (V c main_v1_0) (funext fun a => Fin.ext ?_)
  match a with
  | ⟨0, _⟩ => show win1_2.index t (0 : Fin 2) * 4096 + 1 * (j 0).val = (j 0).val; omega
  | ⟨1, _⟩ => show win1_2.index t (1 : Fin 2) * 256 + 1 * (j 1).val = (j 1).val; omega

/-- A third of the folded row, loaded at column offset `o`, read at feature `h`: the folded row at `o + h`. -/
theorem fold0 (c : Dev nD) (t : Fin cfg1.N) (h : Fin 256) :
    View.ld (iblk1 V c 3 t) rF0 (ix2 (0 : Fin 1) h) = V c main_v1_1 (ix2 (0 : Fin 1) (⟨h.val, by have := h.isLt; omega⟩ : Fin 768)) := by
  obtain ⟨-, -, -, -, -, -, -, -, e0, e1, -⟩ := idx_facts t
  show V c main_v1_1 (((cfg1.win 3).blk t).view.emb (rF0.emb (ix2 (0 : Fin 1) h))) = _
  refine congrArg (V c main_v1_1) (funext fun a => Fin.ext ?_)
  match a with
  | ⟨0, _⟩ => show win1_3.index t (0 : Fin 2) * 1 + 1 * (0 + 1 * 0) = 0; omega
  | ⟨1, _⟩ => show win1_3.index t (1 : Fin 2) * 768 + 1 * (0 + 1 * h.val) = h.val; omega

/-- The same at offset 256 … -/
theorem fold256 (c : Dev nD) (t : Fin cfg1.N) (h : Fin 256) :
    View.ld (iblk1 V c 3 t) rF256 (ix2 (0 : Fin 1) h) = V c main_v1_1 (ix2 (0 : Fin 1) (⟨256 + h.val, by have := h.isLt; omega⟩ : Fin 768)) := by
  obtain ⟨-, -, -, -, -, -, -, -, e0, e1, -⟩ := idx_facts t
  show V c main_v1_1 (((cfg1.win 3).blk t).view.emb (rF256.emb (ix2 (0 : Fin 1) h))) = _
  refine congrArg (V c main_v1_1) (funext fun a => Fin.ext ?_)
  match a with
  | ⟨0, _⟩ => show win1_3.index t (0 : Fin 2) * 1 + 1 * (0 + 1 * 0) = 0; omega
  | ⟨1, _⟩ => show win1_3.index t (1 : Fin 2) * 768 + 1 * (256 + 1 * h.val) = 256 + h.val; omega

/-- … and at offset 512. -/
theorem fold512 (c : Dev nD) (t : Fin cfg1.N) (h : Fin 256) :
    View.ld (iblk1 V c 3 t) rF512 (ix2 (0 : Fin 1) h) = V c main_v1_1 (ix2 (0 : Fin 1) (⟨512 + h.val, by have := h.isLt; omega⟩ : Fin 768)) := by
  obtain ⟨-, -, -, -, -, -, -, -, e0, e1, -⟩ := idx_facts t
  show V c main_v1_1 (((cfg1.win 3).blk t).view.emb (rF512.emb (ix2 (0 : Fin 1) h))) = _
  refine congrArg (V c main_v1_1) (funext fun a => Fin.ext ?_)
  match a with
  | ⟨0, _⟩ => show win1_3.index t (0 : Fin 2) * 1 + 1 * (0 + 1 * 0) = 0; omega
  | ⟨1, _⟩ => show win1_3.index t (1 : Fin 2) * 768 + 1 * (512 + 1 * h.val) = 512 + h.val; omega

/-- The edge block the body reads at point `t`, row `r`: edge `512 t + r` of the two lists one after the other. -/
theorem edge_at (c : Dev nD) (t : Fin cfg1.N) (r : Fin 512) (col : Fin 2) :
    selBlk (grid1.coords t) (iblk1 V c 0 t) (iblk1 V c 1 t) (ix2 r col)
      = Spec.edgeAt (V c main_arg5) (V c main_arg6) (⟨t.val * 512 + r.val, by have := r.isLt; have : t.val < 32 := t.isLt; omega⟩ : Fin 16384) col := by
  obtain ⟨-, -, e00, e01, e10, e11, -, -, -, -, esel⟩ := idx_facts t
  have ht : t.val < 32 := t.isLt
  have hr : r.val < 512 := r.isLt
  show Scalar.select (Scalar.cmpi .slt (BitVec.ofNat 32 ((grid1.coords t) 0).val) 16#32) (iblk1 V c 0 t) (iblk1 V c 1 t) (ix2 r col) = _
  rw [esel]
  unfold Spec.edgeAt
  by_cases hlt : t.val < 16
  · rw [if_pos hlt, select_one, dif_pos (show t.val * 512 + r.val < 8192 by omega)]
    show V c main_arg5 (((cfg1.win 0).blk t).view.emb (ix2 r col)) = _
    refine congrArg (V c main_arg5) (funext fun a => Fin.ext ?_)
    match a with
    | ⟨0, _⟩ => show win1_0.index t (0 : Fin 2) * 512 + 1 * r.val = t.val * 512 + r.val; omega
    | ⟨1, _⟩ => show win1_0.index t (1 : Fin 2) * 2 + 1 * col.val = col.val; omega
  · rw [if_neg hlt, select_zero, dif_neg (show ¬ t.val * 512 + r.val < 8192 by omega)]
    show V c main_arg6 (((cfg1.win 1).blk t).view.emb (ix2 r col)) = _
    refine congrArg (V c main_arg6) (funext fun a => Fin.ext ?_)
    match a with
    | ⟨0, _⟩ => show win1_1.index t (0 : Fin 2) * 512 + 1 * r.val = t.val * 512 + r.val - 8192; omega
    | ⟨1, _⟩ => show win1_1.index t (1 : Fin 2) * 2 + 1 * col.val = col.val; omega

/-! ## The output column after the run -/

/-- The decoder's spec at an array index whose row is edge `e`. -/
theorem decOut_at (te fe : Spec.IM 8192 2) (z : Spec.M 4096 256) (fold : Spec.M 1 768) (i : (⟨2, ![16384, 1]⟩ : Shape).Idx)
    (e : Fin 16384) (he : (i 0).val = e.val) :
    Spec.decOut te fe z fold i
      = Ideal.div 1 (1 + Ideal.exp (0 - Spec.decLogit z fold (Spec.edgeAt te fe e (0 : Fin 2)) (Spec.edgeAt te fe e (1 : Fin 2)))) := by
  have h : (⟨(i 0).val, idx2_lt0 i⟩ : Fin 16384) = e := Fin.ext he
  unfold Spec.decOut
  rw [h]

/-- What point `t` writes back is block `t` of the decoder's spec of the arrays as the region finds them. -/
theorem flushed4_eq (c : Dev nD) (t : Fin cfg1.N) :
    (dat1 (F := Ideal) V c).flushed 4 t = ((cfg1.win 4).blk t).view.read (Elt Ideal)
      (Spec.decOut (V c main_arg5) (V c main_arg6) (V c main_v1_0) (V c main_v1_1)) := by
  show (cfg1.win 4).cut (grid1.coords t) ((dat1 V c).after 4 t) = _
  rw [after1_4]
  unfold out1_4
  rw [View.canon_unit_zero hz]
  simp only [View.ld_unit_zero (S := S512x2) hz, View.ld_unit_zero (S := S4096x256) hz]
  obtain ⟨e40, e41, -⟩ := idx_facts t
  have ht : t.val < 32 := t.isLt
  funext j
  obtain ⟨r, q, rfl⟩ : ∃ (r : Fin 512) (q : Fin 1), j = ix2 r q := ⟨j 0, j 1, eq_ix2 j⟩
  obtain rfl : q = 0 := Subsingleton.elim _ _
  have hr : r.val < 512 := r.isLt
  refine (pay1_apply _ (ix2 r (0 : Fin 1))).trans ?_
  refine Eq.trans ?_ (decOut_at (V c main_arg5) (V c main_arg6) (V c main_v1_0) (V c main_v1_1) _
    (⟨t.val * 512 + r.val, by omega⟩ : Fin 16384)
    (show win1_4.index t (0 : Fin 2) * 512 + 1 * r.val = t.val * 512 + r.val by omega)).symm
  rw [pay2_apply, iblk2_eq]
  unfold Spec.decLogit
  refine congrArg (fun x => Ideal.div 1 (1 + Ideal.exp (0 - x))) (Finset.sum_congr rfl fun h _ => ?_)
  rw [fold0, fold256, fold512, edge_at, edge_at]

/-- An index of the output array is in point `t`'s block iff each coordinate is in the block's range on its axis. -/
theorem mem_blk4 (t : Fin cfg1.N) (i : S16384x1.Idx) :
    i ∈ ((cfg1.win 4).blk t).view.set ↔ ∀ a : Fin 2, win1_4.index t a * S512x1.size a ≤ (i a).val ∧ (i a).val < win1_4.index t a * S512x1.size a + S512x1.size a := by
  show i ∈ ((View.whole main_v2).slice (win1_4.rect t)).set ↔ _
  rw [View.set_slice_whole, Rect.mem_set_unit]
  exact Iff.rfl

/-- Every row of the output column is in the block of the point that is its number divided by 512. -/
theorem cover4 (i : S16384x1.Idx) : ∃ t : Fin cfg1.N, (cfg1.win 4).flush t = true ∧ i ∈ ((cfg1.win 4).blk t).view.set := by
  have hi0 : (i 0).val < 16384 := (i 0).isLt
  have hi1 : (i 1).val < 1 := (i 1).isLt
  have hN : cfg1.N = 32 := N_1
  obtain ⟨t, htv⟩ : ∃ t : Fin cfg1.N, t.val = (i 0).val / 512 := ⟨⟨(i 0).val / 512, by rw [hN]; omega⟩, rfl⟩
  obtain ⟨e40, e41, -⟩ := idx_facts t
  refine ⟨t, flush1_4 t, ?_⟩
  rw [mem_blk4]
  intro a
  match a with
  | ⟨0, _⟩ => show win1_4.index t (0 : Fin 2) * 512 ≤ (i 0).val ∧ (i 0).val < win1_4.index t (0 : Fin 2) * 512 + 512; omega
  | ⟨1, _⟩ => show win1_4.index t (1 : Fin 2) * 1 ≤ (i 1).val ∧ (i 1).val < win1_4.index t (1 : Fin 2) * 1 + 1; omega

/-- THE DECODER'S OUTPUT after the run: the spec of the arrays as the region finds them. -/
theorem dec_out (c : Dev nD) :
    (dat1 (F := Ideal) V c).arrAt 4 cfg1.N = Spec.decOut (V c main_arg5) (V c main_arg6) (V c main_v1_0) (V c main_v1_1) :=
  (dat1 (F := Ideal) V c).arrAt_eq_of_cover 4 _ (fun t _ => flushed4_eq V c t) (fun i => cover4 i)

end Cert.KernelIdeal.DecValue
end
-- ==== Proof.RefHost.lean ====
import proofs.«164407_g2000604642866785_pallasbulk_226_8_alg».proof.Proof.Gen.ReferenceIdeal.Frame
import Idealize.ShloMosaic.Lib.ValueIdx
import Idealize.ShloMosaic.Lib.ValueLayout
import Idealize.ShloMosaic.Lib.Pipeline.Value
import Idealize.ShloMosaic.Lib.StackMember
import Idealize.ShloMosaic.PureOps.Ideal.Laws
import Idealize.ShloMosaic.Lib.StableHlo.Run

/-! What the reference program's host operations leave in the arrays its regions read, at the extended reals and
    read at an index. Before its first region the reference transposes the first weight matrix, the features and the
    adjacency matrix (the change of format after each transpose is the identity on extended reals), cuts the second
    weight matrix into its upper and lower 256 rows and the decoder weight column into its upper and lower 256
    entries, and multiplies each half of the second weight matrix by the upper half of the column: two matrix-vector
    products, each entry a sum of 256 products. The first region writes none of these arrays, so the second region
    finds them as the first did, together with the first region's own output. -/

set_option maxRecDepth 16384

noncomputable section

namespace Cert.ReferenceIdeal.RefHost

open Cert.ReferenceIdeal Cert.ReferenceIdeal.Gen
open Idealize.ShloMosaic Idealize.ShloMosaic.TcCoe Idealize.ShloMosaic.Tactic
open Idealize.ShloMosaic.ValueIdx
open Idealize.SL.Sem

/-! ## The operations read at an index, over any operands -/

/-- A transposed matrix whose format is then changed reads, at `(a, b)`, the operand at `(b, a)`. -/
theorem truncT_at {p q : Nat} (X : (⟨2, ![p, q]⟩ : Shape).Idx → EReal)
    (h : (⟨2, ![p, q]⟩ : Shape).Transposes [1, 0] ⟨2, ![q, p]⟩) (hb : FTy.bits .bf16 < FTy.bits .f32)
    (i : (⟨2, ![q, p]⟩ : Shape).Idx) :
    (truncf (F := Ideal) (φ := .f32) .bf16 (transpose ⟨2, ![q, p]⟩ [1, 0] X h) hb : (⟨2, ![q, p]⟩ : Shape).Idx → EReal) i
      = X (ix2 ⟨(i 1).val, idx2_lt1 i⟩ ⟨(i 0).val, idx2_lt0 i⟩) :=
  transpose_apply _ X h i _ fun b => match b with | ⟨0, _⟩ => rfl | ⟨1, _⟩ => rfl

/-- The reference's matrix-vector product is the plain one: rows by the contracted axis, times the contracted axis by
    one column. -/
theorem dot_eq_plain : dot_S256x256_S256x1_S256x1_1_0_0_1_n_n = DotDims.plain 256 256 1 := rfl

/-- Rows `o ‥ o + 256` of a 512×256 matrix times the upper 256 entries of a 512-entry column: entry `a` is the sum
    over the 256 columns of the products. -/
theorem matvec_at (o : Nat) (A : S512x256.Idx → EReal) (B : S512x1.Idx → EReal)
    (hA : S512x256.Slices ![o, 0] S256x256) (hB : S512x1.Slices ![0, 0] S256x1) (a : Fin 256) (b : Fin 1)
    (r : Fin 512) (hr : r.val = o + a.val) :
    Host.dotGeneral (F := Ideal) (φ₁ := .f32) (φ₂ := .f32) dot_S256x256_S256x1_S256x1_1_0_0_1_n_n none
        (extractStridedSlice S256x256 ![o, 0] A hA) (extractStridedSlice S256x1 ![0, 0] B hB) (ix2 a b)
      = ∑ k : Fin 256, A (ix2 r k) * B (ix2 ⟨k.val, by have := k.isLt; omega⟩ 0) := by
  rw [dot_eq_plain]
  refine (StackMember.dotGeneral_plain_apply none _ _ a b).trans (Finset.sum_congr rfl fun k _ => ?_)
  rw [slice2_axis0_apply o A hA a k r hr, slice2_axis0_apply 0 B hB k b ⟨k.val, by have := k.isLt; omega⟩ (by simp)]
  rw [Subsingleton.elim b 0]

/-- The lower 256 entries of a 512-entry column. -/
theorem lower_at (B : S512x1.Idx → EReal) (hB : S512x1.Slices ![256, 0] S256x1) (a : Fin 256) (b : Fin 1) :
    extractStridedSlice S256x1 ![256, 0] B hB (ix2 a b) = B (ix2 ⟨256 + a.val, by have := a.isLt; omega⟩ 0) := by
  rw [slice2_axis0_eq 256 B hB a b, Subsingleton.elim b 0]

variable (m : (ℓ : Loc nD τ sig) → Buf (Elt Ideal) ℓ) (ρ : Dev nD → PrngReg)

/-! ## The argument arrays at launch, as matrices of extended reals -/

/-- The node features, 4096 nodes by 256 features. -/
abbrev arg0 (c : Dev nD) : S4096x256.Idx → EReal := m ((c : Thread nD τ).loc main_arg0)
/-- The adjacency matrix. -/
abbrev arg1 (c : Dev nD) : S4096x4096.Idx → EReal := m ((c : Thread nD τ).loc main_arg1)
/-- The first weight matrix. -/
abbrev arg2 (c : Dev nD) : S256x256.Idx → EReal := m ((c : Thread nD τ).loc main_arg2)
/-- The second weight matrix, 512 rows. -/
abbrev arg3 (c : Dev nD) : S512x256.Idx → EReal := m ((c : Thread nD τ).loc main_arg3)
/-- The decoder weight column, 512 entries. -/
abbrev arg4 (c : Dev nD) : S512x1.Idx → EReal := m ((c : Thread nD τ).loc main_arg4)

/-! ## Each host-written array as its operations' term over the argument arrays (the only lemmas that open the fold) -/

theorem V1_v8_term (c : Dev nD) :
    (V1 m ρ c main_v8 : S256x256.Idx → EReal)
      = truncf (F := Ideal) .bf16 (transpose S256x256 [1, 0] (arg2 m c) transposes_S256x256_S256x256_1_0) bitsLt_bf16_f32 := by
  dsimp only [Gen.V1, Gen.W1, Gen.hostOps0]
  after_results

theorem V1_v10_term (c : Dev nD) :
    (V1 m ρ c main_v10 : S256x4096.Idx → EReal)
      = truncf (F := Ideal) .bf16 (transpose S256x4096 [1, 0] (arg0 m c) transposes_S4096x256_S256x4096_1_0) bitsLt_bf16_f32 := by
  dsimp only [Gen.V1, Gen.W1, Gen.hostOps0]
  after_results

theorem V1_v12_term (c : Dev nD) :
    (V1 m ρ c main_v12 : S4096x4096.Idx → EReal)
      = truncf (F := Ideal) .bf16 (transpose S4096x4096 [1, 0] (arg1 m c) transposes_S4096x4096_S4096x4096_1_0) bitsLt_bf16_f32 := by
  dsimp only [Gen.V1, Gen.W1, Gen.hostOps0]
  after_results

theorem V1_v2_term (c : Dev nD) :
    (V1 m ρ c main_v2 : S256x1.Idx → EReal)
      = Host.dotGeneral (F := Ideal) (φ₁ := .f32) (φ₂ := .f32) dot_S256x256_S256x1_S256x1_1_0_0_1_n_n none
          (extractStridedSlice S256x256 ![0, 0] (arg3 m c) slices_S512x256_S256x256_0_0)
          (extractStridedSlice S256x1 ![0, 0] (arg4 m c) slices_S512x1_S256x1_0_0) := by
  dsimp only [Gen.V1, Gen.W1, Gen.hostOps0]
  after_results

theorem V1_v5_term (c : Dev nD) :
    (V1 m ρ c main_v5 : S256x1.Idx → EReal)
      = Host.dotGeneral (F := Ideal) (φ₁ := .f32) (φ₂ := .f32) dot_S256x256_S256x1_S256x1_1_0_0_1_n_n none
          (extractStridedSlice S256x256 ![256, 0] (arg3 m c) slices_S512x256_S256x256_256_0)
          (extractStridedSlice S256x1 ![0, 0] (arg4 m c) slices_S512x1_S256x1_0_0) := by
  dsimp only [Gen.V1, Gen.W1, Gen.hostOps0]
  after_results

theorem V1_v6_term (c : Dev nD) :
    (V1 m ρ c main_v6 : S256x1.Idx → EReal)
      = extractStridedSlice S256x1 ![256, 0] (arg4 m c) slices_S512x1_S256x1_256_0 := by
  dsimp only [Gen.V1, Gen.W1, Gen.hostOps0]
  after_results

/-! ## The arrays at the first region's entry, read at an index -/

/-- The first weight matrix, transposed. -/
theorem V1_v8 (c : Dev nD) :
    (V1 m ρ c main_v8 : S256x256.Idx → EReal)
      = fun i => arg2 m c (ix2 ⟨(i 1).val, idx2_lt1 i⟩ ⟨(i 0).val, idx2_lt0 i⟩) :=
  (V1_v8_term m ρ c).trans (funext fun i => truncT_at _ _ _ i)

/-- The features, transposed: 256 rows (one per feature) by 4096 columns (one per node). -/
theorem V1_v10 (c : Dev nD) :
    (V1 m ρ c main_v10 : S256x4096.Idx → EReal)
      = fun i => arg0 m c (ix2 ⟨(i 1).val, idx2_lt1 i⟩ ⟨(i 0).val, idx2_lt0 i⟩) :=
  (V1_v10_term m ρ c).trans (funext fun i => truncT_at _ _ _ i)

/-- The adjacency matrix, transposed. -/
theorem V1_v12 (c : Dev nD) :
    (V1 m ρ c main_v12 : S4096x4096.Idx → EReal)
      = fun i => arg1 m c (ix2 ⟨(i 1).val, idx2_lt1 i⟩ ⟨(i 0).val, idx2_lt0 i⟩) :=
  (V1_v12_term m ρ c).trans (funext fun i => truncT_at _ _ _ i)

/-- The upper half of the second weight matrix times the upper half of the decoder column. -/
theorem V1_v2 (c : Dev nD) :
    (V1 m ρ c main_v2 : S256x1.Idx → EReal)
      = fun i => ∑ k : Fin 256,
          arg3 m c (ix2 ⟨(i 0).val, by have := idx2_lt0 i; omega⟩ k)
            * arg4 m c (ix2 ⟨k.val, by have := k.isLt; omega⟩ 0) := by
  refine (V1_v2_term m ρ c).trans (funext fun i => ?_)
  conv_lhs => rw [eq_ix2 i]
  exact matvec_at 0 _ _ _ _ (i 0) (i 1) _ (Nat.zero_add _).symm

/-- The lower half of the second weight matrix times the upper half of the decoder column. -/
theorem V1_v5 (c : Dev nD) :
    (V1 m ρ c main_v5 : S256x1.Idx → EReal)
      = fun i => ∑ k : Fin 256,
          arg3 m c (ix2 ⟨256 + (i 0).val, by have := idx2_lt0 i; omega⟩ k)
            * arg4 m c (ix2 ⟨k.val, by have := k.isLt; omega⟩ 0) := by
  refine (V1_v5_term m ρ c).trans (funext fun i => ?_)
  conv_lhs => rw [eq_ix2 i]
  exact matvec_at 256 _ _ _ _ (i 0) (i 1) _ rfl

/-- The lower half of the decoder column. -/
theorem V1_v6 (c : Dev nD) :
    (V1 m ρ c main_v6 : S256x1.Idx → EReal)
      = fun i => arg4 m c (ix2 ⟨256 + (i 0).val, by have := idx2_lt0 i; omega⟩ 0) := by
  refine (V1_v6_term m ρ c).trans (funext fun i => ?_)
  conv_lhs => rw [eq_ix2 i]
  exact lower_at _ _ (i 0) (i 1)

/-! ## The arrays at the second region's entry: the first region writes its own output only -/

theorem V2_v12 (c : Dev nD) :
    (V2 m ρ c main_v12 : S4096x4096.Idx → EReal)
      = fun i => arg1 m c (ix2 ⟨(i 1).val, idx2_lt1 i⟩ ⟨(i 0).val, idx2_lt0 i⟩) :=
  (W2_of_ne m ρ c main_v12 (by decide)).trans (V1_v12 m ρ c)

theorem V2_v2 (c : Dev nD) :
    (V2 m ρ c main_v2 : S256x1.Idx → EReal)
      = fun i => ∑ k : Fin 256,
          arg3 m c (ix2 ⟨(i 0).val, by have := idx2_lt0 i; omega⟩ k)
            * arg4 m c (ix2 ⟨k.val, by have := k.isLt; omega⟩ 0) :=
  (W2_of_ne m ρ c main_v2 (by decide)).trans (V1_v2 m ρ c)

theorem V2_v5 (c : Dev nD) :
    (V2 m ρ c main_v5 : S256x1.Idx → EReal)
      = fun i => ∑ k : Fin 256,
          arg3 m c (ix2 ⟨256 + (i 0).val, by have := idx2_lt0 i; omega⟩ k)
            * arg4 m c (ix2 ⟨k.val, by have := k.isLt; omega⟩ 0) :=
  (W2_of_ne m ρ c main_v5 (by decide)).trans (V1_v5 m ρ c)

theorem V2_v6 (c : Dev nD) :
    (V2 m ρ c main_v6 : S256x1.Idx → EReal)
      = fun i => arg4 m c (ix2 ⟨256 + (i 0).val, by have := idx2_lt0 i; omega⟩ 0) :=
  (W2_of_ne m ρ c main_v6 (by decide)).trans (V1_v6 m ρ c)

/-- The first region's output as the second region finds it: what the first region's write-backs leave. -/
theorem V2_xt (c : Dev nD) : V2 m ρ c main_v13 = (dat0 (V1 m ρ) c).arrAt 2 cfg0.N :=
  W2_arr m ρ c 2

end Cert.ReferenceIdeal.RefHost

end
-- ==== Proof.SpecRef.lean ====
/-
  The reference's first two regions' results as functions of the arrays they read: the transposed first weight matrix
  times the transposed feature matrix; that product times the transposed adjacency matrix; and the two 258-row tables
  built from it — the first holding the product scaled row by row by a weight column, then the row of column sums of
  its positive part weighted by a second column, then a row of ones; the second holding the product itself, then a
  row of ones, then the row of column sums weighted by a third column.
-/
import Idealize.ShloMosaic.PureOps.Ideal
import Idealize.ShloMosaic.Lib.ValueIdx
import proofs.«164407_g2000604642866785_pallasbulk_226_8_alg».proof.Proof.SpecBase

noncomputable section

open scoped BigOperators

namespace Cert.Spec

open Idealize.ShloMosaic Idealize.ShloMosaic.ValueIdx

/-- The 256×256 matrix `wt` times the 256×4096 matrix `xin`: entry (h, n) is the sum over d of wt (h, d) * xin (d, n). -/
def refXt (wt : M 256 256) (xin : M 256 4096) : M 256 4096 := fun i =>
  ∑ d : Fin 256, wt (ix2 (⟨(i 0).val, idx2_lt0 i⟩ : Fin 256) d) * xin (ix2 d (⟨(i 1).val, idx2_lt1 i⟩ : Fin 4096))

/-- The 256×4096 matrix `xt` times the 4096×4096 matrix `adjt`, at (h, n): the sum over m of xt (h, m) * adjt (m, n). -/
def refZt (xt : M 256 4096) (adjt : M 4096 4096) (h : Fin 256) (n : Fin 4096) : EReal :=
  ∑ m : Fin 4096, xt (ix2 h m) * adjt (ix2 m n)

/-- The first table, 258 rows over the 4096 nodes: row r below 256 is the product's row r scaled by w3b (r, 0); row 256
    is, per node n, the sum over h of max (product (h, n)) 0 * v2a (h, 0); row 257 is one. -/
def refTi (xt : M 256 4096) (adjt : M 4096 4096) (v2a w3b : M 256 1) : M 258 4096 := fun i =>
  if h : (i 0).val < 256 then
    refZt xt adjt ⟨(i 0).val, h⟩ ⟨(i 1).val, idx2_lt1 i⟩ * w3b (ix2 (⟨(i 0).val, h⟩ : Fin 256) (0 : Fin 1))
  else if (i 0).val = 256 then
    ∑ k : Fin 256, max (refZt xt adjt k ⟨(i 1).val, idx2_lt1 i⟩) 0 * v2a (ix2 k (0 : Fin 1))
  else 1

/-- The second table, 258 rows over the 4096 nodes: row r below 256 is the product's row r; row 256 is one; row 257 is,
    per node n, the sum over h of max (product (h, n)) 0 * v2b (h, 0). -/
def refTj (xt : M 256 4096) (adjt : M 4096 4096) (v2b : M 256 1) : M 258 4096 := fun i =>
  if h : (i 0).val < 256 then
    refZt xt adjt ⟨(i 0).val, h⟩ ⟨(i 1).val, idx2_lt1 i⟩
  else if (i 0).val = 256 then 1
  else
    ∑ k : Fin 256, max (refZt xt adjt k ⟨(i 1).val, idx2_lt1 i⟩) 0 * v2b (ix2 k (0 : Fin 1))

end Cert.Spec

end
-- ==== Proof.RefVal01.lean ====
/-
  The values of the reference's first two regions at the ideal values: after the first region its output array holds
  the product of its two input arrays, and after the second region the two output tables hold the forms of SpecRef.lean
  of the arrays the region reads. Each region writes, at grid point t, column block t of its output, computed from whole
  input arrays and column block t of one input; the blocks cover the output.
-/
import proofs.«164407_g2000604642866785_pallasbulk_226_8_alg».proof.Proof.Gen.ReferenceIdeal.Frame
import Idealize.ShloMosaic.Lib.Pipeline.Value
import proofs.«164407_g2000604642866785_pallasbulk_226_8_alg».proof.Proof.LibTileOps
import proofs.«164407_g2000604642866785_pallasbulk_226_8_alg».proof.Proof.LibColForm
import proofs.«164407_g2000604642866785_pallasbulk_226_8_alg».proof.Proof.SpecRef

set_option maxRecDepth 16384

noncomputable section

open scoped BigOperators

namespace Cert.ReferenceIdeal.RefVal01

open Cert.ReferenceIdeal Cert.ReferenceIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

theorem hz : (![0, 0] : Fin 2 → Nat) = fun _ => 0 := funext fun a => by fin_cases a <;> rfl

/-! ## Region 0: the product of the transposed weight matrix by the transposed feature matrix -/

/-- The body's payload at an index: the product of its two loaded blocks. -/
theorem pay0_apply (x0 x1 : Vec Ideal S256x256 .bf16) (a b : Fin 256) :
    k0_pay1 (F := Ideal) x0 x1 (ix2 a b) = ∑ d : Fin 256, x0 (ix2 a d) * x1 (ix2 d b) := by
  unfold k0_pay1
  simp only [shapeCast_self]
  rw [truncf_apply]
  exact TileOps.matmul_zero_apply _ none x0 x1 a b

/-- The printed index maps over the grid: the first window stays at block (0, 0), the second and the output move along
    the columns with the point. -/
theorem idx_facts0 : ∀ t : Fin cfg0.N, win0_0.index t (0 : Fin 2) = 0 ∧ win0_0.index t (1 : Fin 2) = 0
    ∧ win0_1.index t (0 : Fin 2) = 0 ∧ win0_1.index t (1 : Fin 2) = t.val
    ∧ win0_2.index t (0 : Fin 2) = 0 ∧ win0_2.index t (1 : Fin 2) = t.val :=
  (by decide +kernel : ∀ t : Fin grid0.N, _)

/-- The first window's block at any point is the whole first input array. -/
theorem iblk0_0_apply (c : Dev nD) (t : Fin cfg0.N) (a d : Fin 256) :
    (iblk0 V c 0 t : Vec Ideal S256x256 .bf16) (ix2 a d) = (V c main_v8 : Cert.Spec.M 256 256) (ix2 a d) := by
  obtain ⟨e0, e1, e2, e3, e4, e5⟩ := idx_facts0 t
  show (V c main_v8 : Cert.Spec.M 256 256) (((cfg0.win 0).blk t).view.emb (ix2 a d)) = _
  congr 1
  funext ax; apply Fin.ext
  match ax with
  | ⟨0, _⟩ =>
    show win0_0.index t (0 : Fin 2) * 256 + 1 * a.val = a.val
    omega
  | ⟨1, _⟩ =>
    show win0_0.index t (1 : Fin 2) * 256 + 1 * d.val = d.val
    omega

/-- The second window's block at point t is column block t of the second input array. -/
theorem iblk0_1_apply (c : Dev nD) (t : Fin cfg0.N) (d b : Fin 256) (h : t.val * 256 + b.val < 4096) :
    (iblk0 V c 1 t : Vec Ideal S256x256 .bf16) (ix2 d b)
      = (V c main_v10 : Cert.Spec.M 256 4096) (ix2 d (⟨t.val * 256 + b.val, h⟩ : Fin 4096)) := by
  obtain ⟨e0, e1, e2, e3, e4, e5⟩ := idx_facts0 t
  show (V c main_v10 : Cert.Spec.M 256 4096) (((cfg0.win 1).blk t).view.emb (ix2 d b)) = _
  congr 1
  funext ax; apply Fin.ext
  match ax with
  | ⟨0, _⟩ =>
    show win0_1.index t (0 : Fin 2) * 256 + 1 * d.val = d.val
    omega
  | ⟨1, _⟩ =>
    show win0_1.index t (1 : Fin 2) * 256 + 1 * b.val = t.val * 256 + b.val
    omega

/-- What point t writes back is block t of the product of the two input arrays. -/
theorem flushed0_eq (c : Dev nD) (t : Fin cfg0.N) :
    (dat0 (F := Ideal) V c).flushed 2 t
      = ((cfg0.win 2).blk t).view.read (Elt Ideal) (Cert.Spec.refXt (V c main_v8) (V c main_v10)) := by
  show (cfg0.win 2).cut (grid0.coords t) ((dat0 V c).after 2 t) = _
  rw [after0_2]
  unfold out0_2
  rw [View.canon_unit_zero hz]
  simp only [View.ld_unit_zero (S := S256x256) hz]
  obtain ⟨e0, e1, e2, e3, e4, e5⟩ := idx_facts0 t
  have ht : t.val < 16 := lt_of_lt_of_eq t.isLt (N_0 : cfg0.N = 16)
  funext j
  revert j
  show ∀ j : S256x256.Idx, k0_pay1 (iblk0 V c 0 t) (iblk0 V c 1 t) j
      = Cert.Spec.refXt (V c main_v8) (V c main_v10) (((cfg0.win 2).blk t).view.emb j)
  intro j
  obtain ⟨a, b, rfl⟩ : ∃ (a b : Fin 256), j = ix2 a b := ⟨j 0, j 1, eq_ix2 j⟩
  have hlt : t.val * 256 + b.val < 4096 := by have := b.isLt; omega
  have hemb : ((cfg0.win 2).blk t).view.emb (ix2 a b) = (ix2 a (⟨t.val * 256 + b.val, hlt⟩ : Fin 4096) : S256x4096.Idx) := by
    funext ax; apply Fin.ext
    match ax with
    | ⟨0, _⟩ =>
      show win0_2.index t (0 : Fin 2) * 256 + 1 * a.val = a.val
      omega
    | ⟨1, _⟩ =>
      show win0_2.index t (1 : Fin 2) * 256 + 1 * b.val = t.val * 256 + b.val
      omega
  rw [hemb, pay0_apply]
  unfold Cert.Spec.refXt
  refine Finset.sum_congr rfl fun d _ => ?_
  rw [iblk0_0_apply V c t a d, iblk0_1_apply V c t d b hlt]

/-- An index of the output array is in point t's block iff each coordinate is in the block's range on its axis. -/
theorem mem_blk0 (t : Fin cfg0.N) (i : S256x4096.Idx) :
    i ∈ ((cfg0.win 2).blk t).view.set ↔ ∀ a : Fin 2, win0_2.index t a * S256x256.size a ≤ (i a).val
      ∧ (i a).val < win0_2.index t a * S256x256.size a + S256x256.size a := by
  show i ∈ ((View.whole main_v13).slice (win0_2.rect t)).set ↔ _
  rw [View.set_slice_whole, Rect.mem_set_unit]
  exact Iff.rfl

/-- Every index of the output array is in the block of the point its column falls in. -/
theorem cover0 (i : S256x4096.Idx) : ∃ t : Fin cfg0.N, (cfg0.win 2).flush t = true ∧ i ∈ ((cfg0.win 2).blk t).view.set := by
  have hi0 : (i 0).val < 256 := (i 0).isLt
  have hi1 : (i 1).val < 4096 := (i 1).isLt
  have hN : cfg0.N = 16 := N_0
  obtain ⟨t, htv⟩ : ∃ t : Fin cfg0.N, t.val = (i 1).val / 256 := ⟨⟨(i 1).val / 256, by rw [hN]; omega⟩, rfl⟩
  obtain ⟨e0, e1, e2, e3, e4, e5⟩ := idx_facts0 t
  refine ⟨t, flush0_2 t, ?_⟩
  rw [mem_blk0]
  intro a
  match a with
  | ⟨0, _⟩ =>
    show win0_2.index t (0 : Fin 2) * 256 ≤ (i 0).val ∧ (i 0).val < win0_2.index t (0 : Fin 2) * 256 + 256
    omega
  | ⟨1, _⟩ =>
    show win0_2.index t (1 : Fin 2) * 256 ≤ (i 1).val ∧ (i 1).val < win0_2.index t (1 : Fin 2) * 256 + 256
    omega

/-- After region 0 its output array holds the product of the two arrays it reads. -/
theorem ref_xt (c : Dev nD) :
    (dat0 (F := Ideal) V c).arrAt 2 cfg0.N = Cert.Spec.refXt (V c main_v8) (V c main_v10) :=
  (dat0 (F := Ideal) V c).arrAt_eq_of_cover 2 (Cert.Spec.refXt (V c main_v8) (V c main_v10))
    (fun t _ => flushed0_eq V c t) cover0

/-! ## Region 1: the product by the transposed adjacency matrix, and the two tables -/

/-- The add-reduction over axis 0 of an m×n tile, read at column p: the sum over j of the entries (j, p); the
    accumulator word is the zero word, the sum's neutral element, and does not appear. -/
theorem colSum_apply {m n : Nat} (src : FVec Ideal ⟨2, ![m, n]⟩ .f32)
    (h : (⟨2, ![m, n]⟩ : Shape).Reduces [(0 : Fin 2)] ⟨1, ![n]⟩) (hφ : FKind.Formats FTy.f32)
    (hacc : (0x00000000#32 : BitVec FTy.f32.bits) = FKind.add.neutral FTy.f32 hφ) (p : Fin n) :
    multiReduction .add [(0 : Fin 2)] ⟨1, ![n]⟩ src 0x00000000#32 h hφ hacc (ix1 p) = ∑ j : Fin m, src (ix2 j p) := by
  refine (Ideal.multiReduction_add_single src 0x00000000#32 h hφ hacc (ix1 p)).trans ?_
  refine Finset.sum_congr rfl fun k _ => congrArg src (funext fun c => Fin.ext ?_)
  rw [h.lift_val]
  match c with
  | ⟨0, _⟩ => simp [Shape.Reduces.liftVal]
  | ⟨1, _⟩ => simp [Shape.Reduces.liftVal]

/-- A vector of length n recast as a 1×n matrix, read at row 0 and column j, is the vector at j: both positions are
    the j-th in row-major order. -/
theorem row_of_reshape {α : Type} {n : Nat} (v : (⟨1, ![n]⟩ : Shape).Idx → α)
    (h : (⟨1, ![n]⟩ : Shape).ShapeCasts ⟨2, ![1, n]⟩) (j : Fin n) :
    shapeCast (⟨2, ![1, n]⟩ : Shape) v h (ix2 (0 : Fin 1) j) = v (ix1 j) := by
  refine shapeCast_apply v h (ix2 (0 : Fin 1) j) (ix1 j) ?_
  rw [Shape.rowMajor_val_one, Shape.rowMajor_val_two]
  show j.val = 0 * n + j.val
  omega

/-- A 256-row tile with two single rows below it, stacked along the rows and read at (r, b): the tile's row r when
    r is below 256, the first single row at r = 256, the second at r = 257. -/
theorem concat3_apply {α : Type} (A : S256x256.Idx → α) (B C : S1x256.Idx → α)
    (h : Shape.Concatenates [S256x256, S1x256, S1x256] S258x256 0) (r : Fin 258) (b : Fin 256) :
    concatenate S258x256 0 [⟨S256x256, A⟩, ⟨S1x256, B⟩, ⟨S1x256, C⟩] h (ix2 r b)
      = if hr : r.val < 256 then A (ix2 (⟨r.val, hr⟩ : Fin 256) b)
        else if r.val = 256 then B (ix2 (0 : Fin 1) b) else C (ix2 (0 : Fin 1) b) := by
  have hr258 := r.isLt
  split
  · next hr =>
    refine concatenate_apply_piece (t := S258x256) (0 : Fin 2) [⟨S256x256, A⟩, ⟨S1x256, B⟩, ⟨S1x256, C⟩] h (ix2 r b)
      0 (by show (0 : Nat) < 3; omega) _ A rfl rfl 0 rfl (ix2 (⟨r.val, hr⟩ : Fin 256) b) ?_ ?_
    · intro ax hax
      match ax with
      | ⟨0, _⟩ => exact absurd rfl hax
      | ⟨1, _⟩ => rfl
    · show 0 + r.val = r.val
      omega
  · next hr =>
    split
    · next h256 =>
      refine concatenate_apply_piece (t := S258x256) (0 : Fin 2) [⟨S256x256, A⟩, ⟨S1x256, B⟩, ⟨S1x256, C⟩] h (ix2 r b)
        1 (by show (1 : Nat) < 3; omega) _ B rfl rfl 256 rfl (ix2 (0 : Fin 1) b) ?_ ?_
      · intro ax hax
        match ax with
        | ⟨0, _⟩ => exact absurd rfl hax
        | ⟨1, _⟩ => rfl
      · show 256 + 0 = r.val
        omega
    · next h256 =>
      refine concatenate_apply_piece (t := S258x256) (0 : Fin 2) [⟨S256x256, A⟩, ⟨S1x256, B⟩, ⟨S1x256, C⟩] h (ix2 r b)
        2 (by show (2 : Nat) < 3; omega) _ C rfl rfl 257 rfl (ix2 (0 : Fin 1) b) ?_ ?_
      · intro ax hax
        match ax with
        | ⟨0, _⟩ => exact absurd rfl hax
        | ⟨1, _⟩ => rfl
      · show 257 + 0 = r.val
        omega

/-- The word 0x3F800000 is the number one. -/
theorem one_f32 : Ideal.ofBits .f32 0x3F800000#32 = 1 := by simp [Ideal.ofBits, Ideal.ieee, -EReal.coe_mul]; norm_num

/-- The product payload at an index: the sum over the 4096 contracted coordinates of the products of the entries. -/
theorem pay1_apply (v0 : Vec Ideal S256x4096 .bf16) (v2 : Vec Ideal S4096x256 .bf16) (a b : Fin 256) :
    k1_pay1 (F := Ideal) v0 v2 (ix2 a b) = ∑ m : Fin 4096, v0 (ix2 a m) * v2 (ix2 m b) := by
  unfold k1_pay1
  simp only [shapeCast_self]
  exact TileOps.matmul_zero_apply _ none v0 v2 a b

/-- The positive part of the product at an index. -/
theorem pay2_apply (v0 : Vec Ideal S256x4096 .bf16) (v2 : Vec Ideal S4096x256 .bf16) (a b : Fin 256) :
    k1_pay2 (F := Ideal) v0 v2 (ix2 a b) = max (k1_pay1 (F := Ideal) v0 v2 (ix2 a b)) 0 := by
  unfold k1_pay2
  show max (k1_pay1 (F := Ideal) v0 v2 (ix2 a b)) (Ideal.ofBits .f32 0x00000000#32) = _
  rw [Ideal.ofBits_zero_f32]

/-- The row of ones at an index. -/
theorem pay3_apply (b : Fin 256) : k1_pay3 (F := Ideal) (ix2 (0 : Fin 1) b) = 1 := by
  unfold k1_pay3
  show Ideal.ofBits .f32 0x3F800000#32 = 1
  exact one_f32

/-- The first table's payload at (r, b): the product's row r scaled by the third column's entry r; at r = 256 the sum
    over the rows of the positive part times the first column; at r = 257 one. -/
theorem pay4_apply (v0 : Vec Ideal S256x4096 .bf16) (v2 : Vec Ideal S4096x256 .bf16) (v7 v20 : Vec Ideal S256x1 .f32)
    (r : Fin 258) (b : Fin 256) :
    k1_pay4 (F := Ideal) v0 v2 v7 v20 (ix2 r b)
      = if hr : r.val < 256 then
          k1_pay1 (F := Ideal) v0 v2 (ix2 (⟨r.val, hr⟩ : Fin 256) b) * v20 (ix2 (⟨r.val, hr⟩ : Fin 256) (0 : Fin 1))
        else if r.val = 256 then ∑ h : Fin 256, k1_pay2 (F := Ideal) v0 v2 (ix2 h b) * v7 (ix2 h (0 : Fin 1))
        else 1 := by
  unfold k1_pay4
  simp only [shapeCast_self]
  rw [truncf_apply]
  refine (concat3_apply _ _ _ _ r b).trans ?_
  split
  · next hr => rw [mulf_apply, Cert.ColForm.broadcastCol_apply, shapeCast_self]
  · split
    · refine (row_of_reshape _ _ b).trans ?_
      refine (colSum_apply _ _ _ _ b).trans ?_
      refine Finset.sum_congr rfl fun h _ => ?_
      rw [mulf_apply, Cert.ColForm.broadcastCol_apply, shapeCast_self]
    · exact pay3_apply b

/-- The second table's payload at (r, b): the product's row r; at r = 256 one; at r = 257 the sum over the rows of
    the positive part times the second column. -/
theorem pay5_apply (v0 : Vec Ideal S256x4096 .bf16) (v2 : Vec Ideal S4096x256 .bf16) (v13 : Vec Ideal S256x1 .f32)
    (r : Fin 258) (b : Fin 256) :
    k1_pay5 (F := Ideal) v0 v2 v13 (ix2 r b)
      = if hr : r.val < 256 then k1_pay1 (F := Ideal) v0 v2 (ix2 (⟨r.val, hr⟩ : Fin 256) b)
        else if r.val = 256 then 1
        else ∑ h : Fin 256, k1_pay2 (F := Ideal) v0 v2 (ix2 h b) * v13 (ix2 h (0 : Fin 1)) := by
  unfold k1_pay5
  simp only [shapeCast_self]
  rw [truncf_apply]
  refine (concat3_apply _ _ _ _ r b).trans ?_
  split
  · rfl
  · split
    · exact pay3_apply b
    · refine (row_of_reshape _ _ b).trans ?_
      refine (colSum_apply _ _ _ _ b).trans ?_
      refine Finset.sum_congr rfl fun h _ => ?_
      rw [mulf_apply, Cert.ColForm.broadcastCol_apply, shapeCast_self]

/-- The printed index maps over the grid: the whole-array windows stay at block (0, 0); the transposed adjacency
    matrix's window and the two outputs move along the columns with the point. -/
theorem idx_facts1 : ∀ t : Fin cfg1.N, win1_0.index t (0 : Fin 2) = 0 ∧ win1_0.index t (1 : Fin 2) = 0
    ∧ win1_1.index t (0 : Fin 2) = 0 ∧ win1_1.index t (1 : Fin 2) = t.val
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = t.val
    ∧ win1_6.index t (0 : Fin 2) = 0 ∧ win1_6.index t (1 : Fin 2) = t.val :=
  (by decide +kernel : ∀ t : Fin grid1.N, _)

/-- The first window's block at any point is the whole first input array. -/
theorem iblk1_0_apply (c : Dev nD) (t : Fin cfg1.N) (a : Fin 256) (m : Fin 4096) :
    (iblk1 V c 0 t : Vec Ideal S256x4096 .bf16) (ix2 a m) = (V c main_v13 : Cert.Spec.M 256 4096) (ix2 a m) := by
  obtain ⟨e0, e1, -⟩ := idx_facts1 t
  show (V c main_v13 : Cert.Spec.M 256 4096) (((cfg1.win 0).blk t).view.emb (ix2 a m)) = _
  congr 1
  funext ax; apply Fin.ext
  match ax with
  | ⟨0, _⟩ =>
    show win1_0.index t (0 : Fin 2) * 256 + 1 * a.val = a.val
    omega
  | ⟨1, _⟩ =>
    show win1_0.index t (1 : Fin 2) * 4096 + 1 * m.val = m.val
    omega

/-- The second window's block at point t is column block t of the transposed adjacency matrix. -/
theorem iblk1_1_apply (c : Dev nD) (t : Fin cfg1.N) (m : Fin 4096) (b : Fin 256) (h : t.val * 256 + b.val < 4096) :
    (iblk1 V c 1 t : Vec Ideal S4096x256 .bf16) (ix2 m b)
      = (V c main_v12 : Cert.Spec.M 4096 4096) (ix2 m (⟨t.val * 256 + b.val, h⟩ : Fin 4096)) := by
  obtain ⟨-, -, e2, e3, -⟩ := idx_facts1 t
  show (V c main_v12 : Cert.Spec.M 4096 4096) (((cfg1.win 1).blk t).view.emb (ix2 m b)) = _
  congr 1
  funext ax; apply Fin.ext
  match ax with
  | ⟨0, _⟩ =>
    show win1_1.index t (0 : Fin 2) * 4096 + 1 * m.val = m.val
    omega
  | ⟨1, _⟩ =>
    show win1_1.index t (1 : Fin 2) * 256 + 1 * b.val = t.val * 256 + b.val
    omega

/-- The third window's block at any point is the whole first weight column. -/
theorem iblk1_2_apply (c : Dev nD) (t : Fin cfg1.N) (k : Fin 256) :
    (iblk1 V c 2 t : Vec Ideal S256x1 .f32) (ix2 k (0 : Fin 1)) = (V c main_v2 : Cert.Spec.M 256 1) (ix2 k (0 : Fin 1)) := by
  obtain ⟨-, -, -, -, e4, e5, -⟩ := idx_facts1 t
  show (V c main_v2 : Cert.Spec.M 256 1) (((cfg1.win 2).blk t).view.emb (ix2 k (0 : Fin 1))) = _
  congr 1
  funext ax; apply Fin.ext
  match ax with
  | ⟨0, _⟩ =>
    show win1_2.index t (0 : Fin 2) * 256 + 1 * k.val = k.val
    omega
  | ⟨1, _⟩ =>
    show win1_2.index t (1 : Fin 2) * 1 + 1 * 0 = 0
    omega

/-- The fourth window's block at any point is the whole second weight column. -/
theorem iblk1_3_apply (c : Dev nD) (t : Fin cfg1.N) (k : Fin 256) :
    (iblk1 V c 3 t : Vec Ideal S256x1 .f32) (ix2 k (0 : Fin 1)) = (V c main_v5 : Cert.Spec.M 256 1) (ix2 k (0 : Fin 1)) := by
  obtain ⟨-, -, -, -, -, -, e6, e7, -⟩ := idx_facts1 t
  show (V c main_v5 : Cert.Spec.M 256 1) (((cfg1.win 3).blk t).view.emb (ix2 k (0 : Fin 1))) = _
  congr 1
  funext ax; apply Fin.ext
  match ax with
  | ⟨0, _⟩ =>
    show win1_3.index t (0 : Fin 2) * 256 + 1 * k.val = k.val
    omega
  | ⟨1, _⟩ =>
    show win1_3.index t (1 : Fin 2) * 1 + 1 * 0 = 0
    omega

/-- The fifth window's block at any point is the whole third weight column. -/
theorem iblk1_4_apply (c : Dev nD) (t : Fin cfg1.N) (k : Fin 256) :
    (iblk1 V c 4 t : Vec Ideal S256x1 .f32) (ix2 k (0 : Fin 1)) = (V c main_v6 : Cert.Spec.M 256 1) (ix2 k (0 : Fin 1)) := by
  obtain ⟨-, -, -, -, -, -, -, -, e8, e9, -⟩ := idx_facts1 t
  show (V c main_v6 : Cert.Spec.M 256 1) (((cfg1.win 4).blk t).view.emb (ix2 k (0 : Fin 1))) = _
  congr 1
  funext ax; apply Fin.ext
  match ax with
  | ⟨0, _⟩ =>
    show win1_4.index t (0 : Fin 2) * 256 + 1 * k.val = k.val
    omega
  | ⟨1, _⟩ =>
    show win1_4.index t (1 : Fin 2) * 1 + 1 * 0 = 0
    omega

/-- The product of the blocks at point t, at (a, b), is the product of the arrays at (a, 256 t + b). -/
theorem zt_blk (c : Dev nD) (t : Fin cfg1.N) (a b : Fin 256) (h : t.val * 256 + b.val < 4096) :
    k1_pay1 (F := Ideal) (iblk1 V c 0 t) (iblk1 V c 1 t) (ix2 a b)
      = Cert.Spec.refZt (V c main_v13) (V c main_v12) a (⟨t.val * 256 + b.val, h⟩ : Fin 4096) := by
  rw [pay1_apply]
  unfold Cert.Spec.refZt
  refine Finset.sum_congr rfl fun m _ => ?_
  rw [iblk1_0_apply V c t a m, iblk1_1_apply V c t m b h]

/-- The first table's form at explicit coordinates. -/
theorem refTi_ix2 (xt : Cert.Spec.M 256 4096) (adjt : Cert.Spec.M 4096 4096) (v2a w3b : Cert.Spec.M 256 1)
    (r : Fin 258) (n : Fin 4096) :
    Cert.Spec.refTi xt adjt v2a w3b (ix2 r n)
      = if hr : r.val < 256 then
          Cert.Spec.refZt xt adjt (⟨r.val, hr⟩ : Fin 256) n * w3b (ix2 (⟨r.val, hr⟩ : Fin 256) (0 : Fin 1))
        else if r.val = 256 then ∑ k : Fin 256, max (Cert.Spec.refZt xt adjt k n) 0 * v2a (ix2 k (0 : Fin 1))
        else 1 := rfl

/-- The second table's form at explicit coordinates. -/
theorem refTj_ix2 (xt : Cert.Spec.M 256 4096) (adjt : Cert.Spec.M 4096 4096) (v2b : Cert.Spec.M 256 1)
    (r : Fin 258) (n : Fin 4096) :
    Cert.Spec.refTj xt adjt v2b (ix2 r n)
      = if hr : r.val < 256 then Cert.Spec.refZt xt adjt (⟨r.val, hr⟩ : Fin 256) n
        else if r.val = 256 then 1
        else ∑ k : Fin 256, max (Cert.Spec.refZt xt adjt k n) 0 * v2b (ix2 k (0 : Fin 1)) := rfl

/-- Where element (r, b) of an output block at point t sits in the output table: row r, column 256 t + b. -/
theorem emb1_5 (t : Fin cfg1.N) (r : Fin 258) (b : Fin 256) (h : t.val * 256 + b.val < 4096) :
    ((cfg1.win 5).blk t).view.emb (ix2 r b) = (ix2 r (⟨t.val * 256 + b.val, h⟩ : Fin 4096) : S258x4096.Idx) := by
  obtain ⟨-, -, -, -, -, -, -, -, -, -, e10, e11, -⟩ := idx_facts1 t
  funext ax; apply Fin.ext
  match ax with
  | ⟨0, _⟩ =>
    show win1_5.index t (0 : Fin 2) * 258 + 1 * r.val = r.val
    omega
  | ⟨1, _⟩ =>
    show win1_5.index t (1 : Fin 2) * 256 + 1 * b.val = t.val * 256 + b.val
    omega

theorem emb1_6 (t : Fin cfg1.N) (r : Fin 258) (b : Fin 256) (h : t.val * 256 + b.val < 4096) :
    ((cfg1.win 6).blk t).view.emb (ix2 r b) = (ix2 r (⟨t.val * 256 + b.val, h⟩ : Fin 4096) : S258x4096.Idx) := by
  obtain ⟨-, -, -, -, -, -, -, -, -, -, -, -, e12, e13⟩ := idx_facts1 t
  funext ax; apply Fin.ext
  match ax with
  | ⟨0, _⟩ =>
    show win1_6.index t (0 : Fin 2) * 258 + 1 * r.val = r.val
    omega
  | ⟨1, _⟩ =>
    show win1_6.index t (1 : Fin 2) * 256 + 1 * b.val = t.val * 256 + b.val
    omega

/-- What point t writes back to the first table is block t of its form. -/
theorem flushed1_5_eq (c : Dev nD) (t : Fin cfg1.N) :
    (dat1 (F := Ideal) V c).flushed 5 t
      = ((cfg1.win 5).blk t).view.read (Elt Ideal)
          (Cert.Spec.refTi (V c main_v13) (V c main_v12) (V c main_v2) (V c main_v6)) := by
  show (cfg1.win 5).cut (grid1.coords t) ((dat1 V c).after 5 t) = _
  rw [after1_5]
  unfold out1_5
  rw [View.canon_unit_zero hz]
  simp only [View.ld_unit_zero (S := S256x4096) hz, View.ld_unit_zero (S := S4096x256) hz, View.ld_unit_zero (S := S256x1) hz]
  have ht : t.val < 16 := lt_of_lt_of_eq t.isLt (N_1 : cfg1.N = 16)
  funext j
  revert j
  show ∀ j : S258x256.Idx, k1_pay4 (iblk1 V c 0 t) (iblk1 V c 1 t) (iblk1 V c 2 t) (iblk1 V c 4 t) j
      = Cert.Spec.refTi (V c main_v13) (V c main_v12) (V c main_v2) (V c main_v6) (((cfg1.win 5).blk t).view.emb j)
  intro j
  obtain ⟨r, b, rfl⟩ : ∃ (r : Fin 258) (b : Fin 256), j = ix2 r b := ⟨j 0, j 1, eq_ix2 j⟩
  have hlt : t.val * 256 + b.val < 4096 := by have := b.isLt; omega
  rw [emb1_5 t r b hlt, pay4_apply, refTi_ix2]
  by_cases hr : r.val < 256
  · rw [dif_pos hr, dif_pos hr, zt_blk V c t ⟨r.val, hr⟩ b hlt, iblk1_4_apply V c t ⟨r.val, hr⟩]
  · rw [dif_neg hr, dif_neg hr]
    by_cases h256 : r.val = 256
    · rw [if_pos h256, if_pos h256]
      refine Finset.sum_congr rfl fun k _ => ?_
      rw [pay2_apply, zt_blk V c t k b hlt, iblk1_2_apply V c t k]
    · rw [if_neg h256, if_neg h256]

/-- What point t writes back to the second table is block t of its form. -/
theorem flushed1_6_eq (c : Dev nD) (t : Fin cfg1.N) :
    (dat1 (F := Ideal) V c).flushed 6 t
      = ((cfg1.win 6).blk t).view.read (Elt Ideal)
          (Cert.Spec.refTj (V c main_v13) (V c main_v12) (V c main_v5)) := by
  show (cfg1.win 6).cut (grid1.coords t) ((dat1 V c).after 6 t) = _
  rw [after1_6]
  unfold out1_6
  rw [View.canon_unit_zero hz]
  simp only [View.ld_unit_zero (S := S256x4096) hz, View.ld_unit_zero (S := S4096x256) hz, View.ld_unit_zero (S := S256x1) hz]
  have ht : t.val < 16 := lt_of_lt_of_eq t.isLt (N_1 : cfg1.N = 16)
  funext j
  revert j
  show ∀ j : S258x256.Idx, k1_pay5 (iblk1 V c 0 t) (iblk1 V c 1 t) (iblk1 V c 3 t) j
      = Cert.Spec.refTj (V c main_v13) (V c main_v12) (V c main_v5) (((cfg1.win 6).blk t).view.emb j)
  intro j
  obtain ⟨r, b, rfl⟩ : ∃ (r : Fin 258) (b : Fin 256), j = ix2 r b := ⟨j 0, j 1, eq_ix2 j⟩
  have hlt : t.val * 256 + b.val < 4096 := by have := b.isLt; omega
  rw [emb1_6 t r b hlt, pay5_apply, refTj_ix2]
  by_cases hr : r.val < 256
  · rw [dif_pos hr, dif_pos hr, zt_blk V c t ⟨r.val, hr⟩ b hlt]
  · rw [dif_neg hr, dif_neg hr]
    by_cases h256 : r.val = 256
    · rw [if_pos h256, if_pos h256]
    · rw [if_neg h256, if_neg h256]
      refine Finset.sum_congr rfl fun k _ => ?_
      rw [pay2_apply, zt_blk V c t k b hlt, iblk1_3_apply V c t k]

/-- An index of the first table is in point t's block iff each coordinate is in the block's range on its axis. -/
theorem mem_blk1_5 (t : Fin cfg1.N) (i : S258x4096.Idx) :
    i ∈ ((cfg1.win 5).blk t).view.set ↔ ∀ a : Fin 2, win1_5.index t a * S258x256.size a ≤ (i a).val
      ∧ (i a).val < win1_5.index t a * S258x256.size a + S258x256.size a := by
  show i ∈ ((View.whole main_v14_0).slice (win1_5.rect t)).set ↔ _
  rw [View.set_slice_whole, Rect.mem_set_unit]
  exact Iff.rfl

/-- The same for the second table. -/
theorem mem_blk1_6 (t : Fin cfg1.N) (i : S258x4096.Idx) :
    i ∈ ((cfg1.win 6).blk t).view.set ↔ ∀ a : Fin 2, win1_6.index t a * S258x256.size a ≤ (i a).val
      ∧ (i a).val < win1_6.index t a * S258x256.size a + S258x256.size a := by
  show i ∈ ((View.whole main_v14_1).slice (win1_6.rect t)).set ↔ _
  rw [View.set_slice_whole, Rect.mem_set_unit]
  exact Iff.rfl

/-- Every index of the first table is in the block of the point its column falls in. -/
theorem cover1_5i (i : S258x4096.Idx) : ∃ t : Fin cfg1.N, (cfg1.win 5).flush t = true ∧ i ∈ ((cfg1.win 5).blk t).view.set := by
  have hi0 : (i 0).val < 258 := (i 0).isLt
  have hi1 : (i 1).val < 4096 := (i 1).isLt
  have hN : cfg1.N = 16 := N_1
  obtain ⟨t, htv⟩ : ∃ t : Fin cfg1.N, t.val = (i 1).val / 256 := ⟨⟨(i 1).val / 256, by rw [hN]; omega⟩, rfl⟩
  obtain ⟨-, -, -, -, -, -, -, -, -, -, e10, e11, -⟩ := idx_facts1 t
  refine ⟨t, flush1_5 t, ?_⟩
  rw [mem_blk1_5]
  intro a
  match a with
  | ⟨0, _⟩ =>
    show win1_5.index t (0 : Fin 2) * 258 ≤ (i 0).val ∧ (i 0).val < win1_5.index t (0 : Fin 2) * 258 + 258
    omega
  | ⟨1, _⟩ =>
    show win1_5.index t (1 : Fin 2) * 256 ≤ (i 1).val ∧ (i 1).val < win1_5.index t (1 : Fin 2) * 256 + 256
    omega

/-- The same for the second table. -/
theorem cover1_6i (i : S258x4096.Idx) : ∃ t : Fin cfg1.N, (cfg1.win 6).flush t = true ∧ i ∈ ((cfg1.win 6).blk t).view.set := by
  have hi0 : (i 0).val < 258 := (i 0).isLt
  have hi1 : (i 1).val < 4096 := (i 1).isLt
  have hN : cfg1.N = 16 := N_1
  obtain ⟨t, htv⟩ : ∃ t : Fin cfg1.N, t.val = (i 1).val / 256 := ⟨⟨(i 1).val / 256, by rw [hN]; omega⟩, rfl⟩
  obtain ⟨-, -, -, -, -, -, -, -, -, -, -, -, e12, e13⟩ := idx_facts1 t
  refine ⟨t, flush1_6 t, ?_⟩
  rw [mem_blk1_6]
  intro a
  match a with
  | ⟨0, _⟩ =>
    show win1_6.index t (0 : Fin 2) * 258 ≤ (i 0).val ∧ (i 0).val < win1_6.index t (0 : Fin 2) * 258 + 258
    omega
  | ⟨1, _⟩ =>
    show win1_6.index t (1 : Fin 2) * 256 ≤ (i 1).val ∧ (i 1).val < win1_6.index t (1 : Fin 2) * 256 + 256
    omega

/-- After region 1 the first table holds its form of the arrays the region reads. -/
theorem ref_ti (c : Dev nD) :
    (dat1 (F := Ideal) V c).arrAt 5 cfg1.N
      = Cert.Spec.refTi (V c main_v13) (V c main_v12) (V c main_v2) (V c main_v6) :=
  (dat1 (F := Ideal) V c).arrAt_eq_of_cover 5 (Cert.Spec.refTi (V c main_v13) (V c main_v12) (V c main_v2) (V c main_v6))
    (fun t _ => flushed1_5_eq V c t) cover1_5i

/-- After region 1 the second table holds its form of the arrays the region reads. -/
theorem ref_tj (c : Dev nD) :
    (dat1 (F := Ideal) V c).arrAt 6 cfg1.N
      = Cert.Spec.refTj (V c main_v13) (V c main_v12) (V c main_v5) :=
  (dat1 (F := Ideal) V c).arrAt_eq_of_cover 6 (Cert.Spec.refTj (V c main_v13) (V c main_v12) (V c main_v5))
    (fun t _ => flushed1_6_eq V c t) cover1_6i

end Cert.ReferenceIdeal.RefVal01

end
-- ==== Proof.SpecRef2.lean ====
/-
  The reference's edge decoder as a function of its four input arrays.

  For an edge, each endpoint's index word selects one column of a 258×4096 table: row r of the table times the one-hot
  column of the word, summed over the 4096 nodes. The edge's logit is the sum over the 258 rows of the product of the
  two gathered entries, and its output the logistic function of the logit. Edge number q·256 + b sits at (q, 0, b) of
  the 64×1×256 output.
-/
import Idealize.ShloMosaic.PureOps.Ideal
import Idealize.ShloMosaic.Lib.ValueIdx
import proofs.«164407_g2000604642866785_pallasbulk_226_8_alg».proof.Proof.SpecBase

noncomputable section

open scoped BigOperators

namespace Cert.Spec

open Idealize.ShloMosaic Idealize.ShloMosaic.ValueIdx

/-- Row `r` of the table gathered at the index word `v`: the row times the one-hot column of `v`, summed over the nodes. -/
def refGather (tab : M 258 4096) (v : BitVec 32) (r : Fin 258) : EReal := ∑ n : Fin 4096, tab (ix2 r n) * hot v n

/-- The logit of an edge with endpoint words `vi`, `vj`: the sum over the rows of the products of the two gathered entries. -/
def refLogit (ti tj : M 258 4096) (vi vj : BitVec 32) : EReal := ∑ r : Fin 258, refGather ti vi r * refGather tj vj r

/-- The number of the edge whose output sits at index `i` of the 64×1×256 array: 256 edges per leading coordinate. -/
def refEdge (i : (⟨3, ![64, 1, 256]⟩ : Shape).Idx) : Fin 16384 :=
  ⟨(i 0).val * 256 + (i 2).val, by
    have h0 : (i 0).val < 64 := (i 0).isLt
    have h2 : (i 2).val < 256 := (i 2).isLt
    omega⟩

/-- The decoder's output array: at each index the logistic function of its edge's logit, the endpoint words read from
    the two 1×16384 index rows. -/
def refOut (ei ej : IM 1 16384) (ti tj : M 258 4096) : (⟨3, ![64, 1, 256]⟩ : Shape).Idx → EReal :=
  fun i => Ideal.logistic (refLogit ti tj (ei (ix2 0 (refEdge i))) (ej (ix2 0 (refEdge i))))

end Cert.Spec

end
-- ==== Proof.RefVal2.lean ====
/-
  The value of the reference's edge decoder at the ideal values: after its 64 grid points the output array holds, at
  each index, the logistic function of its edge's logit, as the specification states it from the region's four inputs.

  The body at a point builds, for each endpoint, the one-hot tile of the point's 256 index words against the 4096 node
  numbers, multiplies each 258×4096 table by its tile (so column b of the product is the table's column named by word
  b), multiplies the two products entry by entry, sums the 258 rows and applies the logistic function. Point t reads
  columns t·256 … t·256+255 of the two index rows and writes block (t, 0, 0) of the 64×1×256 output; the 64 blocks
  cover the output.
-/
import proofs.«164407_g2000604642866785_pallasbulk_226_8_alg».proof.Proof.Gen.ReferenceIdeal.Frame
import Idealize.ShloMosaic.Lib.Pipeline.Value
import Idealize.ShloMosaic.PureOps.Ideal.Laws
import proofs.«164407_g2000604642866785_pallasbulk_226_8_alg».proof.Proof.LibTileOps
import proofs.«164407_g2000604642866785_pallasbulk_226_8_alg».proof.Proof.SpecRef2

noncomputable section

open scoped BigOperators

namespace Cert.ReferenceIdeal.RefVal2

open Cert.ReferenceIdeal Cert.ReferenceIdeal.Gen Idealize.ShloMosaic Idealize.ShloMosaic.TcCoe Idealize.SL.Sem
open Idealize.ShloMosaic.Pipeline (Dat)
open Idealize.ShloMosaic.ValueIdx

/-! ## The body's operations read at an index -/

/-- The float of the comparison bit widened to a word: one when the words are equal, else zero. -/
theorem sitofp_eq_bit (x w : BitVec 32) :
    (FloatOps.sitofp (F := Ideal) .f32 ((IntOp.cmpi .eq x w).setWidth 32) : EReal) = if x = w then 1 else 0 := by
  by_cases h : x = w
  · subst h
    rw [if_pos rfl]
    show (((BitVec.setWidth 32 (BitVec.ofBool (x == x))).toInt : ℝ) : EReal) = 1
    rw [show (x == x) = true from beq_self_eq_true x,
      show (BitVec.setWidth 32 (BitVec.ofBool true)).toInt = 1 by decide]
    simp
  · rw [if_neg h]
    show (((BitVec.setWidth 32 (BitVec.ofBool (x == w))).toInt : ℝ) : EReal) = 0
    rw [show (x == w) = false from beq_eq_false_iff_ne.mpr h,
      show (BitVec.setWidth 32 (BitVec.ofBool false)).toInt = 0 by decide]
    simp

/-- The add-reduction over axis 0 of an m×n tile, read at column p: the sum over the rows k of the entries (k, p). -/
theorem colSum_apply {m n : Nat} (src : FVec Ideal ⟨2, ![m, n]⟩ .f32)
    (h : (⟨2, ![m, n]⟩ : Shape).Reduces [(0 : Fin 2)] ⟨1, ![n]⟩) (hφ : FKind.Formats FTy.f32)
    (hacc : (0x00000000#32 : BitVec FTy.f32.bits) = FKind.add.neutral FTy.f32 hφ) (p : Fin n) :
    multiReduction .add [(0 : Fin 2)] ⟨1, ![n]⟩ src 0x00000000#32 h hφ hacc (ix1 p) = ∑ k : Fin m, src (ix2 k p) := by
  refine (Ideal.multiReduction_add_single src 0x00000000#32 h hφ hacc (ix1 p)).trans ?_
  refine Finset.sum_congr rfl fun k _ => congrArg src (funext fun c => Fin.ext ?_)
  rw [h.lift_val]
  match c with
  | ⟨0, _⟩ => simp [Shape.Reduces.liftVal]
  | ⟨1, _⟩ => simp [Shape.Reduces.liftVal]

/-- The one-hot tile of an index row: entry (n, b) is one when node n's number is the row's word b, else zero. -/
theorem onehot_apply (v : Vec Ideal S1x256 .i32) (n : Fin 4096) (b : Fin 256) :
    (truncf .bf16 (sitofp (F := Ideal) .f32 (extui 32 (cmpi .eq (iota .tc S4096x256 32 [0] iota_S4096x256_d0_w32)
        (broadcastTo S4096x256 (shapeCast S1x256 v shapeCasts_S1x256_S1x256) broadcasts_S1x256_S4096x256)) natLt_1_32))
        bitsLt_bf16_f32 : FVec Ideal S4096x256 .bf16) (ix2 n b)
      = Cert.Spec.hot (v (ix2 0 b)) n := by
  show FloatOps.sitofp (F := Ideal) .f32 ((IntOp.cmpi .eq (iota .tc S4096x256 32 [0] iota_S4096x256_d0_w32 (ix2 n b))
      (broadcastTo S4096x256 (shapeCast S1x256 v shapeCasts_S1x256_S1x256) broadcasts_S1x256_S4096x256 (ix2 n b))).setWidth 32) = _
  rw [iota_single_apply, TileOps.broadcastRow_apply, shapeCast_self, sitofp_eq_bit]
  rfl

/-- A 258×4096 table times the one-hot tile of an index row, into the zero tile, at (r, b): row r of the table gathered
    at the row's word b. -/
theorem gather_apply (tab : Vec Ideal S258x4096 .bf16) (v : Vec Ideal S1x256 .i32) (r : Fin 258) (b : Fin 256) :
    matmul dot_S258x4096_S4096x256_S258x256_1_0_0_1_n_n none
        (shapeCast S258x4096 tab shapeCasts_S258x4096_S258x4096 : FVec Ideal S258x4096 .bf16)
        (truncf .bf16 (sitofp (F := Ideal) .f32 (extui 32 (cmpi .eq (iota .tc S4096x256 32 [0] iota_S4096x256_d0_w32)
        (broadcastTo S4096x256 (shapeCast S1x256 v shapeCasts_S1x256_S1x256) broadcasts_S1x256_S4096x256)) natLt_1_32))
        bitsLt_bf16_f32 : FVec Ideal S4096x256 .bf16)
        (constant S258x256 .f32 0x00000000#32) (ix2 r b)
      = Cert.Spec.refGather tab (v (ix2 0 b)) r := by
  refine (TileOps.matmul_zero_apply dot_S258x4096_S4096x256_S258x256_1_0_0_1_n_n_wf none _ _ r b).trans ?_
  unfold Cert.Spec.refGather
  refine Finset.sum_congr rfl fun n _ => ?_
  rw [onehot_apply, shapeCast_self]

/-- The decoder's body at index (0, 0, b) of its 1×1×256 result: the logistic function of the logit of the edge whose
    endpoint words are the two index rows' entries b. -/
theorem pay_apply (x0 x1 : Vec Ideal S1x256 .i32) (x2 x3 : Vec Ideal S258x4096 .bf16) (b : Fin 256) :
    k2_pay1 (F := Ideal) x0 x1 x2 x3 (ix3 (0 : Fin 1) (0 : Fin 1) b)
      = Ideal.logistic (Cert.Spec.refLogit x2 x3 (x0 (ix2 0 b)) (x1 (ix2 0 b))) := by
  unfold k2_pay1
  refine (shapeCast_addUnit_apply (d := ![1, 256]) _ _ (ix3 (0 : Fin 1) (0 : Fin 1) b)).trans ?_
  refine congrArg Ideal.logistic ?_
  refine (shapeCast_addUnit_apply (d := ![256]) _ _ _).trans ?_
  have e : (fun a : Fin 1 => (fun a : Fin 2 => ix3 (0 : Fin 1) (0 : Fin 1) b a.succ) a.succ) = ix1 b := by
    funext a; match a with | ⟨0, _⟩ => rfl
  rw [e]
  refine (colSum_apply _ reduces_S258x256_S256 _ _ b).trans ?_
  unfold Cert.Spec.refLogit
  refine Finset.sum_congr rfl fun r _ => ?_
  rw [mulf_apply, gather_apply, gather_apply]

/-! ## The blocks, what a point writes back, and the whole array -/

variable (V : (c : Dev nD) → (b : Ref sig .tc) → Buf (Elt Ideal) ((c : Thread nD τ).loc b))

theorem hz2 : (![0, 0] : Fin 2 → Nat) = fun _ => 0 := funext fun a => by fin_cases a <;> rfl
theorem hz3 : (![0, 0, 0] : Fin 3 → Nat) = fun _ => 0 := funext fun a => by fin_cases a <;> rfl

/-- The printed index maps, decided over the grid: at point t the index rows' block is column block t, the tables are
    whole, and the output's block is (t, 0, 0). -/
theorem idx_facts : ∀ t : Fin cfg2.N,
    win2_0.index t (0 : Fin 2) = 0 ∧ win2_0.index t (1 : Fin 2) = t.val
    ∧ win2_1.index t (0 : Fin 2) = 0 ∧ win2_1.index t (1 : Fin 2) = t.val
    ∧ win2_2.index t (0 : Fin 2) = 0 ∧ win2_2.index t (1 : Fin 2) = 0
    ∧ win2_3.index t (0 : Fin 2) = 0 ∧ win2_3.index t (1 : Fin 2) = 0
    ∧ win2_4.index t (0 : Fin 3) = t.val ∧ win2_4.index t (1 : Fin 3) = 0 ∧ win2_4.index t (2 : Fin 3) = 0 :=
  (by decide +kernel : ∀ t : Fin grid2.N, _)

/-- The first table's block at any point is the whole table. -/
theorem blk2_eq (c : Dev nD) (t : Fin cfg2.N) : iblk2 V c 2 t = V c main_v14_0 := by
  obtain ⟨-, -, -, -, e0, e1, -⟩ := idx_facts t
  funext y
  show V c main_v14_0 (((cfg2.win 2).blk t).view.emb y) = V c main_v14_0 y
  refine congrArg (V c main_v14_0) (funext fun a => Fin.ext ?_)
  match a with
  | ⟨0, _⟩ => show win2_2.index t (0 : Fin 2) * 258 + 1 * (y 0).val = (y 0).val; omega
  | ⟨1, _⟩ => show win2_2.index t (1 : Fin 2) * 4096 + 1 * (y 1).val = (y 1).val; omega

/-- The second table's block at any point is the whole table. -/
theorem blk3_eq (c : Dev nD) (t : Fin cfg2.N) : iblk2 V c 3 t = V c main_v14_1 := by
  obtain ⟨-, -, -, -, -, -, e0, e1, -⟩ := idx_facts t
  funext y
  show V c main_v14_1 (((cfg2.win 3).blk t).view.emb y) = V c main_v14_1 y
  refine congrArg (V c main_v14_1) (funext fun a => Fin.ext ?_)
  match a with
  | ⟨0, _⟩ => show win2_3.index t (0 : Fin 2) * 258 + 1 * (y 0).val = (y 0).val; omega
  | ⟨1, _⟩ => show win2_3.index t (1 : Fin 2) * 4096 + 1 * (y 1).val = (y 1).val; omega

/-- The edge whose output sits at (0, 0, b) of point t's output block is edge t·256 + b. -/
theorem edge_emb (t : Fin cfg2.N) (b : Fin 256) :
    (Cert.Spec.refEdge (((cfg2.win 4).blk t).view.emb (ix3 (0 : Fin 1) (0 : Fin 1) b))).val = t.val * 256 + b.val := by
  obtain ⟨-, -, -, -, -, -, -, -, e0, -, e2⟩ := idx_facts t
  show (win2_4.index t (0 : Fin 3) * 1 + 1 * 0) * 256 + (win2_4.index t (2 : Fin 3) * 256 + 1 * b.val) = t.val * 256 + b.val
  omega

/-- Entry b of the first index row's block at point t is the row's entry t·256 + b: the first endpoint of the edge whose
    output sits at (0, 0, b) of the point's output block. -/
theorem blk0_apply (c : Dev nD) (t : Fin cfg2.N) (b : Fin 256) :
    iblk2 V c 0 t (ix2 0 b)
      = V c main_v19 (ix2 0 (Cert.Spec.refEdge (((cfg2.win 4).blk t).view.emb (ix3 (0 : Fin 1) (0 : Fin 1) b)))) := by
  obtain ⟨e0, e1, -⟩ := idx_facts t
  have ee := edge_emb t b
  show V c main_v19 (((cfg2.win 0).blk t).view.emb (ix2 0 b)) = _
  refine congrArg (V c main_v19) (funext fun a => Fin.ext ?_)
  match a with
  | ⟨0, _⟩ => show win2_0.index t (0 : Fin 2) * 1 + 1 * 0 = 0; omega
  | ⟨1, _⟩ =>
    show win2_0.index t (1 : Fin 2) * 256 + 1 * b.val = (Cert.Spec.refEdge (((cfg2.win 4).blk t).view.emb (ix3 (0 : Fin 1) (0 : Fin 1) b))).val
    omega

/-- Likewise for the second index row: the edge's second endpoint. -/
theorem blk1_apply (c : Dev nD) (t : Fin cfg2.N) (b : Fin 256) :
    iblk2 V c 1 t (ix2 0 b)
      = V c main_v23 (ix2 0 (Cert.Spec.refEdge (((cfg2.win 4).blk t).view.emb (ix3 (0 : Fin 1) (0 : Fin 1) b)))) := by
  obtain ⟨-, -, e0, e1, -⟩ := idx_facts t
  have ee := edge_emb t b
  show V c main_v23 (((cfg2.win 1).blk t).view.emb (ix2 0 b)) = _
  refine congrArg (V c main_v23) (funext fun a => Fin.ext ?_)
  match a with
  | ⟨0, _⟩ => show win2_1.index t (0 : Fin 2) * 1 + 1 * 0 = 0; omega
  | ⟨1, _⟩ =>
    show win2_1.index t (1 : Fin 2) * 256 + 1 * b.val = (Cert.Spec.refEdge (((cfg2.win 4).blk t).view.emb (ix3 (0 : Fin 1) (0 : Fin 1) b))).val
    omega

/-- An index of the 1×1×256 block is (0, 0, b) for its last coordinate b. -/
theorem idx3_eq (j : S1x1x256.Idx) : ∃ b : Fin 256, j = ix3 (0 : Fin 1) (0 : Fin 1) b := by
  refine ⟨⟨(j 2).val, (j 2).isLt⟩, funext fun a => Fin.ext ?_⟩
  match a with
  | ⟨0, _⟩ => have h : (j 0).val < 1 := (j 0).isLt; show (j 0).val = 0; omega
  | ⟨1, _⟩ => have h : (j 1).val < 1 := (j 1).isLt; show (j 1).val = 0; omega
  | ⟨2, _⟩ => rfl

/-- What point t writes back is block t of the specification's output array. -/
theorem flushed_eq (c : Dev nD) (t : Fin cfg2.N) :
    (dat2 (F := Ideal) V c).flushed 4 t
      = ((cfg2.win 4).blk t).view.read (Elt Ideal)
          (Cert.Spec.refOut (V c main_v19) (V c main_v23) (V c main_v14_0) (V c main_v14_1)) := by
  show (cfg2.win 4).cut (grid2.coords t) ((dat2 (F := Ideal) V c).after 4 t) = _
  rw [after2_4]
  unfold out2_4
  rw [View.canon_unit_zero hz3]
  simp only [View.ld_unit_zero (S := S1x256) hz2, View.ld_unit_zero (S := S258x4096) hz2]
  rw [blk2_eq, blk3_eq]
  funext j
  obtain ⟨b, rfl⟩ := idx3_eq j
  show k2_pay1 (F := Ideal) (iblk2 V c 0 t) (iblk2 V c 1 t) (V c main_v14_0) (V c main_v14_1) (ix3 (0 : Fin 1) (0 : Fin 1) b)
    = Cert.Spec.refOut (V c main_v19) (V c main_v23) (V c main_v14_0) (V c main_v14_1)
        (((cfg2.win 4).blk t).view.emb (ix3 (0 : Fin 1) (0 : Fin 1) b))
  rw [pay_apply, blk0_apply, blk1_apply]
  rfl

/-- An index of the output array is in point t's block iff each coordinate is in the block's range on its axis. -/
theorem mem_blk4 (t : Fin cfg2.N) (i : S64x1x256.Idx) :
    i ∈ ((cfg2.win 4).blk t).view.set ↔ ∀ a : Fin 3, win2_4.index t a * S1x1x256.size a ≤ (i a).val
      ∧ (i a).val < win2_4.index t a * S1x1x256.size a + S1x1x256.size a := by
  show i ∈ ((View.whole main_v24).slice (win2_4.rect t)).set ↔ _
  rw [View.set_slice_whole, Rect.mem_set_unit]
  exact Iff.rfl

/-- Every index of the output array is in the block of the point its leading coordinate names. -/
theorem covered (i : S64x1x256.Idx) :
    ∃ t : Fin cfg2.N, (cfg2.win 4).flush t = true ∧ i ∈ ((cfg2.win 4).blk t).view.set := by
  have h0 : (i 0).val < 64 := (i 0).isLt
  have h1 : (i 1).val < 1 := (i 1).isLt
  have h2 : (i 2).val < 256 := (i 2).isLt
  have hN : (i 0).val < cfg2.N := by rw [show cfg2.N = 64 from N_2]; exact h0
  obtain ⟨-, -, -, -, -, -, -, -, e0, e1, e2⟩ := idx_facts ⟨(i 0).val, hN⟩
  have e0' : win2_4.index ⟨(i 0).val, hN⟩ (0 : Fin 3) = (i 0).val := e0
  refine ⟨⟨(i 0).val, hN⟩, flush2_4 _, ?_⟩
  rw [mem_blk4]
  intro a
  match a with
  | ⟨0, _⟩ =>
    show win2_4.index ⟨(i 0).val, hN⟩ (0 : Fin 3) * 1 ≤ (i 0).val ∧ (i 0).val < win2_4.index ⟨(i 0).val, hN⟩ (0 : Fin 3) * 1 + 1
    omega
  | ⟨1, _⟩ =>
    show win2_4.index ⟨(i 0).val, hN⟩ (1 : Fin 3) * 1 ≤ (i 1).val ∧ (i 1).val < win2_4.index ⟨(i 0).val, hN⟩ (1 : Fin 3) * 1 + 1
    omega
  | ⟨2, _⟩ =>
    show win2_4.index ⟨(i 0).val, hN⟩ (2 : Fin 3) * 256 ≤ (i 2).val ∧ (i 2).val < win2_4.index ⟨(i 0).val, hN⟩ (2 : Fin 3) * 256 + 256
    omega

/-- After the decoder's run its output array is the specification's function of the four arrays it reads. -/
theorem ref_out (c : Dev nD) :
    (dat2 (F := Ideal) V c).arrAt 4 cfg2.N
      = Cert.Spec.refOut (V c main_v19) (V c main_v23) (V c main_v14_0) (V c main_v14_1) :=
  (dat2 (F := Ideal) V c).arrAt_eq_of_cover 4 _ (fun t _ => flushed_eq V c t) covered

end Cert.ReferenceIdeal.RefVal2

end
-- ==== Proof.BridgeLemmas.lean ====
/-
  Small facts for joining the two programs' results: a one-hot weighted sum over the nodes picks the entry at the index
  word when the word names a node; a sum over 258 table rows is the sum over the first 256 plus the last two entries; the
  logistic function is one over one plus the exponential of the negated argument, the negation written as a difference
  from zero.
-/
import proofs.«164407_g2000604642866785_pallasbulk_226_8_alg».proof.Proof.SpecBase

noncomputable section

open scoped BigOperators

namespace Cert.Spec

open Idealize.ShloMosaic Idealize.ShloMosaic.ValueIdx

/-- A node's number, as a 32-bit word, is the index word exactly when the number is the word's value. -/
theorem ofNat_eq_iff (v : BitVec 32) (n : Fin 4096) : BitVec.ofNat 32 n.val = v ↔ n.val = v.toNat := by
  constructor
  · intro h
    have := congrArg BitVec.toNat h
    rw [BitVec.toNat_ofNat] at this
    have hn := n.isLt
    rw [Nat.mod_eq_of_lt (by omega)] at this
    exact this
  · intro h
    apply BitVec.eq_of_toNat_eq
    rw [BitVec.toNat_ofNat, h]
    exact Nat.mod_eq_of_lt v.isLt

theorem hot_self (v : BitVec 32) (hv : v.toNat < 4096) : hot v ⟨v.toNat, hv⟩ = 1 := by
  unfold hot; rw [if_pos ((ofNat_eq_iff v ⟨v.toNat, hv⟩).2 rfl)]

theorem hot_ne (v : BitVec 32) (n : Fin 4096) (h : n.val ≠ v.toNat) : hot v n = 0 := by
  unfold hot; rw [if_neg (fun e => h ((ofNat_eq_iff v n).1 e))]

/-- The one-hot weights times a function of the node, summed, is the function at the word's node. -/
theorem sum_hot_mul (v : BitVec 32) (hv : v.toNat < 4096) (f : Fin 4096 → EReal) :
    ∑ n : Fin 4096, hot v n * f n = f ⟨v.toNat, hv⟩ := by
  rw [Finset.sum_eq_single (⟨v.toNat, hv⟩ : Fin 4096)]
  · rw [hot_self v hv, one_mul]
  · intro b _ hb
    rw [hot_ne v b (fun e => hb (Fin.ext e)), zero_mul]
  · intro h; exact absurd (Finset.mem_univ _) h

/-- The same with the weight on the right. -/
theorem sum_mul_hot (v : BitVec 32) (hv : v.toNat < 4096) (f : Fin 4096 → EReal) :
    ∑ n : Fin 4096, f n * hot v n = f ⟨v.toNat, hv⟩ := by
  rw [← sum_hot_mul v hv f]
  exact Finset.sum_congr rfl fun n _ => mul_comm _ _

/-- A sum over 258 rows: the first 256 rows, then row 256, then row 257. -/
theorem sum_fin258 (f : Fin 258 → EReal) :
    ∑ r : Fin 258, f r = ∑ h : Fin 256, f ⟨h.val, by have := h.isLt; omega⟩ + f ⟨256, by omega⟩ + f ⟨257, by omega⟩ := by
  rw [Fin.sum_univ_castSucc (n := 257), Fin.sum_univ_castSucc (n := 256)]
  rfl

/-- The logistic function with the negation written as a difference from zero. -/
theorem logistic_eq (x : EReal) : Ideal.logistic x = Ideal.div 1 (1 + Ideal.exp (0 - x)) := by
  unfold Ideal.logistic
  rw [sub_eq_add_neg, zero_add]

end Cert.Spec

end
-- ==== Proof.Bridge.lean ====
/-
  The two programs compute one number per edge. For an edge whose endpoint words name nodes i and j:
  the kernel's logit is the sum over the 256 features h of z(i,h)·z(j,h)·w3b(h) + max(z(i,h),0)·v2a(h) + max(z(j,h),0)·v2b(h),
  where z = adj·(x·W1) and (v2a | v2b | w3b) is the folded weight row; the reference's logit is the sum over the 258 rows of
  its two tables' gathered columns, ([zᵀ·w3b ; rs ; 1]·[zᵀ ; 1 ; cs]), with zᵀ = (W1ᵀ·xᵀ)·adjᵀ, rs(i) = Σ_h max(z(i,h),0)·v2a(h),
  cs(j) = Σ_h max(z(j,h),0)·v2b(h). A one-hot weighted sum picks the named node's entry; the transposed products are the
  same sums with the factors exchanged; a sum of three-term summands is the three sums; so the two logits are equal, by
  commutativity and associativity alone. The outputs are then the same logistic value.
-/
import proofs.«164407_g2000604642866785_pallasbulk_226_8_alg».proof.Proof.BridgeLemmas
import proofs.«164407_g2000604642866785_pallasbulk_226_8_alg».proof.Proof.SpecEnc
import proofs.«164407_g2000604642866785_pallasbulk_226_8_alg».proof.Proof.SpecDec
import proofs.«164407_g2000604642866785_pallasbulk_226_8_alg».proof.Proof.SpecRef
import proofs.«164407_g2000604642866785_pallasbulk_226_8_alg».proof.Proof.SpecRef2

noncomputable section

open scoped BigOperators

namespace Cert.Spec

open Idealize.ShloMosaic Idealize.ShloMosaic.ValueIdx

section

variable (x : M 4096 256) (adj : M 4096 4096) (w1 : M 256 256) (w2 : M 512 256) (w3 : M 512 1)
variable (w3r : M 1 512) (hw3r : ∀ k : Fin 512, w3r (ix2 (0 : Fin 1) k) = w3 (ix2 k (0 : Fin 1)))
variable (wt : M 256 256) (hwt : ∀ (h d : Fin 256), wt (ix2 h d) = w1 (ix2 d h))
variable (xin : M 256 4096) (hxin : ∀ (d : Fin 256) (n : Fin 4096), xin (ix2 d n) = x (ix2 n d))
variable (adjt : M 4096 4096) (hadjt : ∀ (a b : Fin 4096), adjt (ix2 a b) = adj (ix2 b a))
variable (v2a v2b w3b : M 256 1)
variable (hv2a : ∀ h : Fin 256, v2a (ix2 h (0 : Fin 1))
  = ∑ k : Fin 256, w2 (ix2 (⟨h.val, by have := h.isLt; omega⟩ : Fin 512) k) * w3 (ix2 (⟨k.val, by have := k.isLt; omega⟩ : Fin 512) (0 : Fin 1)))
variable (hv2b : ∀ h : Fin 256, v2b (ix2 h (0 : Fin 1))
  = ∑ k : Fin 256, w2 (ix2 (⟨256 + h.val, by have := h.isLt; omega⟩ : Fin 512) k) * w3 (ix2 (⟨k.val, by have := k.isLt; omega⟩ : Fin 512) (0 : Fin 1)))
variable (hw3b : ∀ h : Fin 256, w3b (ix2 h (0 : Fin 1)) = w3 (ix2 (⟨256 + h.val, by have := h.isLt; omega⟩ : Fin 512) (0 : Fin 1)))

include hwt hxin hadjt in
/-- The kernel's node table and the reference's transposed one: z(n,h) = zᵀ(h,n). -/
theorem z_eq (n : Fin 4096) (h : Fin 256) :
    encZ adj x w1 (ix2 n h) = refZt (refXt wt xin) adjt h n := by
  unfold encZ refZt
  refine Finset.sum_congr rfl fun mm _ => ?_
  show adj (ix2 n mm) * encXw x w1 (ix2 mm h) = refXt wt xin (ix2 h mm) * adjt (ix2 mm n)
  rw [hadjt mm n, mul_comm]
  congr 1
  unfold encXw refXt
  refine Finset.sum_congr rfl fun d _ => ?_
  show x (ix2 mm d) * w1 (ix2 d h) = wt (ix2 h d) * xin (ix2 d mm)
  rw [hwt h d, hxin d mm, mul_comm]

include hw3r hw3b in
/-- The folded row's last third is the reference's third weight column. -/
theorem fold_w3b (h : Fin 256) :
    encFold w2 w3r (ix2 (0 : Fin 1) (⟨512 + h.val, by have := h.isLt; omega⟩ : Fin 768)) = w3b (ix2 h (0 : Fin 1)) := by
  unfold encFold
  rw [dif_neg (by show ¬ (512 + h.val < 512); omega), hw3b h]
  exact (hw3r _).trans (congrArg w3 (congrArg (fun k => ix2 k (0 : Fin 1)) (Fin.ext (by show 512 + h.val - 256 = 256 + h.val; omega))))

include hw3r hv2a in
/-- The folded row's first third is the reference's first folded column. -/
theorem fold_v2a (h : Fin 256) :
    encFold w2 w3r (ix2 (0 : Fin 1) (⟨h.val, by have := h.isLt; omega⟩ : Fin 768)) = v2a (ix2 h (0 : Fin 1)) := by
  unfold encFold
  rw [dif_pos (by show h.val < 512; have := h.isLt; omega), hv2a h]
  refine Finset.sum_congr rfl fun k _ => ?_
  rw [hw3r, mul_comm]

include hw3r hv2b in
/-- The folded row's second third is the reference's second folded column. -/
theorem fold_v2b (h : Fin 256) :
    encFold w2 w3r (ix2 (0 : Fin 1) (⟨256 + h.val, by have := h.isLt; omega⟩ : Fin 768)) = v2b (ix2 h (0 : Fin 1)) := by
  unfold encFold
  rw [dif_pos (by show 256 + h.val < 512; have := h.isLt; omega), hv2b h]
  refine Finset.sum_congr rfl fun k _ => ?_
  rw [hw3r, mul_comm]

include hw3r hwt hxin hadjt hv2a hv2b hw3b in
/-- The two logits of an edge whose endpoint words name nodes are equal. -/
theorem logit_eq (vi vj : BitVec 32) (hvi : vi.toNat < 4096) (hvj : vj.toNat < 4096) :
    decLogit (encZ adj x w1) (encFold w2 w3r) vi vj
      = refLogit (refTi (refXt wt xin) adjt v2a w3b) (refTj (refXt wt xin) adjt v2b) vi vj := by
  unfold decLogit refLogit
  rw [sum_fin258]
  unfold gatherRow refGather
  simp only [sum_hot_mul _ hvi, sum_hot_mul _ hvj, sum_mul_hot _ hvi, sum_mul_hot _ hvj]
  have ti_lo : ∀ (h : Fin 256) (n : Fin 4096), refTi (refXt wt xin) adjt v2a w3b (ix2 (⟨h.val, by have := h.isLt; omega⟩ : Fin 258) n)
      = refZt (refXt wt xin) adjt h n * w3b (ix2 h (0 : Fin 1)) := fun h n => by
    unfold refTi; rw [dif_pos (by show h.val < 256; exact h.isLt)]
  have tj_lo : ∀ (h : Fin 256) (n : Fin 4096), refTj (refXt wt xin) adjt v2b (ix2 (⟨h.val, by have := h.isLt; omega⟩ : Fin 258) n)
      = refZt (refXt wt xin) adjt h n := fun h n => by
    unfold refTj; rw [dif_pos (by show h.val < 256; exact h.isLt)]
  have ti_256 : ∀ n : Fin 4096, refTi (refXt wt xin) adjt v2a w3b (ix2 (⟨256, by omega⟩ : Fin 258) n)
      = ∑ k : Fin 256, max (refZt (refXt wt xin) adjt k n) 0 * v2a (ix2 k (0 : Fin 1)) := fun n => by
    unfold refTi; rw [dif_neg (by show ¬ (256 < 256); omega), if_pos (by show (256 : Nat) = 256; rfl)]
  have ti_257 : ∀ n : Fin 4096, refTi (refXt wt xin) adjt v2a w3b (ix2 (⟨257, by omega⟩ : Fin 258) n) = 1 := fun n => by
    unfold refTi; rw [dif_neg (by show ¬ (257 < 256); omega), if_neg (by show ¬ ((257 : Nat) = 256); omega)]
  have tj_256 : ∀ n : Fin 4096, refTj (refXt wt xin) adjt v2b (ix2 (⟨256, by omega⟩ : Fin 258) n) = 1 := fun n => by
    unfold refTj; rw [dif_neg (by show ¬ (256 < 256); omega), if_pos (by show (256 : Nat) = 256; rfl)]
  have tj_257 : ∀ n : Fin 4096, refTj (refXt wt xin) adjt v2b (ix2 (⟨257, by omega⟩ : Fin 258) n)
      = ∑ k : Fin 256, max (refZt (refXt wt xin) adjt k n) 0 * v2b (ix2 k (0 : Fin 1)) := fun n => by
    unfold refTj; rw [dif_neg (by show ¬ (257 < 256); omega), if_neg (by show ¬ ((257 : Nat) = 256); omega)]
  simp only [ti_lo, tj_lo, ti_256, ti_257, tj_256, tj_257, mul_one, one_mul]
  rw [Finset.sum_add_distrib, Finset.sum_add_distrib]
  congr 1
  · congr 1
    refine Finset.sum_congr rfl fun h _ => ?_
    rw [z_eq x adj w1 wt hwt xin hxin adjt hadjt, z_eq x adj w1 wt hwt xin hxin adjt hadjt, fold_w3b w2 w3 w3r hw3r w3b hw3b h]
    exact mul_right_comm _ _ _
    · refine Finset.sum_congr rfl fun h _ => ?_
      rw [z_eq x adj w1 wt hwt xin hxin adjt hadjt, fold_v2a w2 w3 w3r hw3r v2a hv2a h]
  · refine Finset.sum_congr rfl fun h _ => ?_
    rw [z_eq x adj w1 wt hwt xin hxin adjt hadjt, fold_v2b w2 w3 w3r hw3r v2b hv2b h]

variable (te fe : IM 8192 2) (hte : ∀ i, (te i).toNat < 4096) (hfe : ∀ i, (fe i).toNat < 4096)
variable (ei ej : IM 1 16384)
variable (hei : ∀ e : Fin 16384, ei (ix2 (0 : Fin 1) e) = edgeAt te fe e (0 : Fin 2))
variable (hej : ∀ e : Fin 16384, ej (ix2 (0 : Fin 1) e) = edgeAt te fe e (1 : Fin 2))

include hte hfe in
/-- Every word of the whole edge list names a node. -/
theorem edgeAt_lt (e : Fin 16384) (col : Fin 2) : (edgeAt te fe e col).toNat < 4096 := by
  unfold edgeAt
  split
  · exact hte _
  · exact hfe _

include hw3r hwt hxin hadjt hv2a hv2b hw3b hte hfe hei hej in
/-- THE BRIDGE: the kernel's output column at edge e is the reference's output at (e / 256, 0, e % 256). -/
theorem out_eq (e : Fin 16384) :
    decOut te fe (encZ adj x w1) (encFold w2 w3r) (ix2 e (0 : Fin 1))
      = refOut ei ej (refTi (refXt wt xin) adjt v2a w3b) (refTj (refXt wt xin) adjt v2b)
          (ix3 (⟨e.val / 256, by have := e.isLt; omega⟩ : Fin 64) (0 : Fin 1) (⟨e.val % 256, Nat.mod_lt _ (by decide)⟩ : Fin 256)) := by
  unfold decOut refOut
  rw [logistic_eq]
  have he : refEdge (ix3 (⟨e.val / 256, by have := e.isLt; omega⟩ : Fin 64) (0 : Fin 1) (⟨e.val % 256, Nat.mod_lt _ (by decide)⟩ : Fin 256)) = e := by
    apply Fin.ext
    show e.val / 256 * 256 + e.val % 256 = e.val
    have := Nat.div_add_mod e.val 256
    omega
  rw [he, hei e, hej e]
  show Ideal.div 1 (1 + Ideal.exp (0 - decLogit (encZ adj x w1) (encFold w2 w3r) (edgeAt te fe e 0) (edgeAt te fe e 1))) = _
  rw [logit_eq x adj w1 w2 w3 w3r hw3r wt hwt xin hxin adjt hadjt v2a v2b w3b hv2a hv2b hw3b _ _
    (edgeAt_lt te fe hte hfe e 0) (edgeAt_lt te fe hte hfe e 1)]

end

end Cert.Spec

end
-- ==== Proof.PreDecode.lean ====
/-
  The precondition read back at the edge lists: every entry of either list, read as a signed 32-bit number, lies in
  [0, 4096); so, read unsigned, it is below 4096 and names a node. The predicate is a conjunction of "all" tests, each a
  fold by "and" over an array of comparison bits that came out one: every bit is one, and a bit of "0 ≤ v" and one of
  "v < 4096" together bound the word.
-/
import proofs.«164407_g2000604642866785_pallasbulk_226_8_alg».proof.Pre_finite_inputs
import Idealize.ShloMosaic.Lib.ReduceAll
import Idealize.ShloMosaic.Lib.Affine
import Idealize.ShloMosaic.Lib.ValueIdx

noncomputable section

namespace Cert.PreDecode

open Idealize.ShloMosaic Cert.Pre_finite_inputs

variable [hP : Cert.Pre_finite_inputs.Facts]

/-- The scalar shape has one index. -/
instance : Subsingleton Cert.Pre_finite_inputs.S_.Idx := ⟨fun a b => funext fun d => d.elim0⟩

/-- A word that is at least 0 and below n as signed numbers (n below 2³¹) is below n as an unsigned number. -/
theorem toNat_lt (w : BitVec 32) (n : Nat) (hn : n < 2 ^ 31) (h0 : IntOp.cmpi .sge w (0#32) = 1#1)
    (h1 : IntOp.cmpi .slt w (BitVec.ofNat 32 n) = 1#1) : w.toNat < n := by
  rw [IntOp.cmpi_sge] at h0
  rw [IntOp.cmpi_slt] at h1
  have z : (0#32 : BitVec 32).toInt = 0 := by decide
  rw [z] at h0
  have hn' : (BitVec.ofNat 32 n).toInt = (n : Int) := by
    rw [BitVec.toInt_ofNat']
    exact Int.bmod_eq_of_le (by omega) (by omega)
  rw [hn'] at h1
  have h32 := w.isLt
  unfold BitVec.toInt at h0 h1
  split at h1 <;> simp at h0 h1 <;> omega

/-- Under the precondition every entry of both edge lists is, unsigned, below 4096. -/
theorem idx_range {F : FTy → Type} [FloatOps F] (a0 : FVec F S4096x256 .f32) (a1 : FVec F S4096x4096 .f32)
    (a2 : FVec F S256x256 .f32) (a3 : FVec F S512x256 .f32) (a4 : FVec F S512x1 .f32) (a5 a6 : IVec S8192x2 32)
    (h : Cert.Pre_finite_inputs.fn (F := F) a0 a1 a2 a3 a4 a5 a6 = fun _ => 1#1) :
    (∀ i, (a5 i).toNat < 4096) ∧ (∀ i, (a6 i).toNat < 4096) := by
  have e := congrFun h ValueIdx.ix0
  dsimp only [Cert.Pre_finite_inputs.fn, Cert.Pre_finite_inputs.fn_part1, Cert.Pre_finite_inputs.fn_part2] at e
  unfold andi at e
  rw [IntOp.andi_eq_one, IntOp.andi_eq_one] at e
  obtain ⟨⟨-, h5⟩, h6⟩ := e
  constructor
  · intro i
    have b := Host.reduce_andi_all _ _ _ _ ValueIdx.ix0 h5 i
    rw [IntOp.andi_eq_one] at b
    exact toNat_lt _ 4096 (by decide) b.1 b.2
  · intro i
    have b := Host.reduce_andi_all _ _ _ _ ValueIdx.ix0 h6 i
    rw [IntOp.andi_eq_one] at b
    exact toNat_lt _ 4096 (by decide) b.1 b.2

end Cert.PreDecode

end
-- ==== Proof.Final.lean ====
/-
  The two runs' results, joined. The kernel's result array is its decoder region's output: the decoder's function of the
  two edge lists, the node table z = adj·(x·W1) the encoder region leaves, and the folded weight row it leaves. The
  reference's result array is its last region's output, reshaped: the reference decoder's function of the edge list's two
  columns and the two tables its second region leaves, themselves functions of the transposed product its first region
  leaves and of the host-computed weight columns. With the two programs' argument arrays equal and every edge word naming
  a node, the two results are equal entry by entry.
-/
import proofs.«164407_g2000604642866785_pallasbulk_226_8_alg».proof.Defs
import proofs.«164407_g2000604642866785_pallasbulk_226_8_alg».proof.Proof.Run
import proofs.«164407_g2000604642866785_pallasbulk_226_8_alg».proof.Proof.KVal
import proofs.«164407_g2000604642866785_pallasbulk_226_8_alg».proof.Proof.EncValue
import proofs.«164407_g2000604642866785_pallasbulk_226_8_alg».proof.Proof.DecValue
import proofs.«164407_g2000604642866785_pallasbulk_226_8_alg».proof.Proof.RefRun
import proofs.«164407_g2000604642866785_pallasbulk_226_8_alg».proof.Proof.RefHost
import proofs.«164407_g2000604642866785_pallasbulk_226_8_alg».proof.Proof.RefVal01
import proofs.«164407_g2000604642866785_pallasbulk_226_8_alg».proof.Proof.RefVal2
import proofs.«164407_g2000604642866785_pallasbulk_226_8_alg».proof.Proof.Bridge
import proofs.«164407_g2000604642866785_pallasbulk_226_8_alg».proof.Proof.PreDecode
import proofs.«164407_g2000604642866785_pallasbulk_226_8_alg».proof.Proof.Gen.Pre_finite_inputs

noncomputable section

open scoped BigOperators

namespace Cert.Proof.Final

open Idealize.ShloMosaic Idealize.ShloMosaic.TcCoe Idealize.ShloMosaic.ValueIdx Idealize.SL.Sem
open Cert.Spec

variable (m : (ℓ : Loc Cert.KernelIdeal.nD Cert.KernelIdeal.τ Cert.KernelIdeal.sig) → Buf (Elt Ideal) ℓ) (ρ : Dev Cert.KernelIdeal.nD → PrngReg)
variable (m' : (ℓ : Loc Cert.ReferenceIdeal.nD Cert.ReferenceIdeal.τ Cert.ReferenceIdeal.sig) → Buf (Elt Ideal) ℓ) (ρ' : Dev Cert.ReferenceIdeal.nD → PrngReg)

/-- The kernel's result array as a function of its argument arrays. -/
theorem ker_value (c : Dev Cert.KernelIdeal.nD) :
    (Cert.KernelIdeal.Run.W3 (F := Ideal) m ρ c (Proc.devRef .tc Cert.KernelIdeal.main_v2) : M 16384 1)
      = decOut (m ((c : Thread Cert.KernelIdeal.nD Cert.KernelIdeal.τ).loc Cert.KernelIdeal.main_arg5)) (m ((c : Thread Cert.KernelIdeal.nD Cert.KernelIdeal.τ).loc Cert.KernelIdeal.main_arg6))
          (encZ (m ((c : Thread Cert.KernelIdeal.nD Cert.KernelIdeal.τ).loc Cert.KernelIdeal.main_arg1)) (m ((c : Thread Cert.KernelIdeal.nD Cert.KernelIdeal.τ).loc Cert.KernelIdeal.main_arg0)) (m ((c : Thread Cert.KernelIdeal.nD Cert.KernelIdeal.τ).loc Cert.KernelIdeal.main_arg2)))
          (encFold (m ((c : Thread Cert.KernelIdeal.nD Cert.KernelIdeal.τ).loc Cert.KernelIdeal.main_arg3)) (Cert.KernelIdeal.Run.V1 (F := Ideal) m ρ c Cert.KernelIdeal.main_v0)) := by
  rw [Cert.KernelIdeal.Run.W3_main_v2, Cert.KernelIdeal.DecValue.dec_out (Cert.KernelIdeal.Run.V2 m ρ) c,
    Cert.KernelIdeal.KVal.V2_main_arg5, Cert.KernelIdeal.KVal.V2_main_arg6, Cert.KernelIdeal.KVal.V2_main_v1_0, Cert.KernelIdeal.KVal.V2_main_v1_1,
    Cert.KernelIdeal.EncValue.enc_z (Cert.KernelIdeal.Run.V1 m ρ) c, Cert.KernelIdeal.EncValue.enc_fold (Cert.KernelIdeal.Run.V1 m ρ) c,
    Cert.KernelIdeal.KVal.V1_main_arg0, Cert.KernelIdeal.KVal.V1_main_arg1, Cert.KernelIdeal.KVal.V1_main_arg2, Cert.KernelIdeal.KVal.V1_main_arg3]

/-- The reference's result array as a function of what its regions and host lines leave. -/
theorem ref_value (c : Dev Cert.ReferenceIdeal.nD) :
    (Cert.ReferenceIdeal.Gen.W10 (F := Ideal) m' ρ' c (Proc.devRef .tc Cert.ReferenceIdeal.main_v25) : M 16384 1)
      = fun i => refOut (Cert.ReferenceIdeal.Gen.V8 (F := Ideal) m' ρ' c Cert.ReferenceIdeal.main_v19) (Cert.ReferenceIdeal.Gen.V8 (F := Ideal) m' ρ' c Cert.ReferenceIdeal.main_v23)
          (refTi (refXt (Cert.ReferenceIdeal.Gen.V1 (F := Ideal) m' ρ' c Cert.ReferenceIdeal.main_v8) (Cert.ReferenceIdeal.Gen.V1 (F := Ideal) m' ρ' c Cert.ReferenceIdeal.main_v10))
            (Cert.ReferenceIdeal.Gen.V2 (F := Ideal) m' ρ' c Cert.ReferenceIdeal.main_v12) (Cert.ReferenceIdeal.Gen.V2 (F := Ideal) m' ρ' c Cert.ReferenceIdeal.main_v2) (Cert.ReferenceIdeal.Gen.V2 (F := Ideal) m' ρ' c Cert.ReferenceIdeal.main_v6))
          (refTj (refXt (Cert.ReferenceIdeal.Gen.V1 (F := Ideal) m' ρ' c Cert.ReferenceIdeal.main_v8) (Cert.ReferenceIdeal.Gen.V1 (F := Ideal) m' ρ' c Cert.ReferenceIdeal.main_v10))
            (Cert.ReferenceIdeal.Gen.V2 (F := Ideal) m' ρ' c Cert.ReferenceIdeal.main_v12) (Cert.ReferenceIdeal.Gen.V2 (F := Ideal) m' ρ' c Cert.ReferenceIdeal.main_v5))
          (ix3 (⟨(i 0).val / 256, by have := idx2_lt0 i; omega⟩ : Fin 64) (0 : Fin 1) (⟨(i 0).val % 256, Nat.mod_lt _ (by decide)⟩ : Fin 256)) := by
  rw [Cert.ReferenceIdeal.RefRun.out_eq, Cert.ReferenceIdeal.RefVal2.ref_out (Cert.ReferenceIdeal.Gen.V8 m' ρ') c, Cert.ReferenceIdeal.RefRun.V8_ti, Cert.ReferenceIdeal.RefRun.V8_tj,
    Cert.ReferenceIdeal.RefVal01.ref_ti (Cert.ReferenceIdeal.Gen.V2 m' ρ') c, Cert.ReferenceIdeal.RefVal01.ref_tj (Cert.ReferenceIdeal.Gen.V2 m' ρ') c, Cert.ReferenceIdeal.RefHost.V2_xt,
    Cert.ReferenceIdeal.RefVal01.ref_xt (Cert.ReferenceIdeal.Gen.V1 m' ρ') c]

/-- THE RESULTS ARE EQUAL: under the precondition (every edge word names a node) and with the argument arrays equal, the
    reference's result array is the kernel's. -/
theorem result_eq (hpre : Cert.Pre_KernelIdeal m)
    (hagree : ∀ c : Dev Cert.KernelIdeal.nD,
      m' ((c : Thread Cert.ReferenceIdeal.nD Cert.ReferenceIdeal.τ).loc Cert.ReferenceIdeal.main_arg0) = m ((c : Thread Cert.KernelIdeal.nD Cert.KernelIdeal.τ).loc Cert.KernelIdeal.main_arg0)
      ∧ m' ((c : Thread Cert.ReferenceIdeal.nD Cert.ReferenceIdeal.τ).loc Cert.ReferenceIdeal.main_arg1) = m ((c : Thread Cert.KernelIdeal.nD Cert.KernelIdeal.τ).loc Cert.KernelIdeal.main_arg1)
      ∧ m' ((c : Thread Cert.ReferenceIdeal.nD Cert.ReferenceIdeal.τ).loc Cert.ReferenceIdeal.main_arg2) = m ((c : Thread Cert.KernelIdeal.nD Cert.KernelIdeal.τ).loc Cert.KernelIdeal.main_arg2)
      ∧ m' ((c : Thread Cert.ReferenceIdeal.nD Cert.ReferenceIdeal.τ).loc Cert.ReferenceIdeal.main_arg3) = m ((c : Thread Cert.KernelIdeal.nD Cert.KernelIdeal.τ).loc Cert.KernelIdeal.main_arg3)
      ∧ m' ((c : Thread Cert.ReferenceIdeal.nD Cert.ReferenceIdeal.τ).loc Cert.ReferenceIdeal.main_arg4) = m ((c : Thread Cert.KernelIdeal.nD Cert.KernelIdeal.τ).loc Cert.KernelIdeal.main_arg4)
      ∧ m' ((c : Thread Cert.ReferenceIdeal.nD Cert.ReferenceIdeal.τ).loc Cert.ReferenceIdeal.main_arg5) = m ((c : Thread Cert.KernelIdeal.nD Cert.KernelIdeal.τ).loc Cert.KernelIdeal.main_arg5)
      ∧ m' ((c : Thread Cert.ReferenceIdeal.nD Cert.ReferenceIdeal.τ).loc Cert.ReferenceIdeal.main_arg6) = m ((c : Thread Cert.KernelIdeal.nD Cert.KernelIdeal.τ).loc Cert.KernelIdeal.main_arg6))
    (c : Dev Cert.KernelIdeal.nD) :
    (Cert.ReferenceIdeal.Gen.W10 (F := Ideal) m' ρ' c (Proc.devRef .tc Cert.ReferenceIdeal.main_v25) : M 16384 1)
      = (Cert.KernelIdeal.Run.W3 (F := Ideal) m ρ c (Proc.devRef .tc Cert.KernelIdeal.main_v2) : M 16384 1) := by
  obtain ⟨hte, hfe⟩ := Cert.PreDecode.idx_range _ _ _ _ _ _ _ (hpre c)
  obtain ⟨h0, h1, h2, h3, h4, h5, h6⟩ := hagree c
  rw [ref_value m' ρ' c, ker_value m ρ c]
  funext i
  have hi : i = ix2 (⟨(i 0).val, idx2_lt0 i⟩ : Fin 16384) (0 : Fin 1) := by
    funext a; apply Fin.ext
    match a with
    | ⟨0, _⟩ => rfl
    | ⟨1, _⟩ =>
      have h1' := idx2_lt1 i
      show (i 1).val = 0
      omega
  rw [hi]
  symm
  refine Cert.Spec.out_eq (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg4))
    _ (fun k => ?_) _ (fun h d => ?_) _ (fun d n => ?_) _ (fun a b => ?_) _ _ _ (fun h => ?_) (fun h => ?_) (fun h => ?_)
    (m ((c : Thread Cert.KernelIdeal.nD Cert.KernelIdeal.τ).loc Cert.KernelIdeal.main_arg5)) (m ((c : Thread Cert.KernelIdeal.nD Cert.KernelIdeal.τ).loc Cert.KernelIdeal.main_arg6)) hte hfe _ _ (fun e => ?_) (fun e => ?_) _
  · exact Cert.KernelIdeal.KVal.V1_main_v0_apply m ρ c k
  · refine (congrFun (Cert.ReferenceIdeal.RefHost.V1_v8 m' ρ' c) (ix2 h d)).trans ?_
    show m' ((c : Thread Cert.ReferenceIdeal.nD Cert.ReferenceIdeal.τ).loc Cert.ReferenceIdeal.main_arg2) (ix2 d h) = m ((c : Thread Cert.KernelIdeal.nD Cert.KernelIdeal.τ).loc Cert.KernelIdeal.main_arg2) (ix2 d h)
    rw [h2]
  · refine (congrFun (Cert.ReferenceIdeal.RefHost.V1_v10 m' ρ' c) (ix2 d n)).trans ?_
    show m' ((c : Thread Cert.ReferenceIdeal.nD Cert.ReferenceIdeal.τ).loc Cert.ReferenceIdeal.main_arg0) (ix2 n d) = m ((c : Thread Cert.KernelIdeal.nD Cert.KernelIdeal.τ).loc Cert.KernelIdeal.main_arg0) (ix2 n d)
    rw [h0]
  · refine (congrFun (Cert.ReferenceIdeal.RefHost.V2_v12 m' ρ' c) (ix2 a b)).trans ?_
    show m' ((c : Thread Cert.ReferenceIdeal.nD Cert.ReferenceIdeal.τ).loc Cert.ReferenceIdeal.main_arg1) (ix2 b a) = m ((c : Thread Cert.KernelIdeal.nD Cert.KernelIdeal.τ).loc Cert.KernelIdeal.main_arg1) (ix2 b a)
    rw [h1]
  · refine (congrFun (Cert.ReferenceIdeal.RefHost.V2_v2 m' ρ' c) (ix2 h (0 : Fin 1))).trans ?_
    have e3 : Cert.ReferenceIdeal.RefHost.arg3 m' c = m ((c : Thread Cert.KernelIdeal.nD Cert.KernelIdeal.τ).loc Cert.KernelIdeal.main_arg3) := h3
    have e4 : Cert.ReferenceIdeal.RefHost.arg4 m' c = m ((c : Thread Cert.KernelIdeal.nD Cert.KernelIdeal.τ).loc Cert.KernelIdeal.main_arg4) := h4
    rw [e3, e4]
    rfl
  · refine (congrFun (Cert.ReferenceIdeal.RefHost.V2_v5 m' ρ' c) (ix2 h (0 : Fin 1))).trans ?_
    have e3 : Cert.ReferenceIdeal.RefHost.arg3 m' c = m ((c : Thread Cert.KernelIdeal.nD Cert.KernelIdeal.τ).loc Cert.KernelIdeal.main_arg3) := h3
    have e4 : Cert.ReferenceIdeal.RefHost.arg4 m' c = m ((c : Thread Cert.KernelIdeal.nD Cert.KernelIdeal.τ).loc Cert.KernelIdeal.main_arg4) := h4
    rw [e3, e4]
    rfl
  · refine (congrFun (Cert.ReferenceIdeal.RefHost.V2_v6 m' ρ' c) (ix2 h (0 : Fin 1))).trans ?_
    show m' ((c : Thread Cert.ReferenceIdeal.nD Cert.ReferenceIdeal.τ).loc Cert.ReferenceIdeal.main_arg4) (ix2 (⟨256 + h.val, by have := h.isLt; omega⟩ : Fin 512) (0 : Fin 1)) = _
    rw [h4]
  · refine (congrFun (Cert.ReferenceIdeal.RefRun.V8_v19 m' ρ' c) (ix2 (0 : Fin 1) e)).trans ?_
    show Cert.Spec.edgeAt (m' ((c : Thread Cert.ReferenceIdeal.nD Cert.ReferenceIdeal.τ).loc Cert.ReferenceIdeal.main_arg5)) (m' ((c : Thread Cert.ReferenceIdeal.nD Cert.ReferenceIdeal.τ).loc Cert.ReferenceIdeal.main_arg6)) e (0 : Fin 2) = _
    rw [h5, h6]
  · refine (congrFun (Cert.ReferenceIdeal.RefRun.V8_v23 m' ρ' c) (ix2 (0 : Fin 1) e)).trans ?_
    show Cert.Spec.edgeAt (m' ((c : Thread Cert.ReferenceIdeal.nD Cert.ReferenceIdeal.τ).loc Cert.ReferenceIdeal.main_arg5)) (m' ((c : Thread Cert.ReferenceIdeal.nD Cert.ReferenceIdeal.τ).loc Cert.ReferenceIdeal.main_arg6)) e (1 : Fin 2) = _
    rw [h5, h6]

end Cert.Proof.Final

end
-- ==== Proof.lean ====
/-
  The certificate of a graph-convolution link-prediction kernel against its reference.

  Both programs compute, for each of 16384 candidate edges (i, j) drawn from two index lists, the logistic value of
      Σ_h z(i,h)·z(j,h)·w3b(h) + Σ_h max(z(i,h),0)·v2a(h) + Σ_h max(z(j,h),0)·v2b(h),
  where z = adj·(x·W1) is the encoded node table and (v2a, v2b, w3b) are columns folded from the two decoder weight
  matrices. The kernel does it in two pipelined regions: an encoder that forms x·W1 once, keeps it in a scratch buffer
  across the grid, multiplies each block of adjacency rows by it and folds the weights into one row; and a decoder that
  gathers both endpoints' rows of z with one one-hot matrix product per tile of 512 edges. The reference does it in three
  regions over transposed operands, packing the three sums into two 258-row tables whose gathered columns it multiplies
  and sums. On the extended reals the two agree by commutativity and associativity alone, given that every index word
  names a node (outside that range the reference's one-hot column is zero in every row, the kernel's only in the gathered
  rows, and the two differ): the precondition says so.

  The three frames: the kernel program's two regions are run point by point (the encoder with its carried scratch and its
  weight row stored at the first point and written back at the last; the decoder a plain map), at the word level and at
  the ideal level by one text; the reference's is its generated frame. The ideal pass rewrote nothing, so the kernel's
  idealization is its own text. The value claim joins the kernel's run with its result named, the reference's run with its
  result named, and the equality of the two results.
-/
import proofs.«164407_g2000604642866785_pallasbulk_226_8_alg».proof.Defs
import proofs.«164407_g2000604642866785_pallasbulk_226_8_alg».proof.Proof.Gen.Kernel
import proofs.«164407_g2000604642866785_pallasbulk_226_8_alg».proof.Proof.Gen.KernelIdeal
import proofs.«164407_g2000604642866785_pallasbulk_226_8_alg».proof.Proof.Gen.ReferenceIdeal
import proofs.«164407_g2000604642866785_pallasbulk_226_8_alg».proof.Proof.Gen.ReferenceIdeal.Frame
import proofs.«164407_g2000604642866785_pallasbulk_226_8_alg».proof.Proof.Gen.Pre_finite_inputs
import proofs.«164407_g2000604642866785_pallasbulk_226_8_alg».proof.Proof.Run
import proofs.«164407_g2000604642866785_pallasbulk_226_8_alg».proof.Proof.RunK
import proofs.«164407_g2000604642866785_pallasbulk_226_8_alg».proof.Proof.RefRun
import proofs.«164407_g2000604642866785_pallasbulk_226_8_alg».proof.Proof.Final

noncomputable section

namespace Cert.Proof

open Idealize.ShloMosaic Idealize.SL.Sem

/-- The word-level kernel program runs and leaves its arguments as launched. -/
theorem frame_k : Cert.frame_Kernel := fun m ρ _ => Cert.Kernel.Run.frame m ρ

/-- The idealized kernel program runs and leaves its arguments as launched. -/
theorem frame_ki : Cert.frame_KernelIdeal := fun m ρ _ => Cert.KernelIdeal.Run.frame m ρ

/-- The idealized reference runs and leaves its arguments as launched. -/
theorem frame_ri : Cert.frame_ReferenceIdeal := fun m ρ _ => Cert.ReferenceIdeal.Gen.frame m ρ

/-- The ideal pass rewrote no operation of the kernel. -/
theorem preserves : Cert.preserves_Kernel_KernelIdeal := trivial

/-- At the ideal level, from memories agreeing on the arguments, both programs run and end with equal result arrays. -/
theorem algebraic : Cert.algebraic_KernelIdeal_ReferenceIdeal := by
  intro m ρ m' ρ' hpre hagree
  refine ⟨fun c => Cert.KernelIdeal.Run.W3 (F := Ideal) m ρ c (Proc.devRef .tc Cert.KernelIdeal.main_v2),
    Cert.KernelIdeal.Run.run m ρ, ?_⟩
  refine (θ_run Cert.ReferenceIdeal.defs _ _).mono (fun r h c => ⟨(h c).1.trans ?_, (h c).2⟩)
    (Cert.ReferenceIdeal.RefRun.run (F := Ideal) m' ρ')
  exact Cert.Proof.Final.result_eq m ρ m' ρ' hpre hagree c

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
